-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v95_0)) (v1 : (c : Dev Cert.KernelIdeal.nD) → Buf (Elt Ideal) ((c.tc : Thread Cert.KernelIdeal.nD Cert.KernelIdeal.τ).loc Cert.KernelIdeal.main_v95_1)) (v2 : (c : Dev Cert.KernelIdeal.nD) → Buf (Elt Ideal) ((c.tc : Thread Cert.KernelIdeal.nD Cert.KernelIdeal.τ).loc Cert.KernelIdeal.main_v95_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95_0) = v0 c
          ∧ r.2.mem ((c.tc : Thread Cert.KernelIdeal.nD Cert.KernelIdeal.τ).loc Cert.KernelIdeal.main_v95_1) = v1 c
          ∧ r.2.mem ((c.tc : Thread Cert.KernelIdeal.nD Cert.KernelIdeal.τ).loc Cert.KernelIdeal.main_v95_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S3x64x64 : Shape := ⟨3, ![3, 64, 64]⟩
abbrev S64x64 : Shape := ⟨2, ![64, 64]⟩
abbrev S64 : Shape := ⟨1, ![64]⟩
abbrev S64x4 : Shape := ⟨2, ![64, 4]⟩
abbrev S4 : Shape := ⟨1, ![4]⟩
abbrev S64x3 : Shape := ⟨2, ![64, 3]⟩
abbrev S3 : Shape := ⟨1, ![3]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S3 .f32) (main_v33 : IVec S_ 1) : IVec S_ 1 :=
  let main_v34 : FVec F S3 .f32 := Host.absf main_arg8
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  main_v38

def fn_part1 {F : FTy → Type} [FloatOps F] (main_arg5 : FVec F S64x4 .f32) (main_arg6 : FVec F S4 .f32) (main_arg7 : FVec F S64x3 .f32) (main_arg8 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x4 .f32 := Host.absf main_arg5
  let main_cst_6 : FVec F S_ .f32 := constant S_ .f32 0x7F800000#32
  let main_v20 : FVec F S64x4 .f32 := broadcastInDim S64x4 ![] bcast_S_S64x4 main_cst_6
  let main_v21 : IVec S64x4 1 := cmpf .olt main_v19 main_v20
  let main_c_7 : IVec S_ 1 := constantI S_ 1 1#1
  let main_v22 : IVec S_ 1 := (fun x v => Host.reduce IntOp.andi x v reducesTo_S64x4_S_d0_1 h_S_) main_v21 main_c_7
  let main_v23 : IVec S_ 1 := andi main_v18 main_v22
  let main_v24 : FVec F S4 .f32 := Host.absf main_arg6
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S64x3 .f32 := Host.absf main_arg7
  let main_cst_10 : FVec F S_ .f32 := constant S_ .f32 0x7F800000#32
  let main_v30 : FVec F S64x3 .f32 := broadcastInDim S64x3 ![] bcast_S_S64x3 main_cst_10
  let main_v31 : IVec S64x3 1 := cmpf .olt main_v29 main_v30
  let main_c_11 : IVec S_ 1 := constantI S_ 1 1#1
  let main_v32 : IVec S_ 1 := (fun x v => Host.reduce IntOp.andi x v reducesTo_S64x3_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1000000 32) (main_arg2 : FVec F S3x64x64 .f32) (main_arg3 : FVec F S64x64 .f32) (main_arg4 : FVec F S64 .f32) (main_arg5 : FVec F S64x4 .f32) (main_arg6 : FVec F S4 .f32) (main_arg7 : FVec F S64x3 .f32) (main_arg8 : FVec F S3 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg2
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S2x1000000 : Shape := ⟨2, ![2, 1000000]⟩
abbrev S3x64x64 : Shape := ⟨3, ![3, 64, 64]⟩
abbrev S64x64 : Shape := ⟨2, ![64, 64]⟩
abbrev S64 : Shape := ⟨1, ![64]⟩
abbrev S64x4 : Shape := ⟨2, ![64, 4]⟩
abbrev S4 : Shape := ⟨1, ![4]⟩
abbrev S64x3 : Shape := ⟨2, ![64, 3]⟩
abbrev S3 : Shape := ⟨1, ![3]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64x64 : Shape := ⟨3, ![1, 64, 64]⟩
abbrev S5000x64 : Shape := ⟨2, ![5000, 64]⟩
abbrev S1x64 : Shape := ⟨2, ![1, 64]⟩
abbrev S1x4 : Shape := ⟨2, ![1, 4]⟩
abbrev S1x3 : Shape := ⟨2, ![1, 3]⟩
abbrev S100000x4 : Shape := ⟨2, ![100000, 4]⟩
abbrev S100000x3 : Shape := ⟨2, ![100000, 3]⟩
abbrev S5000x4 : Shape := ⟨2, ![5000, 4]⟩
abbrev S5000x3 : Shape := ⟨2, ![5000, 3]⟩

abbrev nBuf : Space → Nat
  | .hbm => 129
  | .vmem => 39
  | .smem => 0
  | _ => 0

abbrev hbmTy0_0 (i : Nat) : BufTy := match i % 128 with
  | 0 => ⟨S100000x64, .f32⟩
  | 1 => ⟨S2x1000000, .i32⟩
  | 2 => ⟨S3x64x64, .f32⟩
  | 3 => ⟨S64x64, .f32⟩
  | 4 => ⟨S64, .f32⟩
  | 5 => ⟨S64x4, .f32⟩
  | 6 => ⟨S4, .f32⟩
  | 7 => ⟨S64x3, .f32⟩
  | 8 => ⟨S3, .f32⟩
  | 9 => ⟨S100000, .i32⟩
  | 10 => ⟨S1x1000000, .i32⟩
  | 11 => ⟨S1000000, .i32⟩
  | 12 => ⟨S1100000, .i32⟩
  | 13 => ⟨S1x1000000, .i32⟩
  | 14 => ⟨S1000000, .i32⟩
  | 15 => ⟨S1100000, .i32⟩
  | 16 => ⟨S_, .f32⟩
  | 17 => ⟨S1100000, .f32⟩
  | 18 => ⟨S_, .f32⟩
  | 19 => ⟨S100000, .f32⟩
  | 20 => ⟨S1100000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1100000, .i32⟩
  | 32 => ⟨S1100000, .i1⟩
  | 33 => ⟨S_, .i32⟩
  | 34 => ⟨S1100000, .i32⟩
  | 35 => ⟨S1100000, .i32⟩
  | 36 => ⟨S1100000, .i32⟩
  | 37 => ⟨S1100000x1, .i32⟩
  | 38 => ⟨S1100000, .f32⟩
  | 39 => ⟨S_, .i32⟩
  | 40 => ⟨S1100000, .i32⟩
  | 41 => ⟨S1100000, .i1⟩
  | 42 => ⟨S_, .i32⟩
  | 43 => ⟨S1100000, .i32⟩
  | 44 => ⟨S1100000, .i32⟩
  | 45 => ⟨S1100000, .i32⟩
  | 46 => ⟨S1100000x1, .i32⟩
  | 47 => ⟨S1100000, .f32⟩
  | 48 => ⟨S1100000, .f32⟩
  | 49 => ⟨S1100000x1, .f32⟩
  | 50 => ⟨S_, .i32⟩
  | 51 => ⟨S1100000, .i32⟩
  | 52 => ⟨S1100000, .i1⟩
  | 53 => ⟨S_, .i32⟩
  | 54 => ⟨S1100000, .i32⟩
  | 55 => ⟨S1100000, .i32⟩
  | 56 => ⟨S1100000, .i32⟩
  | 57 => ⟨S1100000x1, .i32⟩
  | 58 => ⟨S1100000x64, .f32⟩
  | 59 => ⟨S1100000x64, .f32⟩
  | 60 => ⟨S1100000x64, .f32⟩
  | 61 => ⟨S_, .f32⟩
  | 62 => ⟨S100000x64, .f32⟩
  | 63 => ⟨S1100000x1, .i32⟩
  | 64 => ⟨S100000x64, .f32⟩
  | 65 => ⟨S1x64x64, .f32⟩
  | 66 => ⟨S64x64, .f32⟩
  | 67 => ⟨S100000x64, .f32⟩
  | 68 => ⟨S1100000x1, .f32⟩
  | 69 => ⟨S_, .i32⟩
  | 70 => ⟨S1100000, .i32⟩
  | 71 => ⟨S1100000, .i1⟩
  | 72 => ⟨S_, .i32⟩
  | 73 => ⟨S1100000, .i32⟩
  | 74 => ⟨S1100000, .i32⟩
  | 75 => ⟨S1100000, .i32⟩
  | 76 => ⟨S1100000x1, .i32⟩
  | 77 => ⟨S1100000x64, .f32⟩
  | 78 => ⟨S1100000x64, .f32⟩
  | 79 => ⟨S1100000x64, .f32⟩
  | 80 => ⟨S_, .f32⟩
  | 81 => ⟨S100000x64, .f32⟩
  | 82 => ⟨S1100000x1, .i32⟩
  | 83 => ⟨S100000x64, .f32⟩
  | 84 => ⟨S1x64x64, .f32⟩
  | 85 => ⟨S64x64, .f32⟩
  | 86 => ⟨S100000x64, .f32⟩
  | 87 => ⟨S1100000x1, .f32⟩
  | 88 => ⟨S_, .i32⟩
  | 89 => ⟨S1100000, .i32⟩
  | 90 => ⟨S1100000, .i1⟩
  | 91 => ⟨S_, .i32⟩
  | 92 => ⟨S1100000, .i32⟩
  | 93 => ⟨S1100000, .i32⟩
  | 94 => ⟨S1100000, .i32⟩
  | 95 => ⟨S1100000x1, .i32⟩
  | 96 => ⟨S1100000x64, .f32⟩
  | 97 => ⟨S1100000x64, .f32⟩
  | 98 => ⟨S1100000x64, .f32⟩
  | 99 => ⟨S_, .f32⟩
  | 100 => ⟨S100000x64, .f32⟩
  | 101 => ⟨S1100000x1, .i32⟩
  | 102 => ⟨S100000x64, .f32⟩
  | 103 => ⟨S1x64x64, .f32⟩
  | 104 => ⟨S64x64, .f32⟩
  | 105 => ⟨S100000x64, .f32⟩
  | 106 => ⟨S100000x64, .f32⟩
  | 107 => ⟨S1100000x1, .f32⟩
  | 108 => ⟨S_, .i32⟩
  | 109 => ⟨S1100000, .i32⟩
  | 110 => ⟨S1100000, .i1⟩
  | 111 => ⟨S_, .i32⟩
  | 112 => ⟨S1100000, .i32⟩
  | 113 => ⟨S1100000, .i32⟩
  | 114 => ⟨S1100000, .i32⟩
  | 115 => ⟨S1100000x1, .i32⟩
  | 116 => ⟨S1100000x64, .f32⟩
  | 117 => ⟨S1100000x64, .f32⟩
  | 118 => ⟨S1100000x64, .f32⟩
  | 119 => ⟨S_, .f32⟩
  | 120 => ⟨S100000x64, .f32⟩
  | 121 => ⟨S1100000x1, .i32⟩
  | 122 => ⟨S100000x64, .f32⟩
  | 123 => ⟨S1x64, .f32⟩
  | 124 => ⟨S1x4, .f32⟩
  | 125 => ⟨S1x3, .f32⟩
  | 126 => ⟨S100000x4, .f32⟩
  | 127 => ⟨S100000x3, .f32⟩
  | _ => ⟨S100000x64, .f32⟩

abbrev hbmTy0_1 (i : Nat) : BufTy := match i % 128 with
  | 0 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S64x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S64x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S1x64, .f32⟩
  | .local _ .vmem, ⟨29, _⟩ => ⟨S64x4, .f32⟩
  | .local _ .vmem, ⟨30, _⟩ => ⟨S1x4, .f32⟩
  | .local _ .vmem, ⟨31, _⟩ => ⟨S64x3, .f32⟩
  | .local _ .vmem, ⟨32, _⟩ => ⟨S1x3, .f32⟩
  | .local _ .vmem, ⟨33, _⟩ => ⟨S5000x4, .f32⟩
  | .local _ .vmem, ⟨34, _⟩ => ⟨S5000x4, .f32⟩
  | .local _ .vmem, ⟨35, _⟩ => ⟨S5000x3, .f32⟩
  | .local _ .vmem, ⟨36, _⟩ => ⟨S5000x3, .f32⟩
  | .local _ .vmem, ⟨37, _⟩ => ⟨S5000x64, .f32⟩
  | .local _ .vmem, ⟨38, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_15 : Ref sig .tc := ⟨.hbm, 108, rfl⟩
abbrev main_v80 : Ref sig .tc := ⟨.hbm, 109, rfl⟩
abbrev main_v81 : Ref sig .tc := ⟨.hbm, 110, rfl⟩
abbrev main_c_16 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_17 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95_0 : Ref sig .tc := ⟨.hbm, 126, rfl⟩
abbrev main_v95_1 : Ref sig .tc := ⟨.hbm, 127, rfl⟩
abbrev main_v95_2 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg5_0 : Ref sig .tc := ⟨.vmem, 32, rfl⟩
abbrev cc4_stg6_0 : Ref sig .tc := ⟨.vmem, 33, rfl⟩
abbrev cc4_stg6_1 : Ref sig .tc := ⟨.vmem, 34, rfl⟩
abbrev cc4_stg7_0 : Ref sig .tc := ⟨.vmem, 35, rfl⟩
abbrev cc4_stg7_1 : Ref sig .tc := ⟨.vmem, 36, rfl⟩
abbrev cc4_stg8_0 : Ref sig .tc := ⟨.vmem, 37, rfl⟩
abbrev cc4_stg8_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem4_0 : DmaSem sig := 31
abbrev cc4_sem5_0 : DmaSem sig := 32
abbrev cc4_sem6_0 : DmaSem sig := 33
abbrev cc4_sem6_1 : DmaSem sig := 34
abbrev cc4_sem7_0 : DmaSem sig := 35
abbrev cc4_sem7_1 : DmaSem sig := 36
abbrev cc4_sem8_0 : DmaSem sig := 37
abbrev cc4_sem8_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x4 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x4 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x3 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x3 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x4 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S5000x3 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S5000x64 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S3x64x64_S1x64x64_1_0_0 : S3x64x64.Slices ![1, 0, 0] S1x64x64
  slices_S3x64x64_S1x64x64_2_0_0 : S3x64x64.Slices ![2, 0, 0] S1x64x64
  shapeCasts_S64_S1x64 : S64.ShapeCasts S1x64
  shapeCasts_S4_S1x4 : S4.ShapeCasts S1x4
  shapeCasts_S3_S1x3 : S3.ShapeCasts S1x3
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x4_S64x4_0_0 : ∀ a, (![0, 0] : Fin 2 → Nat) a + S64x4.size a ≤ S64x4.size a
  h_S64x4 : 0 < S64x4.numel
  inb_S64x3_S64x3_0_0 : ∀ a, (![0, 0] : Fin 2 → Nat) a + S64x3.size a ≤ S64x3.size a
  h_S64x3 : 0 < S64x3.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x4_S5000x4_0_0 : ∀ a, (![0, 0] : Fin 2 → Nat) a + S5000x4.size a ≤ S5000x4.size a
  h_S5000x4 : 0 < S5000x4.numel
  inb_S5000x3_S5000x3_0_0 : ∀ a, (![0, 0] : Fin 2 → Nat) a + S5000x3.size a ≤ S5000x3.size a
  h_S5000x3 : 0 < S5000x3.numel
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S5000x64_S64x64_S5000x64_1_0_0_1_n_n_wf : DotDims.WF S5000x64 S64x64 S5000x64 [1] [0] [0] [1] [] []
  dot_S5000x64_S64x4_S5000x4_1_0_0_1_n_n_wf : DotDims.WF S5000x64 S64x4 S5000x4 [1] [0] [0] [1] [] []
  dot_S5000x64_S64x3_S5000x3_1_0_0_1_n_n_wf : DotDims.WF S5000x64 S64x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x4.size a ≤ S64x4.size a
  hwx4_2 : ∀ i : grid4.Coords, EltTy.bits .f32 = 32 ∨ (Rect.block (s := S64x4) S64x4.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x4.size a ≤ S1x4.size a
  hwx4_3 : ∀ i : grid4.Coords, EltTy.bits .f32 = 32 ∨ (Rect.block (s := S1x4) S1x4.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x3.size a ≤ S64x3.size a
  hwx4_4 : ∀ i : grid4.Coords, EltTy.bits .f32 = 32 ∨ (Rect.block (s := S64x3) S64x3.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x3.size a ≤ S1x3.size a
  hwx4_5 : ∀ i : grid4.Coords, EltTy.bits .f32 = 32 ∨ (Rect.block (s := S1x3) S1x3.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x4.size a ≤ S100000x4.size a
  hwx4_6 : ∀ i : grid4.Coords, EltTy.bits .f32 = 32 ∨ (Rect.block (s := S100000x4) S5000x4.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x3.size a ≤ S100000x3.size a
  hwx4_7 : ∀ i : grid4.Coords, EltTy.bits .f32 = 32 ∨ (Rect.block (s := S100000x3) S5000x3.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x64.size a ≤ S100000x64.size a
  hwx4_8 : ∀ i : grid4.Coords, EltTy.bits .f32 = 32 ∨ (Rect.block (s := S100000x64) S5000x64.size (cc4_transform_8 i) (hinb4_8 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x4_S5000x4_1_0_0_1_n_n : DotDims S5000x64 S64x4 S5000x4 where
  lhsContracting := [1]
  rhsContracting := [0]
  lhsNonContracting := [0]
  rhsNonContracting := [1]
  lhsBatch := []
  rhsBatch := []
  wf := dot_S5000x64_S64x4_S5000x4_1_0_0_1_n_n_wf
def dot_S5000x64_S64x3_S5000x3_1_0_0_1_n_n : DotDims S5000x64 S64x3 S5000x3 where
  lhsContracting := [1]
  rhsContracting := [0]
  lhsNonContracting := [0]
  rhsNonContracting := [1]
  lhsBatch := []
  rhsBatch := []
  wf := dot_S5000x64_S64x3_S5000x3_1_0_0_1_n_n_wf

abbrev win0_0 : Pipeline.Window sig grid0 :=
  Pipeline.Window.ofSpec (Memref.whole main_v42) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v58) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v60) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v74) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v76) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v77) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v77) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v91) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg5) S64x4.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S1x4.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg7) S64x3.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v94) S1x3.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v95_0) S5000x4.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v95_1) S5000x3.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v95_2) S5000x64.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S3x64x64 : Shape := ⟨3, ![3, 64, 64]⟩
abbrev S64x64 : Shape := ⟨2, ![64, 64]⟩
abbrev S64 : Shape := ⟨1, ![64]⟩
abbrev S64x4 : Shape := ⟨2, ![64, 4]⟩
abbrev S4 : Shape := ⟨1, ![4]⟩
abbrev S64x3 : Shape := ⟨2, ![64, 3]⟩
abbrev S3 : Shape := ⟨1, ![3]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64x64 : Shape := ⟨3, ![1, 64, 64]⟩
abbrev S1x64 : Shape := ⟨2, ![1, 64]⟩
abbrev S100000x4 : Shape := ⟨2, ![100000, 4]⟩
abbrev S1x4 : Shape := ⟨2, ![1, 4]⟩
abbrev S100000x3 : Shape := ⟨2, ![100000, 3]⟩
abbrev S1x3 : Shape := ⟨2, ![1, 3]⟩

abbrev nBuf : Space → Nat
  | .hbm => 164
  | .vmem => 0
  | .smem => 0
  | _ => 0

abbrev hbmTy0_0 (i : Nat) : BufTy := match i % 128 with
  | 0 => ⟨S100000x64, .f32⟩
  | 1 => ⟨S2x1000000, .i32⟩
  | 2 => ⟨S3x64x64, .f32⟩
  | 3 => ⟨S64x64, .f32⟩
  | 4 => ⟨S64, .f32⟩
  | 5 => ⟨S64x4, .f32⟩
  | 6 => ⟨S4, .f32⟩
  | 7 => ⟨S64x3, .f32⟩
  | 8 => ⟨S3, .f32⟩
  | 9 => ⟨S100000, .i32⟩
  | 10 => ⟨S1x1000000, .i32⟩
  | 11 => ⟨S1000000, .i32⟩
  | 12 => ⟨S1100000, .i32⟩
  | 13 => ⟨S1x1000000, .i32⟩
  | 14 => ⟨S1000000, .i32⟩
  | 15 => ⟨S1100000, .i32⟩
  | 16 => ⟨S_, .f32⟩
  | 17 => ⟨S1100000, .f32⟩
  | 18 => ⟨S_, .f32⟩
  | 19 => ⟨S100000, .f32⟩
  | 20 => ⟨S1100000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1100000, .i32⟩
  | 32 => ⟨S1100000, .i1⟩
  | 33 => ⟨S_, .i32⟩
  | 34 => ⟨S1100000, .i32⟩
  | 35 => ⟨S1100000, .i32⟩
  | 36 => ⟨S1100000, .i32⟩
  | 37 => ⟨S1100000x1, .i32⟩
  | 38 => ⟨S1100000, .f32⟩
  | 39 => ⟨S_, .i32⟩
  | 40 => ⟨S1100000, .i32⟩
  | 41 => ⟨S1100000, .i1⟩
  | 42 => ⟨S_, .i32⟩
  | 43 => ⟨S1100000, .i32⟩
  | 44 => ⟨S1100000, .i32⟩
  | 45 => ⟨S1100000, .i32⟩
  | 46 => ⟨S1100000x1, .i32⟩
  | 47 => ⟨S1100000, .f32⟩
  | 48 => ⟨S1100000, .f32⟩
  | 49 => ⟨S1100000x1, .f32⟩
  | 50 => ⟨S_, .i32⟩
  | 51 => ⟨S1100000, .i32⟩
  | 52 => ⟨S1100000, .i1⟩
  | 53 => ⟨S_, .i32⟩
  | 54 => ⟨S1100000, .i32⟩
  | 55 => ⟨S1100000, .i32⟩
  | 56 => ⟨S1100000, .i32⟩
  | 57 => ⟨S1100000x1, .i32⟩
  | 58 => ⟨S1100000x64, .f32⟩
  | 59 => ⟨S1100000x64, .f32⟩
  | 60 => ⟨S1100000x64, .f32⟩
  | 61 => ⟨S_, .f32⟩
  | 62 => ⟨S100000x64, .f32⟩
  | 63 => ⟨S1100000x1, .i32⟩
  | 64 => ⟨S100000x64, .f32⟩
  | 65 => ⟨S_, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S1x64x64, .f32⟩
  | 73 => ⟨S64x64, .f32⟩
  | 74 => ⟨S100000x64, .f32⟩
  | 75 => ⟨S_, .f32⟩
  | 76 => ⟨S100000x64, .f32⟩
  | 77 => ⟨S100000x64, .f32⟩
  | 78 => ⟨S1100000x1, .f32⟩
  | 79 => ⟨S_, .i32⟩
  | 80 => ⟨S1100000, .i32⟩
  | 81 => ⟨S1100000, .i1⟩
  | 82 => ⟨S_, .i32⟩
  | 83 => ⟨S1100000, .i32⟩
  | 84 => ⟨S1100000, .i32⟩
  | 85 => ⟨S1100000, .i32⟩
  | 86 => ⟨S1100000x1, .i32⟩
  | 87 => ⟨S1100000x64, .f32⟩
  | 88 => ⟨S1100000x64, .f32⟩
  | 89 => ⟨S1100000x64, .f32⟩
  | 90 => ⟨S_, .f32⟩
  | 91 => ⟨S100000x64, .f32⟩
  | 92 => ⟨S1100000x1, .i32⟩
  | 93 => ⟨S100000x64, .f32⟩
  | 94 => ⟨S_, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S100000x64, .f32⟩
  | 101 => ⟨S1x64x64, .f32⟩
  | 102 => ⟨S64x64, .f32⟩
  | 103 => ⟨S100000x64, .f32⟩
  | 104 => ⟨S_, .f32⟩
  | 105 => ⟨S100000x64, .f32⟩
  | 106 => ⟨S100000x64, .f32⟩
  | 107 => ⟨S1100000x1, .f32⟩
  | 108 => ⟨S_, .i32⟩
  | 109 => ⟨S1100000, .i32⟩
  | 110 => ⟨S1100000, .i1⟩
  | 111 => ⟨S_, .i32⟩
  | 112 => ⟨S1100000, .i32⟩
  | 113 => ⟨S1100000, .i32⟩
  | 114 => ⟨S1100000, .i32⟩
  | 115 => ⟨S1100000x1, .i32⟩
  | 116 => ⟨S1100000x64, .f32⟩
  | 117 => ⟨S1100000x64, .f32⟩
  | 118 => ⟨S1100000x64, .f32⟩
  | 119 => ⟨S_, .f32⟩
  | 120 => ⟨S100000x64, .f32⟩
  | 121 => ⟨S1100000x1, .i32⟩
  | 122 => ⟨S100000x64, .f32⟩
  | 123 => ⟨S_, .f32⟩
  | 124 => ⟨S100000x64, .f32⟩
  | 125 => ⟨S100000x64, .f32⟩
  | 126 => ⟨S_, .f32⟩
  | 127 => ⟨S100000x64, .f32⟩
  | _ => ⟨S100000x64, .f32⟩

abbrev hbmTy0_1 (i : Nat) : BufTy := match i % 128 with
  | 0 => ⟨S100000x64, .f32⟩
  | 1 => ⟨S100000x64, .f32⟩
  | 2 => ⟨S1x64x64, .f32⟩
  | 3 => ⟨S64x64, .f32⟩
  | 4 => ⟨S100000x64, .f32⟩
  | 5 => ⟨S_, .f32⟩
  | 6 => ⟨S100000x64, .f32⟩
  | 7 => ⟨S100000x64, .f32⟩
  | 8 => ⟨S100000x64, .f32⟩
  | 9 => ⟨S1100000x1, .f32⟩
  | 10 => ⟨S_, .i32⟩
  | 11 => ⟨S1100000, .i32⟩
  | 12 => ⟨S1100000, .i1⟩
  | 13 => ⟨S_, .i32⟩
  | 14 => ⟨S1100000, .i32⟩
  | 15 => ⟨S1100000, .i32⟩
  | 16 => ⟨S1100000, .i32⟩
  | 17 => ⟨S1100000x1, .i32⟩
  | 18 => ⟨S1100000x64, .f32⟩
  | 19 => ⟨S1100000x64, .f32⟩
  | 20 => ⟨S1100000x64, .f32⟩
  | 21 => ⟨S_, .f32⟩
  | 22 => ⟨S100000x64, .f32⟩
  | 23 => ⟨S1100000x1, .i32⟩
  | 24 => ⟨S100000x64, .f32⟩
  | 25 => ⟨S1x64, .f32⟩
  | 26 => ⟨S100000x64, .f32⟩
  | 27 => ⟨S100000x64, .f32⟩
  | 28 => ⟨S100000x4, .f32⟩
  | 29 => ⟨S1x4, .f32⟩
  | 30 => ⟨S100000x4, .f32⟩
  | 31 => ⟨S100000x4, .f32⟩
  | 32 => ⟨S100000x3, .f32⟩
  | 33 => ⟨S1x3, .f32⟩
  | 34 => ⟨S100000x3, .f32⟩
  | 35 => ⟨S100000x3, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_cst : Ref sig .tc := ⟨.hbm, 75, rfl⟩
abbrev main_call1_v0 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_14 : Ref sig .tc := ⟨.hbm, 94, rfl⟩
abbrev main_v65 : Ref sig .tc := ⟨.hbm, 95, rfl⟩
abbrev main_v66 : Ref sig .tc := ⟨.hbm, 96, rfl⟩
abbrev main_cst_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call2_cst : Ref sig .tc := ⟨.hbm, 104, rfl⟩
abbrev main_call2_v0 : Ref sig .tc := ⟨.hbm, 105, rfl⟩
abbrev main_v73 : Ref sig .tc := ⟨.hbm, 106, rfl⟩
abbrev main_v74 : Ref sig .tc := ⟨.hbm, 107, rfl⟩
abbrev main_c_16 : Ref sig .tc := ⟨.hbm, 108, rfl⟩
abbrev main_v75 : Ref sig .tc := ⟨.hbm, 109, rfl⟩
abbrev main_v76 : Ref sig .tc := ⟨.hbm, 110, rfl⟩
abbrev main_c_17 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_19 : Ref sig .tc := ⟨.hbm, 123, rfl⟩
abbrev main_v87 : Ref sig .tc := ⟨.hbm, 124, rfl⟩
abbrev main_v88 : Ref sig .tc := ⟨.hbm, 125, rfl⟩
abbrev main_cst_20 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call3_cst : Ref sig .tc := ⟨.hbm, 133, rfl⟩
abbrev main_call3_v0 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_21 : Ref sig .tc := ⟨.hbm, 138, rfl⟩
abbrev main_v98 : Ref sig .tc := ⟨.hbm, 139, rfl⟩
abbrev main_v99 : Ref sig .tc := ⟨.hbm, 140, rfl⟩
abbrev main_c_22 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_23 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x64_S100000x64_1_0_0_1_n_n_wf : DotDims.WF S100000x64 S64x64 S100000x64 [1] [0] [0] [1] [] []
  dot_S100000x64_S64x4_S100000x4_1_0_0_1_n_n_wf : DotDims.WF S100000x64 S64x4 S100000x4 [1] [0] [0] [1] [] []
  dot_S100000x64_S64x3_S100000x3_1_0_0_1_n_n_wf : DotDims.WF S100000x64 S64x3 S100000x3 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf

class Facts : Prop extends Facts₀ where

variable [Facts]
-- ==== Proof.KernelRun.lean ====
/-
  The idealized kernel program's run with its three results NAMED: every weakly fair execution of @main terminates,
  nothing faulting, with each result array holding what the last segment boundary's contents give it (the fold of
  the host stretches and the five regions' write-backs from the launch memory) and every argument array as launched.
  The frame certificate proves the same run and keeps only the arguments; here the final thread state is read at the
  three result buffers as well.
-/
import proofs.«180074_j12687333392405_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its eleven segments, the last thread state read at the results and at the arguments. -/
theorem run : θ_run defs (onTc (τ := τ) (main (F := F))) ⟨m, fun _ => 0, ρ⟩ (fun r => ∀ c : Dev nD,
      r.2.mem ((c.tc : Thread nD τ).loc main_v95_0) = W11 m ρ c (Proc.devRef .tc main_v95_0)
      ∧ r.2.mem ((c.tc : Thread nD τ).loc main_v95_1) = W11 m ρ c (Proc.devRef .tc main_v95_1)
      ∧ r.2.mem ((c.tc : Thread nD τ).loc main_v95_2) = W11 m ρ c (Proc.devRef .tc main_v95_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨(h c _ (mem_uc main_v95_0 (by decide))),
       (h c _ (mem_uc main_v95_1 (by decide))),
       (h c _ (mem_uc main_v95_2 (by decide))),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Results

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibLeakyDense.lean ====
/-
  LEAKY-RECTIFIED DENSE STAGES, READ AT AN INDEX, generic in the extents.

  Over the extended reals, with  leaky v = v if v ≥ 0 else 0.2·v  (the slope the f32 word 0x3E4CCCCD, the zero the
  f32 word 0, both kept as words: the two spellings below carry the same words, so neither is ever evaluated):

  * a bias vector [B] laid as the row [1, B] and spread over [A, B] reads b(c) at (r, c) — in a kernel's spelling
    (shape cast, then vector broadcast) and in the host's (two broadcast_in_dim);
  * a scalar splat over any shape is the host's broadcast of a rank-0 constant;
  * x + bias row, then leaky, at (r, c) is  leaky (x(r, c) + b(c))  in both spellings;
  * a plain product whose operands pass a narrowing format change (the identity on the extended reals) is the host's
    dot_general of the operands, entry by entry:  Σ_k l(r, k) · w(k, c).

  * the two-layer head (leaky (z · W₂ + b₂)) · W₃ + b₃ at (r, c) as one double sum, in both spellings.

  Nothing here depends on a program.
-/
import Idealize.ShloMosaic.Lib.ValueIdx
import Idealize.ShloMosaic.Lib.ValueLayout
import Idealize.ShloMosaic.Lib.Pipeline.Value
import Idealize.ShloMosaic.PureOps.Ideal.Laws
import proofs.«180074_j12687333392405_1_alg».proof.Proof.LibPlainDot

noncomputable section

open scoped BigOperators

namespace Cert.Lib.LeakyDense

open Idealize.ShloMosaic Idealize.ShloMosaic.ValueIdx Cert.Lib.PlainDot

variable {A K B : Nat}

/-- leaky v = v where v ≥ 0, 0.2·v elsewhere: the comparison, the product and the choice as one scalar function
    of the extended real v, the zero and the slope as their f32 words. -/
def leaky (v : Ideal .f32) : Ideal .f32 :=
  Scalar.select (FloatOps.cmpf .oge v (FloatOps.ofBits .f32 0x00000000#32)) v
    (FloatOps.mulf (FloatOps.ofBits .f32 0x3E4CCCCD#32) v)

/-! ## The bias row -/

/-- A kernel's spelling: the vector [B] cast to [1, B] and broadcast over the rows of [A, B] reads b(c) at (r, c). -/
theorem kernelRow_apply {α : Type} (b : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (r : Fin A) (c : Fin B) :
    broadcastTo ⟨2, ![A, B]⟩ (shapeCast ⟨2, ![1, B]⟩ b h1) h2 (ix2 r c) = b (ix1 c) :=
  (broadcastTo_1b_ab_apply _ h2 r c).trans (shapeCast_a_1a_apply b h1 0 c)

/-- The host's spelling: the vector [B] broadcast along axis 1 into [1, B], then over [A, B], reads b(c) at (r, c). -/
theorem hostRow_apply {α : Type} (b : (⟨1, ![B]⟩ : Shape).Idx → α)
    (g1 : (⟨1, ![B]⟩ : Shape).BroadcastsInDim ⟨2, ![1, B]⟩ (![1] : Fin 1 → Fin 2))
    (g2 : (⟨2, ![1, B]⟩ : Shape).BroadcastsInDim ⟨2, ![A, B]⟩ (![0, 1] : Fin 2 → Fin 2))
    (r : Fin A) (c : Fin B) :
    broadcastInDim ⟨2, ![A, B]⟩ (![0, 1] : Fin 2 → Fin 2) g2 (broadcastInDim ⟨2, ![1, B]⟩ (![1] : Fin 1 → Fin 2) g1 b) (ix2 r c) = b (ix1 c) := by
  refine (broadcastInDim_apply _ g2 _ (ix2 r c) (ix2 (0 : Fin 1) c) fun a => ?_).trans
    (broadcastInDim_apply _ g1 b (ix2 (0 : Fin 1) c) (ix1 c) fun a => ?_)
  · match a with
    | ⟨0, _⟩ => show (0 : Nat) = if (1 : Nat) = 1 then 0 else r.val; rw [if_pos rfl]
    | ⟨1, _⟩ =>
      show c.val = if B = 1 then 0 else c.val
      split
      · have := c.isLt; omega
      · rfl
  · match a with
    | ⟨0, _⟩ =>
      show c.val = if B = 1 then 0 else c.val
      split
      · have := c.isLt; omega
      · rfl

/-! ## Bias, then leaky -/

/-- A kernel's spelling of  leaky (x + bias row)  at (r, c): the zero and the slope splat from scalars. -/
theorem kernelBiasLeaky_apply (x : FVec Ideal ⟨2, ![A, B]⟩ .f32) (b : FVec Ideal ⟨1, ![B]⟩ .f32)
    (h1 : (⟨1, ![B]⟩ : Shape).ShapeCasts ⟨2, ![1, B]⟩) (h2 : (⟨2, ![1, B]⟩ : Shape).Broadcasts ⟨2, ![A, B]⟩)
    (r : Fin A) (c : Fin B) :
    select (cmpf .oge (addf x (broadcastTo ⟨2, ![A, B]⟩ (shapeCast ⟨2, ![1, B]⟩ b h1) h2))
        (broadcast ⟨2, ![A, B]⟩ (Scalar.ofBits (F := Ideal) .f32 0x00000000#32)))
      (addf x (broadcastTo ⟨2, ![A, B]⟩ (shapeCast ⟨2, ![1, B]⟩ b h1) h2))
      (mulf (broadcast ⟨2, ![A, B]⟩ (Scalar.ofBits (F := Ideal) .f32 0x3E4CCCCD#32))
        (addf x (broadcastTo ⟨2, ![A, B]⟩ (shapeCast ⟨2, ![1, B]⟩ b h1) h2))) (ix2 r c)
      = leaky (x (ix2 r c) + b (ix1 c)) := by
  have e := kernelRow_apply (A := A) b h1 h2 r c
  show Scalar.select (FloatOps.cmpf .oge (x (ix2 r c) + _) _) (x (ix2 r c) + _) (FloatOps.mulf _ (x (ix2 r c) + _)) = _
  rw [e]
  rfl

/-- The host's spelling of  leaky (x + bias row)  at (r, c): the zero and the slope broadcast from rank-0 constants. -/
theorem hostBiasLeaky_apply (x : FVec Ideal ⟨2, ![A, B]⟩ .f32) (b : FVec Ideal ⟨1, ![B]⟩ .f32)
    (g1 : (⟨1, ![B]⟩ : Shape).BroadcastsInDim ⟨2, ![1, B]⟩ (![1] : Fin 1 → Fin 2))
    (g2 : (⟨2, ![1, B]⟩ : Shape).BroadcastsInDim ⟨2, ![A, B]⟩ (![0, 1] : Fin 2 → Fin 2))
    (g0 : (⟨0, ![]⟩ : Shape).BroadcastsInDim ⟨2, ![A, B]⟩ (![] : Fin 0 → Fin 2))
    (r : Fin A) (c : Fin B) :
    select (cmpf .oge (addf x (broadcastInDim ⟨2, ![A, B]⟩ (![0, 1] : Fin 2 → Fin 2) g2 (broadcastInDim ⟨2, ![1, B]⟩ (![1] : Fin 1 → Fin 2) g1 b)))
        (broadcastInDim ⟨2, ![A, B]⟩ (![] : Fin 0 → Fin 2) g0 (constant (F := Ideal) ⟨0, ![]⟩ .f32 0x00000000#32)))
      (addf x (broadcastInDim ⟨2, ![A, B]⟩ (![0, 1] : Fin 2 → Fin 2) g2 (broadcastInDim ⟨2, ![1, B]⟩ (![1] : Fin 1 → Fin 2) g1 b)))
      (mulf (broadcastInDim ⟨2, ![A, B]⟩ (![] : Fin 0 → Fin 2) g0 (constant (F := Ideal) ⟨0, ![]⟩ .f32 0x3E4CCCCD#32))
        (addf x (broadcastInDim ⟨2, ![A, B]⟩ (![0, 1] : Fin 2 → Fin 2) g2 (broadcastInDim ⟨2, ![1, B]⟩ (![1] : Fin 1 → Fin 2) g1 b)))) (ix2 r c)
      = leaky (x (ix2 r c) + b (ix1 c)) := by
  have e := hostRow_apply (A := A) b g1 g2 r c
  show Scalar.select (FloatOps.cmpf .oge (x (ix2 r c) + _) _) (x (ix2 r c) + _) (FloatOps.mulf _ (x (ix2 r c) + _)) = _
  rw [e]
  rfl

/-! ## The plain product through a narrowing format change -/

/-- A kernel's matmul into the zero accumulator of operands narrowed to another float format reads, at (r, c), the
    textbook sum of the operands themselves: the format change is the identity on the extended reals. -/
theorem kernelDot_apply {ψ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (hb : ψ.bits < FTy.f32.bits)
    (l : FVec Ideal ⟨2, ![A, K]⟩ .f32) (w : FVec Ideal ⟨2, ![K, B]⟩ .f32) (r : Fin A) (c : Fin B) :
    matmul d none (truncf ψ l hb) (truncf ψ w hb) (constant ⟨2, ![A, B]⟩ .f32 0x00000000#32) (ix2 r c)
      = ∑ k : Fin K, l (ix2 r k) * w (ix2 k c) := by
  obtain rfl := eq_plain d h1 h2 h3 h4 h5 h6
  exact matmul_zero_plain_apply none (truncf ψ l hb) (truncf ψ w hb) (ix2 r c)

/-- The host's dot_general of a plain product reads, at (r, c), the same sum. -/
theorem hostDot_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![A, K]⟩ .f32) (w : FVec Ideal ⟨2, ![K, B]⟩ .f32) (r : Fin A) (c : Fin B) :
    Host.dotGeneral d none l w (ix2 r c) = ∑ k : Fin K, l (ix2 r k) * w (ix2 k c) := by
  obtain rfl := eq_plain d h1 h2 h3 h4 h5 h6
  exact dotGeneral_plain_apply none l w (ix2 r c)

/-! ## Offsets of a whole-block access -/

theorem offs2 : (![0, 0] : Fin 2 → Nat) = fun _ => 0 := funext fun a => by fin_cases a <;> rfl
theorem offs1 : (![0] : Fin 1 → Nat) = fun _ => 0 := funext fun a => by fin_cases a; rfl

/-! ## A two-layer head:  (leaky (z · W₂ + b₂)) · W₃ + b₃ -/

section Head
variable {K₁ K₂ : Nat}

/-- A kernel's spelling of the head — both products into zero accumulators with operands narrowed to another float
    format, both biases cast to rows and broadcast, the zero and the slope splat — read at (r, c). -/
theorem kernelHead_apply {ψ : FTy} (d₂ : DotDims ⟨2, ![A, K₁]⟩ ⟨2, ![K₁, K₂]⟩ ⟨2, ![A, K₂]⟩) (p1 : d₂.lhsContracting = [1]) (p2 : d₂.rhsContracting = [0]) (p3 : d₂.lhsNonContracting = [0])
    (p4 : d₂.rhsNonContracting = [1]) (p5 : d₂.lhsBatch = []) (p6 : d₂.rhsBatch = [])
    (d₃ : DotDims ⟨2, ![A, K₂]⟩ ⟨2, ![K₂, B]⟩ ⟨2, ![A, B]⟩) (q1 : d₃.lhsContracting = [1]) (q2 : d₃.rhsContracting = [0]) (q3 : d₃.lhsNonContracting = [0])
    (q4 : d₃.rhsNonContracting = [1]) (q5 : d₃.lhsBatch = []) (q6 : d₃.rhsBatch = [])
    (hb : ψ.bits < FTy.f32.bits)
    (z : FVec Ideal ⟨2, ![A, K₁]⟩ .f32) (w₂ : FVec Ideal ⟨2, ![K₁, K₂]⟩ .f32) (b₂ : FVec Ideal ⟨1, ![K₂]⟩ .f32)
    (w₃ : FVec Ideal ⟨2, ![K₂, B]⟩ .f32) (b₃ : FVec Ideal ⟨1, ![B]⟩ .f32)
    (h0 : (⟨2, ![A, K₁]⟩ : Shape).ShapeCasts ⟨2, ![A, K₁]⟩)
    (h1 : (⟨1, ![K₂]⟩ : Shape).ShapeCasts ⟨2, ![1, K₂]⟩) (h2 : (⟨2, ![1, K₂]⟩ : Shape).Broadcasts ⟨2, ![A, K₂]⟩)
    (h3 : (⟨1, ![B]⟩ : Shape).ShapeCasts ⟨2, ![1, B]⟩) (h4 : (⟨2, ![1, B]⟩ : Shape).Broadcasts ⟨2, ![A, B]⟩)
    (r : Fin A) (c : Fin B) :
    (addf (matmul d₃ none (truncf ψ (select (cmpf .oge (addf (matmul d₂ none (truncf ψ (shapeCast ⟨2, ![A, K₁]⟩ z h0) hb) (truncf ψ w₂ hb) (constant ⟨2, ![A, K₂]⟩ .f32 0x00000000#32)) (broadcastTo ⟨2, ![A, K₂]⟩ (shapeCast ⟨2, ![1, K₂]⟩ b₂ h1) h2)) (broadcast ⟨2, ![A, K₂]⟩ (Scalar.ofBits (F := Ideal) .f32 0x00000000#32))) (addf (matmul d₂ none (truncf ψ (shapeCast ⟨2, ![A, K₁]⟩ z h0) hb) (truncf ψ w₂ hb) (constant ⟨2, ![A, K₂]⟩ .f32 0x00000000#32)) (broadcastTo ⟨2, ![A, K₂]⟩ (shapeCast ⟨2, ![1, K₂]⟩ b₂ h1) h2)) (mulf (broadcast ⟨2, ![A, K₂]⟩ (Scalar.ofBits (F := Ideal) .f32 0x3E4CCCCD#32)) (addf (matmul d₂ none (truncf ψ (shapeCast ⟨2, ![A, K₁]⟩ z h0) hb) (truncf ψ w₂ hb) (constant ⟨2, ![A, K₂]⟩ .f32 0x00000000#32)) (broadcastTo ⟨2, ![A, K₂]⟩ (shapeCast ⟨2, ![1, K₂]⟩ b₂ h1) h2)))) hb) (truncf ψ w₃ hb) (constant ⟨2, ![A, B]⟩ .f32 0x00000000#32)) (broadcastTo ⟨2, ![A, B]⟩ (shapeCast ⟨2, ![1, B]⟩ b₃ h3) h4)) (ix2 r c)
      = (∑ k : Fin K₂, leaky ((∑ j : Fin K₁, z (ix2 r j) * w₂ (ix2 j k)) + b₂ (ix1 k)) * w₃ (ix2 k c)) + b₃ (ix1 c) := by
  show (matmul d₃ none _ _ _) (ix2 r c) + (broadcastTo ⟨2, ![A, B]⟩ (shapeCast ⟨2, ![1, B]⟩ b₃ h3) h4) (ix2 r c) = _
  rw [kernelRow_apply (A := A) b₃ h3 h4 r c, kernelDot_apply d₃ q1 q2 q3 q4 q5 q6 hb _ w₃ r c]
  refine congrArg (· + b₃ (ix1 c)) (Finset.sum_congr rfl fun k _ => congrArg (· * w₃ (ix2 k c)) ?_)
  rw [kernelBiasLeaky_apply (A := A) _ b₂ h1 h2 r k, kernelDot_apply d₂ p1 p2 p3 p4 p5 p6 hb _ w₂ r k, shapeCast_self]

/-- The host's spelling of the head — two dot_general, each bias broadcast twice, the zero and the slope broadcast
    from rank-0 constants — read at (r, c): the same double sum. -/
theorem hostHead_apply (d₂ : DotDims ⟨2, ![A, K₁]⟩ ⟨2, ![K₁, K₂]⟩ ⟨2, ![A, K₂]⟩) (p1 : d₂.lhsContracting = [1]) (p2 : d₂.rhsContracting = [0]) (p3 : d₂.lhsNonContracting = [0])
    (p4 : d₂.rhsNonContracting = [1]) (p5 : d₂.lhsBatch = []) (p6 : d₂.rhsBatch = [])
    (d₃ : DotDims ⟨2, ![A, K₂]⟩ ⟨2, ![K₂, B]⟩ ⟨2, ![A, B]⟩) (q1 : d₃.lhsContracting = [1]) (q2 : d₃.rhsContracting = [0]) (q3 : d₃.lhsNonContracting = [0])
    (q4 : d₃.rhsNonContracting = [1]) (q5 : d₃.lhsBatch = []) (q6 : d₃.rhsBatch = [])
    (z : FVec Ideal ⟨2, ![A, K₁]⟩ .f32) (w₂ : FVec Ideal ⟨2, ![K₁, K₂]⟩ .f32) (b₂ : FVec Ideal ⟨1, ![K₂]⟩ .f32)
    (w₃ : FVec Ideal ⟨2, ![K₂, B]⟩ .f32) (b₃ : FVec Ideal ⟨1, ![B]⟩ .f32)
    (g1 : (⟨1, ![K₂]⟩ : Shape).BroadcastsInDim ⟨2, ![1, K₂]⟩ (![1] : Fin 1 → Fin 2))
    (g2 : (⟨2, ![1, K₂]⟩ : Shape).BroadcastsInDim ⟨2, ![A, K₂]⟩ (![0, 1] : Fin 2 → Fin 2))
    (g0 : (⟨0, ![]⟩ : Shape).BroadcastsInDim ⟨2, ![A, K₂]⟩ (![] : Fin 0 → Fin 2))
    (g3 : (⟨1, ![B]⟩ : Shape).BroadcastsInDim ⟨2, ![1, B]⟩ (![1] : Fin 1 → Fin 2))
    (g4 : (⟨2, ![1, B]⟩ : Shape).BroadcastsInDim ⟨2, ![A, B]⟩ (![0, 1] : Fin 2 → Fin 2))
    (r : Fin A) (c : Fin B) :
    (addf (Host.dotGeneral d₃ none (select (cmpf .oge (addf (Host.dotGeneral d₂ none z w₂) (broadcastInDim ⟨2, ![A, K₂]⟩ (![0, 1] : Fin 2 → Fin 2) g2 (broadcastInDim ⟨2, ![1, K₂]⟩ (![1] : Fin 1 → Fin 2) g1 b₂))) (broadcastInDim ⟨2, ![A, K₂]⟩ (![] : Fin 0 → Fin 2) g0 (constant (F := Ideal) ⟨0, ![]⟩ .f32 0x00000000#32))) (addf (Host.dotGeneral d₂ none z w₂) (broadcastInDim ⟨2, ![A, K₂]⟩ (![0, 1] : Fin 2 → Fin 2) g2 (broadcastInDim ⟨2, ![1, K₂]⟩ (![1] : Fin 1 → Fin 2) g1 b₂))) (mulf (broadcastInDim ⟨2, ![A, K₂]⟩ (![] : Fin 0 → Fin 2) g0 (constant (F := Ideal) ⟨0, ![]⟩ .f32 0x3E4CCCCD#32)) (addf (Host.dotGeneral d₂ none z w₂) (broadcastInDim ⟨2, ![A, K₂]⟩ (![0, 1] : Fin 2 → Fin 2) g2 (broadcastInDim ⟨2, ![1, K₂]⟩ (![1] : Fin 1 → Fin 2) g1 b₂))))) w₃) (broadcastInDim ⟨2, ![A, B]⟩ (![0, 1] : Fin 2 → Fin 2) g4 (broadcastInDim ⟨2, ![1, B]⟩ (![1] : Fin 1 → Fin 2) g3 b₃))) (ix2 r c)
      = (∑ k : Fin K₂, leaky ((∑ j : Fin K₁, z (ix2 r j) * w₂ (ix2 j k)) + b₂ (ix1 k)) * w₃ (ix2 k c)) + b₃ (ix1 c) := by
  show (Host.dotGeneral d₃ none _ w₃) (ix2 r c) + (broadcastInDim ⟨2, ![A, B]⟩ (![0, 1] : Fin 2 → Fin 2) g4 (broadcastInDim ⟨2, ![1, B]⟩ (![1] : Fin 1 → Fin 2) g3 b₃)) (ix2 r c) = _
  rw [hostRow_apply (A := A) b₃ g3 g4 r c, hostDot_apply d₃ q1 q2 q3 q4 q5 q6 _ w₃ r c]
  refine congrArg (· + b₃ (ix1 c)) (Finset.sum_congr rfl fun k _ => congrArg (· * w₃ (ix2 k c)) ?_)
  rw [hostBiasLeaky_apply (A := A) _ b₂ g1 g2 g0 r k, hostDot_apply d₂ p1 p2 p3 p4 p5 p6 z w₂ r k]

end Head

end Cert.Lib.LeakyDense

end
-- ==== Proof.LibBlendDense.lean ====
/-
  A BLEND OF TWO ARRAYS FED THROUGH A PLAIN PRODUCT AND A RECTIFIER, A BARE PLAIN PRODUCT, AND A ROW ADDED TO
  EVERY ROW OF AN ARRAY — each as a whole-array function over generic extents, read at an index (r, c) in a
  kernel's spelling and as a whole array in the host's, with the row-locality of each.

  * `blendRelu ca cb p x w` — entry (r, c) is  max (Σ_k (ca · p(r, k) + cb · x(r, k)) · w(k, c)) 0,  the two
    weights `ca`, `cb` and the zero kept as f32 words (both spellings carry the same words, so none is evaluated).
    A kernel spells it with the weights splat from scalars, the blend and the matrix narrowed to another float
    format (the identity on the extended reals) on the way into a matmul with a zero accumulator, and a maximum
    against a splat zero; the host with rank-0 constants broadcast, a dot_general and a maximum against a broadcast
    rank-0 zero.
  * `prod x w` — entry (r, c) is  Σ_k x(r, k) · w(k, c).
  * `addRow p brow` — entry (r, c) is  p(r, c) + brow(0, c),  the row laid as [1, B].

  Every entry (r, c) sees row r of the left operands only: a block of rows of the result is the result of the
  block of rows (`blendRelu_congr`, `prod_congr`, `addRow_congr`).  Nothing here depends on a program.
-/
import Idealize.ShloMosaic.Lib.ValueIdx
import Idealize.ShloMosaic.Lib.ValueLayout
import Idealize.ShloMosaic.Lib.Pipeline.Value
import Idealize.ShloMosaic.PureOps.Ideal.Laws
import proofs.«180074_j12687333392405_1_alg».proof.Proof.LibPlainDot
import proofs.«180074_j12687333392405_1_alg».proof.Proof.LibLeakyDense

noncomputable section

open scoped BigOperators

namespace Cert.Lib.BlendDense

open Idealize.ShloMosaic Idealize.ShloMosaic.ValueIdx Cert.Lib.PlainDot Cert.Lib.LeakyDense

variable {A K B : Nat}

/-- Blend, plain product, rectifier: entry (r, c) is max (Σ_k (ca · p(r, k) + cb · x(r, k)) · w(k, c)) 0. -/
def blendRelu (ca cb : BitVec 32) (p x : (⟨2, ![A, K]⟩ : Shape).Idx → Ideal .f32)
    (w : (⟨2, ![K, B]⟩ : Shape).Idx → Ideal .f32) : (⟨2, ![A, B]⟩ : Shape).Idx → Ideal .f32 :=
  fun i => FloatOps.maximumf
    (∑ k : Fin K, FloatOps.addf (FloatOps.mulf (FloatOps.ofBits .f32 ca) (p (ix2 (i 0) k)))
        (FloatOps.mulf (FloatOps.ofBits .f32 cb) (x (ix2 (i 0) k))) * w (ix2 k (i 1)))
    (FloatOps.ofBits .f32 0x00000000#32)

/-- A plain product: entry (r, c) is Σ_k x(r, k) · w(k, c). -/
def prod (x : (⟨2, ![A, K]⟩ : Shape).Idx → Ideal .f32) (w : (⟨2, ![K, B]⟩ : Shape).Idx → Ideal .f32) :
    (⟨2, ![A, B]⟩ : Shape).Idx → Ideal .f32 :=
  fun i => ∑ k : Fin K, x (ix2 (i 0) k) * w (ix2 k (i 1))

/-- A row added to every row: entry (r, c) is p(r, c) + brow(0, c). -/
def addRow (p : (⟨2, ![A, B]⟩ : Shape).Idx → Ideal .f32) (brow : (⟨2, ![1, B]⟩ : Shape).Idx → Ideal .f32) :
    (⟨2, ![A, B]⟩ : Shape).Idx → Ideal .f32 :=
  fun i => FloatOps.addf (p i) (brow (ix2 (0 : Fin 1) (i 1)))

/-! ## Row-locality -/

theorem blendRelu_congr {A' : Nat} (ca cb : BitVec 32) (p x : (⟨2, ![A, K]⟩ : Shape).Idx → Ideal .f32)
    (p' x' : (⟨2, ![A', K]⟩ : Shape).Idx → Ideal .f32) (w w' : (⟨2, ![K, B]⟩ : Shape).Idx → Ideal .f32)
    (r : Fin A) (r' : Fin A') (c : Fin B)
    (hp : ∀ k : Fin K, p (ix2 r k) = p' (ix2 r' k)) (hx : ∀ k : Fin K, x (ix2 r k) = x' (ix2 r' k))
    (hw : ∀ k : Fin K, w (ix2 k c) = w' (ix2 k c)) :
    blendRelu ca cb p x w (ix2 r c) = blendRelu ca cb p' x' w' (ix2 r' c) := by
  show FloatOps.maximumf (∑ k : Fin K, FloatOps.addf (FloatOps.mulf _ (p (ix2 r k))) (FloatOps.mulf _ (x (ix2 r k))) * w (ix2 k c)) _
    = FloatOps.maximumf (∑ k : Fin K, FloatOps.addf (FloatOps.mulf _ (p' (ix2 r' k))) (FloatOps.mulf _ (x' (ix2 r' k))) * w' (ix2 k c)) _
  refine congrArg (fun s => FloatOps.maximumf s (FloatOps.ofBits .f32 0x00000000#32)) (Finset.sum_congr rfl fun k _ => ?_)
  rw [hp k, hx k, hw k]

theorem prod_congr {A' : Nat} (x : (⟨2, ![A, K]⟩ : Shape).Idx → Ideal .f32) (x' : (⟨2, ![A', K]⟩ : Shape).Idx → Ideal .f32)
    (w w' : (⟨2, ![K, B]⟩ : Shape).Idx → Ideal .f32) (r : Fin A) (r' : Fin A') (c : Fin B)
    (hx : ∀ k : Fin K, x (ix2 r k) = x' (ix2 r' k)) (hw : ∀ k : Fin K, w (ix2 k c) = w' (ix2 k c)) :
    prod x w (ix2 r c) = prod x' w' (ix2 r' c) := by
  show (∑ k : Fin K, x (ix2 r k) * w (ix2 k c)) = ∑ k : Fin K, x' (ix2 r' k) * w' (ix2 k c)
  refine Finset.sum_congr rfl fun k _ => ?_
  rw [hx k, hw k]

theorem addRow_congr {A' : Nat} (p : (⟨2, ![A, B]⟩ : Shape).Idx → Ideal .f32) (p' : (⟨2, ![A', B]⟩ : Shape).Idx → Ideal .f32)
    (brow brow' : (⟨2, ![1, B]⟩ : Shape).Idx → Ideal .f32) (r : Fin A) (r' : Fin A') (c : Fin B)
    (hp : p (ix2 r c) = p' (ix2 r' c)) (hb : brow (ix2 (0 : Fin 1) c) = brow' (ix2 (0 : Fin 1) c)) :
    addRow p brow (ix2 r c) = addRow p' brow' (ix2 r' c) := by
  show FloatOps.addf (p (ix2 r c)) (brow (ix2 (0 : Fin 1) c)) = FloatOps.addf (p' (ix2 r' c)) (brow' (ix2 (0 : Fin 1) c))
  rw [hp, hb]

/-! ## A kernel's spellings, read at (r, c) -/

theorem kernelBlend_apply {ψ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (hb : ψ.bits < FTy.f32.bits) (ca cb : BitVec 32)
    (p x : FVec Ideal ⟨2, ![A, K]⟩ .f32) (w : FVec Ideal ⟨2, ![K, B]⟩ .f32) (r : Fin A) (c : Fin B) :
    maximumf (matmul d none
        (truncf ψ (addf (mulf (broadcast ⟨2, ![A, K]⟩ (Scalar.ofBits (F := Ideal) .f32 ca)) p)
          (mulf (broadcast ⟨2, ![A, K]⟩ (Scalar.ofBits (F := Ideal) .f32 cb)) x)) hb)
        (truncf ψ w hb) (constant ⟨2, ![A, B]⟩ .f32 0x00000000#32))
      (broadcast ⟨2, ![A, B]⟩ (Scalar.ofBits (F := Ideal) .f32 0x00000000#32)) (ix2 r c)
      = blendRelu ca cb p x w (ix2 r c) := by
  show FloatOps.maximumf (matmul d none (truncf ψ _ hb) (truncf ψ w hb) _ (ix2 r c)) _ = _
  rw [kernelDot_apply d h1 h2 h3 h4 h5 h6 hb _ w r c]
  rfl

theorem kernelProd_apply {ψ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (hb : ψ.bits < FTy.f32.bits)
    (x : FVec Ideal ⟨2, ![A, K]⟩ .f32) (w : FVec Ideal ⟨2, ![K, B]⟩ .f32) (r : Fin A) (c : Fin B) :
    matmul d none (truncf ψ x hb) (truncf ψ w hb) (constant ⟨2, ![A, B]⟩ .f32 0x00000000#32) (ix2 r c)
      = prod x w (ix2 r c) :=
  kernelDot_apply d h1 h2 h3 h4 h5 h6 hb x w r c

theorem kernelAddRow_apply (p : FVec Ideal ⟨2, ![A, B]⟩ .f32) (brow : FVec Ideal ⟨2, ![1, B]⟩ .f32)
    (hr : (⟨2, ![1, B]⟩ : Shape).Broadcasts ⟨2, ![A, B]⟩) (r : Fin A) (c : Fin B) :
    addf p (broadcastTo ⟨2, ![A, B]⟩ brow hr) (ix2 r c) = addRow p brow (ix2 r c) := by
  show FloatOps.addf (p (ix2 r c)) (broadcastTo ⟨2, ![A, B]⟩ brow hr (ix2 r c)) = _
  rw [broadcastTo_1b_ab_apply brow hr r c]
  rfl

/-! ## The host's spellings, as whole arrays -/

theorem hostBlend_eq (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) (ca cb : BitVec 32)
    (p x : FVec Ideal ⟨2, ![A, K]⟩ .f32) (w : FVec Ideal ⟨2, ![K, B]⟩ .f32)
    (g0 : (⟨0, ![]⟩ : Shape).BroadcastsInDim ⟨2, ![A, K]⟩ (![] : Fin 0 → Fin 2))
    (g0' : (⟨0, ![]⟩ : Shape).BroadcastsInDim ⟨2, ![A, B]⟩ (![] : Fin 0 → Fin 2)) :
    maximumf (Host.dotGeneral d none
        (addf (mulf (broadcastInDim ⟨2, ![A, K]⟩ (![] : Fin 0 → Fin 2) g0 (constant (F := Ideal) ⟨0, ![]⟩ .f32 ca)) p)
          (mulf (broadcastInDim ⟨2, ![A, K]⟩ (![] : Fin 0 → Fin 2) g0 (constant (F := Ideal) ⟨0, ![]⟩ .f32 cb)) x)) w)
      (broadcastInDim ⟨2, ![A, B]⟩ (![] : Fin 0 → Fin 2) g0' (constant (F := Ideal) ⟨0, ![]⟩ .f32 0x00000000#32))
      = blendRelu ca cb p x w := by
  funext i
  obtain ⟨r, c, rfl⟩ : ∃ (r : Fin A) (c : Fin B), i = ix2 r c := ⟨i 0, i 1, eq_ix2 i⟩
  show FloatOps.maximumf (Host.dotGeneral d none _ w (ix2 r c)) _ = _
  rw [hostDot_apply d h1 h2 h3 h4 h5 h6 _ w r c]
  rfl

theorem hostProd_eq (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![A, K]⟩ .f32) (w : FVec Ideal ⟨2, ![K, B]⟩ .f32) :
    Host.dotGeneral d none x w = prod x w := by
  funext i
  obtain ⟨r, c, rfl⟩ : ∃ (r : Fin A) (c : Fin B), i = ix2 r c := ⟨i 0, i 1, eq_ix2 i⟩
  exact hostDot_apply d h1 h2 h3 h4 h5 h6 x w r c

theorem hostAddRow_eq (p : FVec Ideal ⟨2, ![A, B]⟩ .f32) (b : FVec Ideal ⟨1, ![B]⟩ .f32)
    (g1 : (⟨1, ![B]⟩ : Shape).BroadcastsInDim ⟨2, ![1, B]⟩ (![1] : Fin 1 → Fin 2))
    (g2 : (⟨2, ![1, B]⟩ : Shape).BroadcastsInDim ⟨2, ![A, B]⟩ (![0, 1] : Fin 2 → Fin 2))
    (hc : (⟨1, ![B]⟩ : Shape).ShapeCasts ⟨2, ![1, B]⟩) :
    addf p (broadcastInDim ⟨2, ![A, B]⟩ (![0, 1] : Fin 2 → Fin 2) g2 (broadcastInDim ⟨2, ![1, B]⟩ (![1] : Fin 1 → Fin 2) g1 b))
      = addRow p (shapeCast ⟨2, ![1, B]⟩ b hc) := by
  funext i
  obtain ⟨r, c, rfl⟩ : ∃ (r : Fin A) (c : Fin B), i = ix2 r c := ⟨i 0, i 1, eq_ix2 i⟩
  show FloatOps.addf (p (ix2 r c))
      (broadcastInDim ⟨2, ![A, B]⟩ (![0, 1] : Fin 2 → Fin 2) g2 (broadcastInDim ⟨2, ![1, B]⟩ (![1] : Fin 1 → Fin 2) g1 b) (ix2 r c))
    = FloatOps.addf (p (ix2 r c)) (shapeCast ⟨2, ![1, B]⟩ b hc (ix2 (0 : Fin 1) c))
  rw [hostRow_apply (A := A) b g1 g2 r c, shapeCast_a_1a_apply b hc 0 c]

end Cert.Lib.BlendDense

end
-- ==== Proof.LibGcnDense.lean ====
/-
  THE TWO DENSE STAGES OF THE NETWORK AS WHOLE-ARRAY FUNCTIONS, and each read at an index in a kernel's and in the host's
  spelling.  Generic in the extents; nothing here depends on a program.

  * `linRow x w brow` — entry (r, c) is  Σ_k x(r, k) · w(k, c) + brow(0, c):  a plain product plus a bias laid as a
    row [1, B].  A kernel spells it as a matmul into a zero accumulator of operands narrowed to another float format
    (the identity on the extended reals) plus the row broadcast over the rows; the host as a dot_general plus a vector
    [B] broadcast twice — or as the bare dot_general when the row is the zero row, since x + 0 = x on every extended
    real.
  * `actRes a brow res` — entry (r, c) is  max (a(r, c) + brow(0, c)) 0 + res(r, c):  bias, rectifier, residual.
-/
import Idealize.ShloMosaic.Lib.ValueIdx
import Idealize.ShloMosaic.Lib.ValueLayout
import Idealize.ShloMosaic.Lib.Pipeline.Value
import Idealize.ShloMosaic.PureOps.Ideal.Laws
import proofs.«180074_j12687333392405_1_alg».proof.Proof.LibPlainDot
import proofs.«180074_j12687333392405_1_alg».proof.Proof.LibLeakyDense

noncomputable section

open scoped BigOperators

namespace Cert.Lib.GcnDense

open Idealize.ShloMosaic Idealize.ShloMosaic.ValueIdx Cert.Lib.PlainDot Cert.Lib.LeakyDense

variable {A K B : Nat}

/-- A plain product plus a bias row: entry (r, c) is Σ_k x(r, k) · w(k, c) + brow(0, c). -/
def linRow (x : (⟨2, ![A, K]⟩ : Shape).Idx → Ideal .f32) (w : (⟨2, ![K, B]⟩ : Shape).Idx → Ideal .f32)
    (brow : (⟨2, ![1, B]⟩ : Shape).Idx → Ideal .f32) : (⟨2, ![A, B]⟩ : Shape).Idx → Ideal .f32 :=
  fun i => FloatOps.addf (∑ k : Fin K, x (ix2 (i 0) k) * w (ix2 k (i 1))) (brow (ix2 (0 : Fin 1) (i 1)))

/-- Bias row, rectifier, residual: entry (r, c) is max (a(r, c) + brow(0, c)) 0 + res(r, c), the zero kept as its
    f32 word. -/
def actRes (a : (⟨2, ![A, B]⟩ : Shape).Idx → Ideal .f32) (brow : (⟨2, ![1, B]⟩ : Shape).Idx → Ideal .f32)
    (res : (⟨2, ![A, B]⟩ : Shape).Idx → Ideal .f32) : (⟨2, ![A, B]⟩ : Shape).Idx → Ideal .f32 :=
  fun i => FloatOps.addf
    (FloatOps.maximumf (FloatOps.addf (a i) (brow (ix2 (0 : Fin 1) (i 1)))) (FloatOps.ofBits .f32 0x00000000#32))
    (res i)

/-- `linRow` is row-local: entry (r, c) sees the left operand's row r, the weights' column c and the bias row's entry c
    only — so a block of rows of the result is the result of the block of rows. -/
theorem linRow_congr {A' : Nat} (x : (⟨2, ![A, K]⟩ : Shape).Idx → Ideal .f32) (x' : (⟨2, ![A', K]⟩ : Shape).Idx → Ideal .f32)
    (w w' : (⟨2, ![K, B]⟩ : Shape).Idx → Ideal .f32) (brow brow' : (⟨2, ![1, B]⟩ : Shape).Idx → Ideal .f32)
    (r : Fin A) (r' : Fin A') (c : Fin B)
    (hx : ∀ k : Fin K, x (ix2 r k) = x' (ix2 r' k)) (hw : ∀ k : Fin K, w (ix2 k c) = w' (ix2 k c))
    (hb : brow (ix2 (0 : Fin 1) c) = brow' (ix2 (0 : Fin 1) c)) :
    linRow x w brow (ix2 r c) = linRow x' w' brow' (ix2 r' c) := by
  show FloatOps.addf (∑ k : Fin K, x (ix2 r k) * w (ix2 k c)) (brow (ix2 (0 : Fin 1) c))
    = FloatOps.addf (∑ k : Fin K, x' (ix2 r' k) * w' (ix2 k c)) (brow' (ix2 (0 : Fin 1) c))
  rw [hb]
  refine congrArg (fun s => FloatOps.addf s (brow' (ix2 (0 : Fin 1) c))) (Finset.sum_congr rfl fun k _ => ?_)
  rw [hx k, hw k]

/-- `actRes` is pointwise but for the bias row: entry (r, c) sees the entries (r, c) of the two arrays and the bias row's
    entry c only. -/
theorem actRes_congr {A' : Nat} (a res : (⟨2, ![A, B]⟩ : Shape).Idx → Ideal .f32) (a' res' : (⟨2, ![A', B]⟩ : Shape).Idx → Ideal .f32)
    (brow brow' : (⟨2, ![1, B]⟩ : Shape).Idx → Ideal .f32) (r : Fin A) (r' : Fin A') (c : Fin B)
    (ha : a (ix2 r c) = a' (ix2 r' c)) (hb : brow (ix2 (0 : Fin 1) c) = brow' (ix2 (0 : Fin 1) c))
    (hr : res (ix2 r c) = res' (ix2 r' c)) :
    actRes a brow res (ix2 r c) = actRes a' brow' res' (ix2 r' c) := by
  show FloatOps.addf (FloatOps.maximumf (FloatOps.addf (a (ix2 r c)) (brow (ix2 (0 : Fin 1) c))) _) (res (ix2 r c))
    = FloatOps.addf (FloatOps.maximumf (FloatOps.addf (a' (ix2 r' c)) (brow' (ix2 (0 : Fin 1) c))) _) (res' (ix2 r' c))
  rw [ha, hb, hr]

/-- A kernel's spelling of the product plus the bias row, read at (r, c). -/
theorem kernelLin_apply {ψ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (hb : ψ.bits < FTy.f32.bits)
    (x : FVec Ideal ⟨2, ![A, K]⟩ .f32) (w : FVec Ideal ⟨2, ![K, B]⟩ .f32) (brow : FVec Ideal ⟨2, ![1, B]⟩ .f32)
    (hr : (⟨2, ![1, B]⟩ : Shape).Broadcasts ⟨2, ![A, B]⟩) (r : Fin A) (c : Fin B) :
    addf (matmul d none (truncf ψ x hb) (truncf ψ w hb) (constant ⟨2, ![A, B]⟩ .f32 0x00000000#32))
        (broadcastTo ⟨2, ![A, B]⟩ brow hr) (ix2 r c)
      = linRow x w brow (ix2 r c) := by
  show FloatOps.addf (matmul d none (truncf ψ x hb) (truncf ψ w hb) _ (ix2 r c)) (broadcastTo ⟨2, ![A, B]⟩ brow hr (ix2 r c)) = _
  rw [kernelDot_apply d h1 h2 h3 h4 h5 h6 hb x w r c, broadcastTo_1b_ab_apply brow hr r c]
  rfl

/-- A kernel's spelling of bias row, rectifier and residual, read at (r, c). -/
theorem kernelActRes_apply (a res : FVec Ideal ⟨2, ![A, B]⟩ .f32) (brow : FVec Ideal ⟨2, ![1, B]⟩ .f32)
    (hr : (⟨2, ![1, B]⟩ : Shape).Broadcasts ⟨2, ![A, B]⟩) (r : Fin A) (c : Fin B) :
    addf (maximumf (addf a (broadcastTo ⟨2, ![A, B]⟩ brow hr))
        (broadcast ⟨2, ![A, B]⟩ (Scalar.ofBits (F := Ideal) .f32 0x00000000#32))) res (ix2 r c)
      = actRes a brow res (ix2 r c) := by
  show FloatOps.addf (FloatOps.maximumf (FloatOps.addf (a (ix2 r c)) (broadcastTo ⟨2, ![A, B]⟩ brow hr (ix2 r c))) _) (res (ix2 r c)) = _
  rw [broadcastTo_1b_ab_apply brow hr r c]
  rfl

/-! ## The host's spellings, as whole arrays -/

/-- The host's product plus a bias vector [B] broadcast into a row and then over the rows is `linRow` of the vector
    laid as a row. -/
theorem hostLin_eq (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![A, K]⟩ .f32) (w : FVec Ideal ⟨2, ![K, B]⟩ .f32) (b : FVec Ideal ⟨1, ![B]⟩ .f32)
    (g1 : (⟨1, ![B]⟩ : Shape).BroadcastsInDim ⟨2, ![1, B]⟩ (![1] : Fin 1 → Fin 2))
    (g2 : (⟨2, ![1, B]⟩ : Shape).BroadcastsInDim ⟨2, ![A, B]⟩ (![0, 1] : Fin 2 → Fin 2))
    (hc : (⟨1, ![B]⟩ : Shape).ShapeCasts ⟨2, ![1, B]⟩) :
    addf (Host.dotGeneral d none x w)
        (broadcastInDim ⟨2, ![A, B]⟩ (![0, 1] : Fin 2 → Fin 2) g2 (broadcastInDim ⟨2, ![1, B]⟩ (![1] : Fin 1 → Fin 2) g1 b))
      = linRow x w (shapeCast ⟨2, ![1, B]⟩ b hc) := by
  funext i
  obtain ⟨r, c, rfl⟩ : ∃ (r : Fin A) (c : Fin B), i = ix2 r c := ⟨i 0, i 1, eq_ix2 i⟩
  show FloatOps.addf (Host.dotGeneral d none x w (ix2 r c))
      (broadcastInDim ⟨2, ![A, B]⟩ (![0, 1] : Fin 2 → Fin 2) g2 (broadcastInDim ⟨2, ![1, B]⟩ (![1] : Fin 1 → Fin 2) g1 b) (ix2 r c))
    = FloatOps.addf (∑ k : Fin K, x (ix2 r k) * w (ix2 k c)) (shapeCast ⟨2, ![1, B]⟩ b hc (ix2 (0 : Fin 1) c))
  rw [hostDot_apply d h1 h2 h3 h4 h5 h6 x w r c, hostRow_apply (A := A) b g1 g2 r c, shapeCast_a_1a_apply b hc 0 c]

/-- The host's bare product is `linRow` with a row of zeros: x + 0 = x on every extended real. -/
theorem hostDot_eq (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![A, K]⟩ .f32) (w : FVec Ideal ⟨2, ![K, B]⟩ .f32)
    (zrow : (⟨2, ![1, B]⟩ : Shape).Idx → Ideal .f32) (hz : ∀ c : Fin B, zrow (ix2 (0 : Fin 1) c) = (0 : EReal)) :
    Host.dotGeneral d none x w = linRow x w zrow := by
  funext i
  obtain ⟨r, c, rfl⟩ : ∃ (r : Fin A) (c : Fin B), i = ix2 r c := ⟨i 0, i 1, eq_ix2 i⟩
  show Host.dotGeneral d none x w (ix2 r c) = (∑ k : Fin K, x (ix2 r k) * w (ix2 k c)) + zrow (ix2 (0 : Fin 1) c)
  rw [hostDot_apply d h1 h2 h3 h4 h5 h6 x w r c, hz c, add_zero]

/-- The host's bias (a vector broadcast twice), rectifier (against a broadcast rank-0 zero) and residual is `actRes` of
    the vector laid as a row. -/
theorem hostActRes_eq (a res : FVec Ideal ⟨2, ![A, B]⟩ .f32) (b : FVec Ideal ⟨1, ![B]⟩ .f32)
    (g1 : (⟨1, ![B]⟩ : Shape).BroadcastsInDim ⟨2, ![1, B]⟩ (![1] : Fin 1 → Fin 2))
    (g2 : (⟨2, ![1, B]⟩ : Shape).BroadcastsInDim ⟨2, ![A, B]⟩ (![0, 1] : Fin 2 → Fin 2))
    (g0 : (⟨0, ![]⟩ : Shape).BroadcastsInDim ⟨2, ![A, B]⟩ (![] : Fin 0 → Fin 2))
    (hc : (⟨1, ![B]⟩ : Shape).ShapeCasts ⟨2, ![1, B]⟩) :
    addf (maximumf
          (addf a (broadcastInDim ⟨2, ![A, B]⟩ (![0, 1] : Fin 2 → Fin 2) g2 (broadcastInDim ⟨2, ![1, B]⟩ (![1] : Fin 1 → Fin 2) g1 b)))
          (broadcastInDim ⟨2, ![A, B]⟩ (![] : Fin 0 → Fin 2) g0 (constant (F := Ideal) ⟨0, ![]⟩ .f32 0x00000000#32))) res
      = actRes a (shapeCast ⟨2, ![1, B]⟩ b hc) res := by
  funext i
  obtain ⟨r, c, rfl⟩ : ∃ (r : Fin A) (c : Fin B), i = ix2 r c := ⟨i 0, i 1, eq_ix2 i⟩
  show FloatOps.addf (FloatOps.maximumf (FloatOps.addf (a (ix2 r c))
        (broadcastInDim ⟨2, ![A, B]⟩ (![0, 1] : Fin 2 → Fin 2) g2 (broadcastInDim ⟨2, ![1, B]⟩ (![1] : Fin 1 → Fin 2) g1 b) (ix2 r c))) _) (res (ix2 r c))
    = FloatOps.addf (FloatOps.maximumf (FloatOps.addf (a (ix2 r c)) (shapeCast ⟨2, ![1, B]⟩ b hc (ix2 (0 : Fin 1) c))) _) (res (ix2 r c))
  rw [hostRow_apply (A := A) b g1 g2 r c, shapeCast_a_1a_apply b hc 0 c]
  rfl

end Cert.Lib.GcnDense

end
-- ==== Proof.Payloads.lean ====
/-
  What each of the five kernel bodies stores, read at an index (r, c) of its output block, over the extended reals:
  the three residual layers' bodies store a block of `blendRelu` of their two row blocks and the matrix; the
  projection's a block of `prod`; the head's three stores are a block of `addRow` (the hidden rows), and of
  `linRow` of those rows with each head's matrix and bias row.  Identity reshapes are dropped, the narrowing to
  bf16 on the way into a product is the identity on the extended reals.
-/
import proofs.«180074_j12687333392405_1_alg».proof.Proof.Gen.KernelIdeal.Skeleton
import proofs.«180074_j12687333392405_1_alg».proof.Proof.LibBlendDense
import proofs.«180074_j12687333392405_1_alg».proof.Proof.LibGcnDense

noncomputable section

namespace Cert.KernelIdeal.Pay

open Cert.KernelIdeal Cert.KernelIdeal.Gen Idealize.ShloMosaic Idealize.ShloMosaic.TcCoe Idealize.ShloMosaic.ValueIdx
open Cert.Lib.BlendDense Cert.Lib.GcnDense Cert.Lib.LeakyDense

theorem pay0 (x0 x1 : Vec Ideal S5000x64 .f32) (x2 : Vec Ideal S64x64 .f32) (r : Fin 5000) (k : Fin 64) :
    k0_pay1 x0 x1 x2 (ix2 r k)
      = blendRelu (A := 5000) (K := 64) (B := 64) 0x3F666666#32 0x3DCCCCCD#32 x0 x1 x2 (ix2 r k) := by
  unfold k0_pay1
  rw [shapeCast_self, shapeCast_self]
  exact kernelBlend_apply (A := 5000) (K := 64) (B := 64) dot_S5000x64_S64x64_S5000x64_1_0_0_1_n_n rfl rfl rfl rfl rfl rfl _ _ _ x0 x1 x2 r k

theorem pay1 (x0 x1 : Vec Ideal S5000x64 .f32) (x2 : Vec Ideal S64x64 .f32) (r : Fin 5000) (k : Fin 64) :
    k1_pay1 x0 x1 x2 (ix2 r k)
      = blendRelu (A := 5000) (K := 64) (B := 64) 0x3F666666#32 0x3DCCCCCD#32 x0 x1 x2 (ix2 r k) := by
  unfold k1_pay1
  rw [shapeCast_self, shapeCast_self, shapeCast_self]
  exact kernelBlend_apply (A := 5000) (K := 64) (B := 64) dot_S5000x64_S64x64_S5000x64_1_0_0_1_n_n rfl rfl rfl rfl rfl rfl _ _ _ x0 x1 x2 r k

theorem pay2 (x0 x1 : Vec Ideal S5000x64 .f32) (x2 : Vec Ideal S64x64 .f32) (r : Fin 5000) (k : Fin 64) :
    k2_pay1 x0 x1 x2 (ix2 r k)
      = blendRelu (A := 5000) (K := 64) (B := 64) 0x3F666666#32 0x3DCCCCCD#32 x0 x1 x2 (ix2 r k) := by
  unfold k2_pay1
  rw [shapeCast_self, shapeCast_self, shapeCast_self]
  exact kernelBlend_apply (A := 5000) (K := 64) (B := 64) dot_S5000x64_S64x64_S5000x64_1_0_0_1_n_n rfl rfl rfl rfl rfl rfl _ _ _ x0 x1 x2 r k

theorem pay3 (x0 : Vec Ideal S5000x64 .f32) (x1 : Vec Ideal S64x64 .f32) (r : Fin 5000) (k : Fin 64) :
    k3_pay1 x0 x1 (ix2 r k) = prod (A := 5000) (K := 64) (B := 64) x0 x1 (ix2 r k) := by
  unfold k3_pay1
  rw [shapeCast_self]
  exact kernelProd_apply (A := 5000) (K := 64) (B := 64) dot_S5000x64_S64x64_S5000x64_1_0_0_1_n_n rfl rfl rfl rfl rfl rfl _ x0 x1 r k

theorem pay4h (x0 : Vec Ideal S5000x64 .f32) (x1 : Vec Ideal S1x64 .f32) (r : Fin 5000) (k : Fin 64) :
    k4_pay1 x0 x1 (ix2 r k) = addRow (A := 5000) (B := 64) x0 x1 (ix2 r k) := by
  unfold k4_pay1
  rw [shapeCast_self, shapeCast_self]
  exact kernelAddRow_apply (A := 5000) (B := 64) x0 x1 _ r k

theorem pay4h_fun (x0 : Vec Ideal S5000x64 .f32) (x1 : Vec Ideal S1x64 .f32) :
    k4_pay1 x0 x1 = addRow (A := 5000) (B := 64) x0 x1 := by
  funext i
  obtain ⟨r, k, rfl⟩ : ∃ (r : Fin 5000) (k : Fin 64), i = ix2 r k := ⟨i 0, i 1, eq_ix2 i⟩
  exact pay4h x0 x1 r k

theorem pay4a (x0 : Vec Ideal S5000x64 .f32) (x1 : Vec Ideal S1x64 .f32) (x2 : Vec Ideal S64x4 .f32) (x3 : Vec Ideal S1x4 .f32)
    (r : Fin 5000) (k : Fin 4) :
    k4_pay3 x0 x1 x2 x3 (ix2 r k)
      = linRow (A := 5000) (K := 64) (B := 4) (addRow (A := 5000) (B := 64) x0 x1) x2 x3 (ix2 r k) := by
  unfold k4_pay3 k4_pay2
  rw [shapeCast_self, pay4h_fun]
  exact kernelLin_apply (A := 5000) (K := 64) (B := 4) dot_S5000x64_S64x4_S5000x4_1_0_0_1_n_n rfl rfl rfl rfl rfl rfl _ _ x2 x3 _ r k

theorem pay4b (x0 : Vec Ideal S5000x64 .f32) (x1 : Vec Ideal S1x64 .f32) (x2 : Vec Ideal S64x3 .f32) (x3 : Vec Ideal S1x3 .f32)
    (r : Fin 5000) (k : Fin 3) :
    k4_pay4 x0 x1 x2 x3 (ix2 r k)
      = linRow (A := 5000) (K := 64) (B := 3) (addRow (A := 5000) (B := 64) x0 x1) x2 x3 (ix2 r k) := by
  unfold k4_pay4 k4_pay2
  rw [shapeCast_self, pay4h_fun]
  exact kernelLin_apply (A := 5000) (K := 64) (B := 3) dot_S5000x64_S64x3_S5000x3_1_0_0_1_n_n rfl rfl rfl rfl rfl rfl _ _ x2 x3 _ r k

end Cert.KernelIdeal.Pay

end
-- ==== Proof.Blocks.lean ====
/-
  FROM BLOCKS TO ARRAYS, region by region, at ANY contents `V` the region is entered with.

  Every region runs over 20 grid points; point t sees rows 5000·t … 5000·t + 4999 of each row-blocked operand
  (block index (t, 0)) and the whole of each small operand (block index (0, 0)), and writes back rows
  5000·t … 5000·t + 4999 of each result.  Each result entry (r, c) depends on row r of the row-blocked operands
  only, so what point t writes back IS block t of the whole-array function of the operands' arrays, and the 20
  blocks cover the array: after the region each result array holds that function of the entry contents.
-/
import proofs.«180074_j12687333392405_1_alg».proof.Proof.Gen.KernelIdeal.Frame
import proofs.«180074_j12687333392405_1_alg».proof.Proof.Payloads
import Idealize.ShloMosaic.Lib.Pipeline.Value
import Idealize.ShloMosaic.Lib.ValueIdx

noncomputable section

namespace Cert.KernelIdeal.Blocks

open Cert.KernelIdeal Cert.KernelIdeal.Gen Cert.KernelIdeal.Pay
open Idealize.ShloMosaic Idealize.ShloMosaic.TcCoe Idealize.ShloMosaic.ValueIdx
open Idealize.SL Idealize.SL.Sem
open Idealize.ShloMosaic.Pipeline (Dat Cfg Window BodyObligation cellOf)
open Cert.Lib.BlendDense Cert.Lib.GcnDense

set_option maxRecDepth 16384

variable (V : (c : Dev nD) → (b : Ref sig .tc) → Buf (Elt Ideal) ((c : Thread nD τ).loc b))

theorem hz : (![0, 0] : Fin 2 → Nat) = fun _ => 0 := funext fun a => by fin_cases a <;> rfl

/-- Row r of block t of an array of 100000 rows cut into blocks of 5000 rows. -/
def rowAt {B : Nat} (tv : Nat) (ht : tv < 20) (r : Fin 5000) (k : Fin B) : (⟨2, ![100000, B]⟩ : Shape).Idx :=
  ix2 (⟨5000 * tv + r.val, by have := r.isLt; omega⟩ : Fin 100000) k

/-! ## Region 0 -/

theorem idx0_0 : ∀ t : Fin cfg0.N, win0_0.index t (0 : Fin 2) = t.val ∧ win0_0.index t (1 : Fin 2) = 0 :=
  (by decide +kernel : ∀ t : Fin grid0.N, _)
theorem emb0_0 (t : Fin cfg0.N) (ht : t.val < 20) (y : S5000x64.Idx) :
    ((cfg0.win 0).blk t).view.emb y = rowAt t.val ht (y 0) (y 1) := by
  obtain ⟨e0, e1⟩ := idx0_0 t
  funext a; apply Fin.ext
  match a with
  | ⟨0, _⟩ => show win0_0.index t (0 : Fin 2) * 5000 + 1 * (y 0).val = 5000 * t.val + (y 0).val; omega
  | ⟨1, _⟩ => show win0_0.index t (1 : Fin 2) * 64 + 1 * (y 1).val = (y 1).val; omega
theorem iblk0_0 (c : Dev nD) (t : Fin cfg0.N) (ht : t.val < 20) (r : Fin 5000) (k : Fin 64) :
    iblk0 V c 0 t (ix2 r k) = V c main_v42 (rowAt t.val ht r k) := by
  show V c main_v42 (((cfg0.win 0).blk t).view.emb (ix2 r k)) = _
  rw [emb0_0 t ht]
  rfl

theorem idx0_1 : ∀ t : Fin cfg0.N, win0_1.index t (0 : Fin 2) = t.val ∧ win0_1.index t (1 : Fin 2) = 0 :=
  (by decide +kernel : ∀ t : Fin grid0.N, _)
theorem emb0_1 (t : Fin cfg0.N) (ht : t.val < 20) (y : S5000x64.Idx) :
    ((cfg0.win 1).blk t).view.emb y = rowAt t.val ht (y 0) (y 1) := by
  obtain ⟨e0, e1⟩ := idx0_1 t
  funext a; apply Fin.ext
  match a with
  | ⟨0, _⟩ => show win0_1.index t (0 : Fin 2) * 5000 + 1 * (y 0).val = 5000 * t.val + (y 0).val; omega
  | ⟨1, _⟩ => show win0_1.index t (1 : Fin 2) * 64 + 1 * (y 1).val = (y 1).val; omega
theorem iblk0_1 (c : Dev nD) (t : Fin cfg0.N) (ht : t.val < 20) (r : Fin 5000) (k : Fin 64) :
    iblk0 V c 1 t (ix2 r k) = V c main_arg0 (rowAt t.val ht r k) := by
  show V c main_arg0 (((cfg0.win 1).blk t).view.emb (ix2 r k)) = _
  rw [emb0_1 t ht]
  rfl

theorem idx0_2 : ∀ t : Fin cfg0.N, win0_2.index t (0 : Fin 2) = 0 ∧ win0_2.index t (1 : Fin 2) = 0 :=
  (by decide +kernel : ∀ t : Fin grid0.N, _)
theorem emb0_2 (t : Fin cfg0.N) (y : S64x64.Idx) : ((cfg0.win 2).blk t).view.emb y = y := by
  obtain ⟨e0, e1⟩ := idx0_2 t
  funext a; apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega
theorem iblk0_2 (c : Dev nD) (t : Fin cfg0.N) (y : S64x64.Idx) : iblk0 V c 2 t y = V c main_v44 y := by
  show V c main_v44 (((cfg0.win 2).blk t).view.emb y) = _
  rw [emb0_2 t]

theorem idx0_3 : ∀ t : Fin cfg0.N, win0_3.index t (0 : Fin 2) = t.val ∧ win0_3.index t (1 : Fin 2) = 0 :=
  (by decide +kernel : ∀ t : Fin grid0.N, _)
theorem emb0_3 (t : Fin cfg0.N) (ht : t.val < 20) (y : S5000x64.Idx) :
    ((cfg0.win 3).blk t).view.emb y = rowAt t.val ht (y 0) (y 1) := by
  obtain ⟨e0, e1⟩ := idx0_3 t
  funext a; apply Fin.ext
  match a with
  | ⟨0, _⟩ => show win0_3.index t (0 : Fin 2) * 5000 + 1 * (y 0).val = 5000 * t.val + (y 0).val; omega
  | ⟨1, _⟩ => show win0_3.index t (1 : Fin 2) * 64 + 1 * (y 1).val = (y 1).val; omega

theorem mem_blk0_3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v45).slice (win0_3.rect t)).set ↔ _
  rw [View.set_slice_whole, Rect.mem_set_unit]
  exact Iff.rfl

/-- Every row lies in the block of the point r / 5000. -/
theorem covered0_3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_3 _, ?_⟩
  rw [mem_blk0_3]
  obtain ⟨e0, e1⟩ := idx0_3 ⟨(i 0).val / 5000, by rw [hN]; omega⟩
  intro a
  match a with
  | ⟨0, _⟩ => show win0_3.index _ (0 : Fin 2) * 5000 ≤ (i 0).val ∧ (i 0).val < win0_3.index _ (0 : Fin 2) * 5000 + 5000; rw [e0]; show (i 0).val / 5000 * 5000 ≤ _ ∧ _ < (i 0).val / 5000 * 5000 + 5000; omega
  | ⟨1, _⟩ => show win0_3.index _ (1 : Fin 2) * 64 ≤ (i 1).val ∧ (i 1).val < win0_3.index _ (1 : Fin 2) * 64 + 64; rw [e1]; omega

/-- What point t writes back is block t of the whole-array function of the entry contents. -/
theorem flushed0_3 (c : Dev nD) (t : Fin cfg0.N) :
    (dat0 V c).flushed 3 t = ((cfg0.win 3).blk t).view.read (Elt Ideal)
      (blendRelu (A := 100000) (K := 64) (B := 64) 0x3F666666#32 0x3DCCCCCD#32 (V c main_v42) (V c main_arg0) (V c main_v44)) := by
  have ht : t.val < 20 := by have h := t.isLt; have hN : cfg0.N = 20 := N_0; omega
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz]
  funext j
  show k0_pay1 (iblk0 V c 0 t) (iblk0 V c 1 t) (iblk0 V c 2 t) j
    = (blendRelu (A := 100000) (K := 64) (B := 64) 0x3F666666#32 0x3DCCCCCD#32 (V c main_v42) (V c main_arg0) (V c main_v44)) (((cfg0.win 3).blk t).view.emb j)
  rw [emb0_3 t ht j]
  refine (congrArg _ (eq_ix2 j)).trans ?_
  refine (pay0 _ _ _ (j 0) (j 1)).trans ?_
  exact blendRelu_congr 0x3F666666#32 0x3DCCCCCD#32 _ _ _ _ _ _ (j 0) _ (j 1) (fun k => iblk0_0 V c t ht (j 0) k) (fun k => iblk0_1 V c t ht (j 0) k) (fun k => iblk0_2 V c t (ix2 k (j 1)))

/-- After the region the result array holds the function of the entry contents. -/
theorem final0_3 (c : Dev nD) : (dat0 V c).arrAt 3 cfg0.N = (blendRelu (A := 100000) (K := 64) (B := 64) 0x3F666666#32 0x3DCCCCCD#32 (V c main_v42) (V c main_arg0) (V c main_v44)) :=
  (dat0 V c).arrAt_eq_of_cover 3 _ (fun t _ => flushed0_3 V c t) covered0_3

/-! ## Region 1 -/

theorem idx1_0 : ∀ t : Fin cfg1.N, win1_0.index t (0 : Fin 2) = t.val ∧ win1_0.index t (1 : Fin 2) = 0 :=
  (by decide +kernel : ∀ t : Fin grid1.N, _)
theorem emb1_0 (t : Fin cfg1.N) (ht : t.val < 20) (y : S5000x64.Idx) :
    ((cfg1.win 0).blk t).view.emb y = rowAt t.val ht (y 0) (y 1) := by
  obtain ⟨e0, e1⟩ := idx1_0 t
  funext a; apply Fin.ext
  match a with
  | ⟨0, _⟩ => show win1_0.index t (0 : Fin 2) * 5000 + 1 * (y 0).val = 5000 * t.val + (y 0).val; omega
  | ⟨1, _⟩ => show win1_0.index t (1 : Fin 2) * 64 + 1 * (y 1).val = (y 1).val; omega
theorem iblk1_0 (c : Dev nD) (t : Fin cfg1.N) (ht : t.val < 20) (r : Fin 5000) (k : Fin 64) :
    iblk1 V c 0 t (ix2 r k) = V c main_v58 (rowAt t.val ht r k) := by
  show V c main_v58 (((cfg1.win 0).blk t).view.emb (ix2 r k)) = _
  rw [emb1_0 t ht]
  rfl

theorem idx1_1 : ∀ t : Fin cfg1.N, win1_1.index t (0 : Fin 2) = t.val ∧ win1_1.index t (1 : Fin 2) = 0 :=
  (by decide +kernel : ∀ t : Fin grid1.N, _)
theorem emb1_1 (t : Fin cfg1.N) (ht : t.val < 20) (y : S5000x64.Idx) :
    ((cfg1.win 1).blk t).view.emb y = rowAt t.val ht (y 0) (y 1) := by
  obtain ⟨e0, e1⟩ := idx1_1 t
  funext a; apply Fin.ext
  match a with
  | ⟨0, _⟩ => show win1_1.index t (0 : Fin 2) * 5000 + 1 * (y 0).val = 5000 * t.val + (y 0).val; omega
  | ⟨1, _⟩ => show win1_1.index t (1 : Fin 2) * 64 + 1 * (y 1).val = (y 1).val; omega
theorem iblk1_1 (c : Dev nD) (t : Fin cfg1.N) (ht : t.val < 20) (r : Fin 5000) (k : Fin 64) :
    iblk1 V c 1 t (ix2 r k) = V c main_v45 (rowAt t.val ht r k) := by
  show V c main_v45 (((cfg1.win 1).blk t).view.emb (ix2 r k)) = _
  rw [emb1_1 t ht]
  rfl

theorem idx1_2 : ∀ t : Fin cfg1.N, win1_2.index t (0 : Fin 2) = 0 ∧ win1_2.index t (1 : Fin 2) = 0 :=
  (by decide +kernel : ∀ t : Fin grid1.N, _)
theorem emb1_2 (t : Fin cfg1.N) (y : S64x64.Idx) : ((cfg1.win 2).blk t).view.emb y = y := by
  obtain ⟨e0, e1⟩ := idx1_2 t
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega
theorem iblk1_2 (c : Dev nD) (t : Fin cfg1.N) (y : S64x64.Idx) : iblk1 V c 2 t y = V c main_v60 y := by
  show V c main_v60 (((cfg1.win 2).blk t).view.emb y) = _
  rw [emb1_2 t]

theorem idx1_3 : ∀ t : Fin cfg1.N, win1_3.index t (0 : Fin 2) = t.val ∧ win1_3.index t (1 : Fin 2) = 0 :=
  (by decide +kernel : ∀ t : Fin grid1.N, _)
theorem emb1_3 (t : Fin cfg1.N) (ht : t.val < 20) (y : S5000x64.Idx) :
    ((cfg1.win 3).blk t).view.emb y = rowAt t.val ht (y 0) (y 1) := by
  obtain ⟨e0, e1⟩ := idx1_3 t
  funext a; apply Fin.ext
  match a with
  | ⟨0, _⟩ => show win1_3.index t (0 : Fin 2) * 5000 + 1 * (y 0).val = 5000 * t.val + (y 0).val; omega
  | ⟨1, _⟩ => show win1_3.index t (1 : Fin 2) * 64 + 1 * (y 1).val = (y 1).val; omega

theorem mem_blk1_3 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v61).slice (win1_3.rect t)).set ↔ _
  rw [View.set_slice_whole, Rect.mem_set_unit]
  exact Iff.rfl

/-- Every row lies in the block of the point r / 5000. -/
theorem covered1_3 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_3 _, ?_⟩
  rw [mem_blk1_3]
  obtain ⟨e0, e1⟩ := idx1_3 ⟨(i 0).val / 5000, by rw [hN]; omega⟩
  intro a
  match a with
  | ⟨0, _⟩ => show win1_3.index _ (0 : Fin 2) * 5000 ≤ (i 0).val ∧ (i 0).val < win1_3.index _ (0 : Fin 2) * 5000 + 5000; rw [e0]; show (i 0).val / 5000 * 5000 ≤ _ ∧ _ < (i 0).val / 5000 * 5000 + 5000; omega
  | ⟨1, _⟩ => show win1_3.index _ (1 : Fin 2) * 64 ≤ (i 1).val ∧ (i 1).val < win1_3.index _ (1 : Fin 2) * 64 + 64; rw [e1]; omega

/-- What point t writes back is block t of the whole-array function of the entry contents. -/
theorem flushed1_3 (c : Dev nD) (t : Fin cfg1.N) :
    (dat1 V c).flushed 3 t = ((cfg1.win 3).blk t).view.read (Elt Ideal)
      (blendRelu (A := 100000) (K := 64) (B := 64) 0x3F666666#32 0x3DCCCCCD#32 (V c main_v58) (V c main_v45) (V c main_v60)) := by
  have ht : t.val < 20 := by have h := t.isLt; have hN : cfg1.N = 20 := N_1; omega
  show (cfg1.win 3).cut (grid1.coords t) ((dat1 V c).after 3 t) = _
  rw [after1_3]
  unfold out1_3
  rw [View.canon_unit_zero hz]
  simp only [View.ld_unit_zero (S := S5000x64) hz, View.ld_unit_zero (S := S64x64) hz]
  funext j
  show k1_pay1 (iblk1 V c 0 t) (iblk1 V c 1 t) (iblk1 V c 2 t) j
    = (blendRelu (A := 100000) (K := 64) (B := 64) 0x3F666666#32 0x3DCCCCCD#32 (V c main_v58) (V c main_v45) (V c main_v60)) (((cfg1.win 3).blk t).view.emb j)
  rw [emb1_3 t ht j]
  refine (congrArg _ (eq_ix2 j)).trans ?_
  refine (pay1 _ _ _ (j 0) (j 1)).trans ?_
  exact blendRelu_congr 0x3F666666#32 0x3DCCCCCD#32 _ _ _ _ _ _ (j 0) _ (j 1) (fun k => iblk1_0 V c t ht (j 0) k) (fun k => iblk1_1 V c t ht (j 0) k) (fun k => iblk1_2 V c t (ix2 k (j 1)))

/-- After the region the result array holds the function of the entry contents. -/
theorem final1_3 (c : Dev nD) : (dat1 V c).arrAt 3 cfg1.N = (blendRelu (A := 100000) (K := 64) (B := 64) 0x3F666666#32 0x3DCCCCCD#32 (V c main_v58) (V c main_v45) (V c main_v60)) :=
  (dat1 V c).arrAt_eq_of_cover 3 _ (fun t _ => flushed1_3 V c t) covered1_3

/-! ## Region 2 -/

theorem idx2_0 : ∀ t : Fin cfg2.N, win2_0.index t (0 : Fin 2) = t.val ∧ win2_0.index t (1 : Fin 2) = 0 :=
  (by decide +kernel : ∀ t : Fin grid2.N, _)
theorem emb2_0 (t : Fin cfg2.N) (ht : t.val < 20) (y : S5000x64.Idx) :
    ((cfg2.win 0).blk t).view.emb y = rowAt t.val ht (y 0) (y 1) := by
  obtain ⟨e0, e1⟩ := idx2_0 t
  funext a; apply Fin.ext
  match a with
  | ⟨0, _⟩ => show win2_0.index t (0 : Fin 2) * 5000 + 1 * (y 0).val = 5000 * t.val + (y 0).val; omega
  | ⟨1, _⟩ => show win2_0.index t (1 : Fin 2) * 64 + 1 * (y 1).val = (y 1).val; omega
theorem iblk2_0 (c : Dev nD) (t : Fin cfg2.N) (ht : t.val < 20) (r : Fin 5000) (k : Fin 64) :
    iblk2 V c 0 t (ix2 r k) = V c main_v74 (rowAt t.val ht r k) := by
  show V c main_v74 (((cfg2.win 0).blk t).view.emb (ix2 r k)) = _
  rw [emb2_0 t ht]
  rfl

theorem idx2_1 : ∀ t : Fin cfg2.N, win2_1.index t (0 : Fin 2) = t.val ∧ win2_1.index t (1 : Fin 2) = 0 :=
  (by decide +kernel : ∀ t : Fin grid2.N, _)
theorem emb2_1 (t : Fin cfg2.N) (ht : t.val < 20) (y : S5000x64.Idx) :
    ((cfg2.win 1).blk t).view.emb y = rowAt t.val ht (y 0) (y 1) := by
  obtain ⟨e0, e1⟩ := idx2_1 t
  funext a; apply Fin.ext
  match a with
  | ⟨0, _⟩ => show win2_1.index t (0 : Fin 2) * 5000 + 1 * (y 0).val = 5000 * t.val + (y 0).val; omega
  | ⟨1, _⟩ => show win2_1.index t (1 : Fin 2) * 64 + 1 * (y 1).val = (y 1).val; omega
theorem iblk2_1 (c : Dev nD) (t : Fin cfg2.N) (ht : t.val < 20) (r : Fin 5000) (k : Fin 64) :
    iblk2 V c 1 t (ix2 r k) = V c main_v61 (rowAt t.val ht r k) := by
  show V c main_v61 (((cfg2.win 1).blk t).view.emb (ix2 r k)) = _
  rw [emb2_1 t ht]
  rfl

theorem idx2_2 : ∀ t : Fin cfg2.N, win2_2.index t (0 : Fin 2) = 0 ∧ win2_2.index t (1 : Fin 2) = 0 :=
  (by decide +kernel : ∀ t : Fin grid2.N, _)
theorem emb2_2 (t : Fin cfg2.N) (y : S64x64.Idx) : ((cfg2.win 2).blk t).view.emb y = y := by
  obtain ⟨e0, e1⟩ := idx2_2 t
  funext a; apply Fin.ext
  match a with
  | ⟨0, _⟩ => show win2_2.index t (0 : Fin 2) * 64 + 1 * (y 0).val = (y 0).val; omega
  | ⟨1, _⟩ => show win2_2.index t (1 : Fin 2) * 64 + 1 * (y 1).val = (y 1).val; omega
theorem iblk2_2 (c : Dev nD) (t : Fin cfg2.N) (y : S64x64.Idx) : iblk2 V c 2 t y = V c main_v76 y := by
  show V c main_v76 (((cfg2.win 2).blk t).view.emb y) = _
  rw [emb2_2 t]

theorem idx2_3 : ∀ t : Fin cfg2.N, win2_3.index t (0 : Fin 2) = t.val ∧ win2_3.index t (1 : Fin 2) = 0 :=
  (by decide +kernel : ∀ t : Fin grid2.N, _)
theorem emb2_3 (t : Fin cfg2.N) (ht : t.val < 20) (y : S5000x64.Idx) :
    ((cfg2.win 3).blk t).view.emb y = rowAt t.val ht (y 0) (y 1) := by
  obtain ⟨e0, e1⟩ := idx2_3 t
  funext a; apply Fin.ext
  match a with
  | ⟨0, _⟩ => show win2_3.index t (0 : Fin 2) * 5000 + 1 * (y 0).val = 5000 * t.val + (y 0).val; omega
  | ⟨1, _⟩ => show win2_3.index t (1 : Fin 2) * 64 + 1 * (y 1).val = (y 1).val; omega

theorem mem_blk2_3 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v77).slice (win2_3.rect t)).set ↔ _
  rw [View.set_slice_whole, Rect.mem_set_unit]
  exact Iff.rfl

/-- Every row lies in the block of the point r / 5000. -/
theorem covered2_3 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_3 _, ?_⟩
  rw [mem_blk2_3]
  obtain ⟨e0, e1⟩ := idx2_3 ⟨(i 0).val / 5000, by rw [hN]; omega⟩
  intro a
  match a with
  | ⟨0, _⟩ => show win2_3.index _ (0 : Fin 2) * 5000 ≤ (i 0).val ∧ (i 0).val < win2_3.index _ (0 : Fin 2) * 5000 + 5000; rw [e0]; show (i 0).val / 5000 * 5000 ≤ _ ∧ _ < (i 0).val / 5000 * 5000 + 5000; omega
  | ⟨1, _⟩ => show win2_3.index _ (1 : Fin 2) * 64 ≤ (i 1).val ∧ (i 1).val < win2_3.index _ (1 : Fin 2) * 64 + 64; rw [e1]; omega

/-- What point t writes back is block t of the whole-array function of the entry contents. -/
theorem flushed2_3 (c : Dev nD) (t : Fin cfg2.N) :
    (dat2 V c).flushed 3 t = ((cfg2.win 3).blk t).view.read (Elt Ideal)
      (blendRelu (A := 100000) (K := 64) (B := 64) 0x3F666666#32 0x3DCCCCCD#32 (V c main_v74) (V c main_v61) (V c main_v76)) := by
  have ht : t.val < 20 := by have h := t.isLt; have hN : cfg2.N = 20 := N_2; omega
  show (cfg2.win 3).cut (grid2.coords t) ((dat2 V c).after 3 t) = _
  rw [after2_3]
  unfold out2_3
  rw [View.canon_unit_zero hz]
  simp only [View.ld_unit_zero (S := S5000x64) hz, View.ld_unit_zero (S := S64x64) hz]
  funext j
  show k2_pay1 (iblk2 V c 0 t) (iblk2 V c 1 t) (iblk2 V c 2 t) j
    = (blendRelu (A := 100000) (K := 64) (B := 64) 0x3F666666#32 0x3DCCCCCD#32 (V c main_v74) (V c main_v61) (V c main_v76)) (((cfg2.win 3).blk t).view.emb j)
  rw [emb2_3 t ht j]
  refine (congrArg _ (eq_ix2 j)).trans ?_
  refine (pay2 _ _ _ (j 0) (j 1)).trans ?_
  exact blendRelu_congr 0x3F666666#32 0x3DCCCCCD#32 _ _ _ _ _ _ (j 0) _ (j 1) (fun k => iblk2_0 V c t ht (j 0) k) (fun k => iblk2_1 V c t ht (j 0) k) (fun k => iblk2_2 V c t (ix2 k (j 1)))

/-- After the region the result array holds the function of the entry contents. -/
theorem final2_3 (c : Dev nD) : (dat2 V c).arrAt 3 cfg2.N = (blendRelu (A := 100000) (K := 64) (B := 64) 0x3F666666#32 0x3DCCCCCD#32 (V c main_v74) (V c main_v61) (V c main_v76)) :=
  (dat2 V c).arrAt_eq_of_cover 3 _ (fun t _ => flushed2_3 V c t) covered2_3

/-! ## Region 3 -/

theorem idx3_0 : ∀ t : Fin cfg3.N, win3_0.index t (0 : Fin 2) = t.val ∧ win3_0.index t (1 : Fin 2) = 0 :=
  (by decide +kernel : ∀ t : Fin grid3.N, _)
theorem emb3_0 (t : Fin cfg3.N) (ht : t.val < 20) (y : S5000x64.Idx) :
    ((cfg3.win 0).blk t).view.emb y = rowAt t.val ht (y 0) (y 1) := by
  obtain ⟨e0, e1⟩ := idx3_0 t
  funext a; apply Fin.ext
  match a with
  | ⟨0, _⟩ => show win3_0.index t (0 : Fin 2) * 5000 + 1 * (y 0).val = 5000 * t.val + (y 0).val; omega
  | ⟨1, _⟩ => show win3_0.index t (1 : Fin 2) * 64 + 1 * (y 1).val = (y 1).val; omega
theorem iblk3_0 (c : Dev nD) (t : Fin cfg3.N) (ht : t.val < 20) (r : Fin 5000) (k : Fin 64) :
    iblk3 V c 0 t (ix2 r k) = V c main_v77 (rowAt t.val ht r k) := by
  show V c main_v77 (((cfg3.win 0).blk t).view.emb (ix2 r k)) = _
  rw [emb3_0 t ht]
  rfl

theorem idx3_1 : ∀ t : Fin cfg3.N, win3_1.index t (0 : Fin 2) = 0 ∧ win3_1.index t (1 : Fin 2) = 0 :=
  (by decide +kernel : ∀ t : Fin grid3.N, _)
theorem emb3_1 (t : Fin cfg3.N) (y : S64x64.Idx) : ((cfg3.win 1).blk t).view.emb y = y := by
  obtain ⟨e0, e1⟩ := idx3_1 t
  funext a; apply Fin.ext
  match a with
  | ⟨0, _⟩ => show win3_1.index t (0 : Fin 2) * 64 + 1 * (y 0).val = (y 0).val; omega
  | ⟨1, _⟩ => show win3_1.index t (1 : Fin 2) * 64 + 1 * (y 1).val = (y 1).val; omega
theorem iblk3_1 (c : Dev nD) (t : Fin cfg3.N) (y : S64x64.Idx) : iblk3 V c 1 t y = V c main_arg3 y := by
  show V c main_arg3 (((cfg3.win 1).blk t).view.emb y) = _
  rw [emb3_1 t]

theorem idx3_2 : ∀ t : Fin cfg3.N, win3_2.index t (0 : Fin 2) = t.val ∧ win3_2.index t (1 : Fin 2) = 0 :=
  (by decide +kernel : ∀ t : Fin grid3.N, _)
theorem emb3_2 (t : Fin cfg3.N) (ht : t.val < 20) (y : S5000x64.Idx) :
    ((cfg3.win 2).blk t).view.emb y = rowAt t.val ht (y 0) (y 1) := by
  obtain ⟨e0, e1⟩ := idx3_2 t
  funext a; apply Fin.ext
  match a with
  | ⟨0, _⟩ => show win3_2.index t (0 : Fin 2) * 5000 + 1 * (y 0).val = 5000 * t.val + (y 0).val; omega
  | ⟨1, _⟩ => show win3_2.index t (1 : Fin 2) * 64 + 1 * (y 1).val = (y 1).val; omega

theorem mem_blk3_2 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v78).slice (win3_2.rect t)).set ↔ _
  rw [View.set_slice_whole, Rect.mem_set_unit]
  exact Iff.rfl

/-- Every row lies in the block of the point r / 5000. -/
theorem covered3_2 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_2 _, ?_⟩
  rw [mem_blk3_2]
  obtain ⟨e0, e1⟩ := idx3_2 ⟨(i 0).val / 5000, by rw [hN]; omega⟩
  intro a
  match a with
  | ⟨0, _⟩ => show win3_2.index _ (0 : Fin 2) * 5000 ≤ (i 0).val ∧ (i 0).val < win3_2.index _ (0 : Fin 2) * 5000 + 5000; rw [e0]; show (i 0).val / 5000 * 5000 ≤ _ ∧ _ < (i 0).val / 5000 * 5000 + 5000; omega
  | ⟨1, _⟩ => show win3_2.index _ (1 : Fin 2) * 64 ≤ (i 1).val ∧ (i 1).val < win3_2.index _ (1 : Fin 2) * 64 + 64; rw [e1]; omega

/-- What point t writes back is block t of the whole-array function of the entry contents. -/
theorem flushed3_2 (c : Dev nD) (t : Fin cfg3.N) :
    (dat3 V c).flushed 2 t = ((cfg3.win 2).blk t).view.read (Elt Ideal)
      (prod (A := 100000) (K := 64) (B := 64) (V c main_v77) (V c main_arg3)) := by
  have ht : t.val < 20 := by have h := t.isLt; have hN : cfg3.N = 20 := N_3; omega
  show (cfg3.win 2).cut (grid3.coords t) ((dat3 V c).after 2 t) = _
  rw [after3_2]
  unfold out3_2
  rw [View.canon_unit_zero hz]
  simp only [View.ld_unit_zero (S := S5000x64) hz, View.ld_unit_zero (S := S64x64) hz]
  funext j
  show k3_pay1 (iblk3 V c 0 t) (iblk3 V c 1 t) j
    = (prod (A := 100000) (K := 64) (B := 64) (V c main_v77) (V c main_arg3)) (((cfg3.win 2).blk t).view.emb j)
  rw [emb3_2 t ht j]
  refine (congrArg _ (eq_ix2 j)).trans ?_
  refine (pay3 _ _ (j 0) (j 1)).trans ?_
  exact prod_congr _ _ _ _ (j 0) _ (j 1) (fun k => iblk3_0 V c t ht (j 0) k) (fun k => iblk3_1 V c t (ix2 k (j 1)))

/-- After the region the result array holds the function of the entry contents. -/
theorem final3_2 (c : Dev nD) : (dat3 V c).arrAt 2 cfg3.N = (prod (A := 100000) (K := 64) (B := 64) (V c main_v77) (V c main_arg3)) :=
  (dat3 V c).arrAt_eq_of_cover 2 _ (fun t _ => flushed3_2 V c t) covered3_2

/-! ## Region 4 -/

theorem idx4_0 : ∀ t : Fin cfg4.N, win4_0.index t (0 : Fin 2) = t.val ∧ win4_0.index t (1 : Fin 2) = 0 :=
  (by decide +kernel : ∀ t : Fin grid4.N, _)
theorem emb4_0 (t : Fin cfg4.N) (ht : t.val < 20) (y : S5000x64.Idx) :
    ((cfg4.win 0).blk t).view.emb y = rowAt t.val ht (y 0) (y 1) := by
  obtain ⟨e0, e1⟩ := idx4_0 t
  funext a; apply Fin.ext
  match a with
  | ⟨0, _⟩ => show win4_0.index t (0 : Fin 2) * 5000 + 1 * (y 0).val = 5000 * t.val + (y 0).val; omega
  | ⟨1, _⟩ => show win4_0.index t (1 : Fin 2) * 64 + 1 * (y 1).val = (y 1).val; omega
theorem iblk4_0 (c : Dev nD) (t : Fin cfg4.N) (ht : t.val < 20) (r : Fin 5000) (k : Fin 64) :
    iblk4 V c 0 t (ix2 r k) = V c main_v91 (rowAt t.val ht r k) := by
  show V c main_v91 (((cfg4.win 0).blk t).view.emb (ix2 r k)) = _
  rw [emb4_0 t ht]
  rfl

theorem idx4_1 : ∀ t : Fin cfg4.N, win4_1.index t (0 : Fin 2) = 0 ∧ win4_1.index t (1 : Fin 2) = 0 :=
  (by decide +kernel : ∀ t : Fin grid4.N, _)
theorem emb4_1 (t : Fin cfg4.N) (y : S1x64.Idx) : ((cfg4.win 1).blk t).view.emb y = y := by
  obtain ⟨e0, e1⟩ := idx4_1 t
  funext a; apply Fin.ext
  match a with
  | ⟨0, _⟩ => show win4_1.index t (0 : Fin 2) * 1 + 1 * (y 0).val = (y 0).val; omega
  | ⟨1, _⟩ => show win4_1.index t (1 : Fin 2) * 64 + 1 * (y 1).val = (y 1).val; omega
theorem iblk4_1 (c : Dev nD) (t : Fin cfg4.N) (y : S1x64.Idx) : iblk4 V c 1 t y = V c main_v92 y := by
  show V c main_v92 (((cfg4.win 1).blk t).view.emb y) = _
  rw [emb4_1 t]

theorem idx4_2 : ∀ t : Fin cfg4.N, win4_2.index t (0 : Fin 2) = 0 ∧ win4_2.index t (1 : Fin 2) = 0 :=
  (by decide +kernel : ∀ t : Fin grid4.N, _)
theorem emb4_2 (t : Fin cfg4.N) (y : S64x4.Idx) : ((cfg4.win 2).blk t).view.emb y = y := by
  obtain ⟨e0, e1⟩ := idx4_2 t
  funext a; apply Fin.ext
  match a with
  | ⟨0, _⟩ => show win4_2.index t (0 : Fin 2) * 64 + 1 * (y 0).val = (y 0).val; omega
  | ⟨1, _⟩ => show win4_2.index t (1 : Fin 2) * 4 + 1 * (y 1).val = (y 1).val; omega
theorem iblk4_2 (c : Dev nD) (t : Fin cfg4.N) (y : S64x4.Idx) : iblk4 V c 2 t y = V c main_arg5 y := by
  show V c main_arg5 (((cfg4.win 2).blk t).view.emb y) = _
  rw [emb4_2 t]

theorem idx4_3 : ∀ t : Fin cfg4.N, win4_3.index t (0 : Fin 2) = 0 ∧ win4_3.index t (1 : Fin 2) = 0 :=
  (by decide +kernel : ∀ t : Fin grid4.N, _)
theorem emb4_3 (t : Fin cfg4.N) (y : S1x4.Idx) : ((cfg4.win 3).blk t).view.emb y = y := by
  obtain ⟨e0, e1⟩ := idx4_3 t
  funext a; apply Fin.ext
  match a with
  | ⟨0, _⟩ => show win4_3.index t (0 : Fin 2) * 1 + 1 * (y 0).val = (y 0).val; omega
  | ⟨1, _⟩ => show win4_3.index t (1 : Fin 2) * 4 + 1 * (y 1).val = (y 1).val; omega
theorem iblk4_3 (c : Dev nD) (t : Fin cfg4.N) (y : S1x4.Idx) : iblk4 V c 3 t y = V c main_v93 y := by
  show V c main_v93 (((cfg4.win 3).blk t).view.emb y) = _
  rw [emb4_3 t]

theorem idx4_4 : ∀ t : Fin cfg4.N, win4_4.index t (0 : Fin 2) = 0 ∧ win4_4.index t (1 : Fin 2) = 0 :=
  (by decide +kernel : ∀ t : Fin grid4.N, _)
theorem emb4_4 (t : Fin cfg4.N) (y : S64x3.Idx) : ((cfg4.win 4).blk t).view.emb y = y := by
  obtain ⟨e0, e1⟩ := idx4_4 t
  funext a; apply Fin.ext
  match a with
  | ⟨0, _⟩ => show win4_4.index t (0 : Fin 2) * 64 + 1 * (y 0).val = (y 0).val; omega
  | ⟨1, _⟩ => show win4_4.index t (1 : Fin 2) * 3 + 1 * (y 1).val = (y 1).val; omega
theorem iblk4_4 (c : Dev nD) (t : Fin cfg4.N) (y : S64x3.Idx) : iblk4 V c 4 t y = V c main_arg7 y := by
  show V c main_arg7 (((cfg4.win 4).blk t).view.emb y) = _
  rw [emb4_4 t]

theorem idx4_5 : ∀ t : Fin cfg4.N, win4_5.index t (0 : Fin 2) = 0 ∧ win4_5.index t (1 : Fin 2) = 0 :=
  (by decide +kernel : ∀ t : Fin grid4.N, _)
theorem emb4_5 (t : Fin cfg4.N) (y : S1x3.Idx) : ((cfg4.win 5).blk t).view.emb y = y := by
  obtain ⟨e0, e1⟩ := idx4_5 t
  funext a; apply Fin.ext
  match a with
  | ⟨0, _⟩ => show win4_5.index t (0 : Fin 2) * 1 + 1 * (y 0).val = (y 0).val; omega
  | ⟨1, _⟩ => show win4_5.index t (1 : Fin 2) * 3 + 1 * (y 1).val = (y 1).val; omega
theorem iblk4_5 (c : Dev nD) (t : Fin cfg4.N) (y : S1x3.Idx) : iblk4 V c 5 t y = V c main_v94 y := by
  show V c main_v94 (((cfg4.win 5).blk t).view.emb y) = _
  rw [emb4_5 t]

theorem idx4_6 : ∀ t : Fin cfg4.N, win4_6.index t (0 : Fin 2) = t.val ∧ win4_6.index t (1 : Fin 2) = 0 :=
  (by decide +kernel : ∀ t : Fin grid4.N, _)
theorem emb4_6 (t : Fin cfg4.N) (ht : t.val < 20) (y : S5000x4.Idx) :
    ((cfg4.win 6).blk t).view.emb y = rowAt t.val ht (y 0) (y 1) := by
  obtain ⟨e0, e1⟩ := idx4_6 t
  funext a; apply Fin.ext
  match a with
  | ⟨0, _⟩ => show win4_6.index t (0 : Fin 2) * 5000 + 1 * (y 0).val = 5000 * t.val + (y 0).val; omega
  | ⟨1, _⟩ => show win4_6.index t (1 : Fin 2) * 4 + 1 * (y 1).val = (y 1).val; omega

theorem idx4_7 : ∀ t : Fin cfg4.N, win4_7.index t (0 : Fin 2) = t.val ∧ win4_7.index t (1 : Fin 2) = 0 :=
  (by decide +kernel : ∀ t : Fin grid4.N, _)
theorem emb4_7 (t : Fin cfg4.N) (ht : t.val < 20) (y : S5000x3.Idx) :
    ((cfg4.win 7).blk t).view.emb y = rowAt t.val ht (y 0) (y 1) := by
  obtain ⟨e0, e1⟩ := idx4_7 t
  funext a; apply Fin.ext
  match a with
  | ⟨0, _⟩ => show win4_7.index t (0 : Fin 2) * 5000 + 1 * (y 0).val = 5000 * t.val + (y 0).val; omega
  | ⟨1, _⟩ => show win4_7.index t (1 : Fin 2) * 3 + 1 * (y 1).val = (y 1).val; omega

theorem idx4_8 : ∀ t : Fin cfg4.N, win4_8.index t (0 : Fin 2) = t.val ∧ win4_8.index t (1 : Fin 2) = 0 :=
  (by decide +kernel : ∀ t : Fin grid4.N, _)
theorem emb4_8 (t : Fin cfg4.N) (ht : t.val < 20) (y : S5000x64.Idx) :
    ((cfg4.win 8).blk t).view.emb y = rowAt t.val ht (y 0) (y 1) := by
  obtain ⟨e0, e1⟩ := idx4_8 t
  funext a; apply Fin.ext
  match a with
  | ⟨0, _⟩ => show win4_8.index t (0 : Fin 2) * 5000 + 1 * (y 0).val = 5000 * t.val + (y 0).val; omega
  | ⟨1, _⟩ => show win4_8.index t (1 : Fin 2) * 64 + 1 * (y 1).val = (y 1).val; omega

theorem mem_blk4_6 (t : Fin cfg4.N) (i : S100000x4.Idx) :
    i ∈ ((cfg4.win 6).blk t).view.set ↔ ∀ a : Fin 2, win4_6.index t a * S5000x4.size a ≤ (i a).val ∧ (i a).val < win4_6.index t a * S5000x4.size a + S5000x4.size a := by
  show i ∈ ((View.whole main_v95_0).slice (win4_6.rect t)).set ↔ _
  rw [View.set_slice_whole, Rect.mem_set_unit]
  exact Iff.rfl

/-- Every row lies in the block of the point r / 5000. -/
theorem covered4_6 (i : S100000x4.Idx) : ∃ t : Fin cfg4.N, (cfg4.win 6).flush t = true ∧ i ∈ ((cfg4.win 6).blk t).view.set := by
  have hi0 : (i 0).val < 100000 := (i 0).isLt
  have hi1 : (i 1).val < 4 := (i 1).isLt
  have hN : cfg4.N = 20 := N_4
  refine ⟨⟨(i 0).val / 5000, by rw [hN]; omega⟩, flush4_6 _, ?_⟩
  rw [mem_blk4_6]
  obtain ⟨e0, e1⟩ := idx4_6 ⟨(i 0).val / 5000, by rw [hN]; omega⟩
  intro a
  match a with
  | ⟨0, _⟩ => show win4_6.index _ (0 : Fin 2) * 5000 ≤ (i 0).val ∧ (i 0).val < win4_6.index _ (0 : Fin 2) * 5000 + 5000; rw [e0]; show (i 0).val / 5000 * 5000 ≤ _ ∧ _ < (i 0).val / 5000 * 5000 + 5000; omega
  | ⟨1, _⟩ => show win4_6.index _ (1 : Fin 2) * 4 ≤ (i 1).val ∧ (i 1).val < win4_6.index _ (1 : Fin 2) * 4 + 4; rw [e1]; omega

/-- What point t writes back is block t of the whole-array function of the entry contents. -/
theorem flushed4_6 (c : Dev nD) (t : Fin cfg4.N) :
    (dat4 V c).flushed 6 t = ((cfg4.win 6).blk t).view.read (Elt Ideal)
      (linRow (A := 100000) (K := 64) (B := 4) (addRow (A := 100000) (B := 64) (V c main_v91) (V c main_v92)) (V c main_arg5) (V c main_v93)) := by
  have ht : t.val < 20 := by have h := t.isLt; have hN : cfg4.N = 20 := N_4; omega
  show (cfg4.win 6).cut (grid4.coords t) ((dat4 V c).after 6 t) = _
  rw [after4_6]
  unfold out4_6
  rw [View.canon_unit_zero hz]
  simp only [View.ld_unit_zero (S := S5000x64) hz, View.ld_unit_zero (S := S1x64) hz, View.ld_unit_zero (S := S64x4) hz, View.ld_unit_zero (S := S1x4) hz, View.ld_unit_zero (S := S64x3) hz, View.ld_unit_zero (S := S1x3) hz, View.ld_unit_zero (S := S5000x4) hz]
  funext j
  show k4_pay3 (iblk4 V c 0 t) (iblk4 V c 1 t) (iblk4 V c 2 t) (iblk4 V c 3 t) j
    = (linRow (A := 100000) (K := 64) (B := 4) (addRow (A := 100000) (B := 64) (V c main_v91) (V c main_v92)) (V c main_arg5) (V c main_v93)) (((cfg4.win 6).blk t).view.emb j)
  rw [emb4_6 t ht j]
  refine (congrArg _ (eq_ix2 j)).trans ?_
  refine (pay4a _ _ _ _ (j 0) (j 1)).trans ?_
  exact linRow_congr _ _ _ _ _ _ (j 0) _ (j 1) (fun k => addRow_congr _ _ _ _ (j 0) _ k (iblk4_0 V c t ht (j 0) k) (iblk4_1 V c t (ix2 0 k))) (fun k => iblk4_2 V c t (ix2 k (j 1))) (iblk4_3 V c t (ix2 0 (j 1)))

/-- After the region the result array holds the function of the entry contents. -/
theorem final4_6 (c : Dev nD) : (dat4 V c).arrAt 6 cfg4.N = (linRow (A := 100000) (K := 64) (B := 4) (addRow (A := 100000) (B := 64) (V c main_v91) (V c main_v92)) (V c main_arg5) (V c main_v93)) :=
  (dat4 V c).arrAt_eq_of_cover 6 _ (fun t _ => flushed4_6 V c t) covered4_6

theorem mem_blk4_7 (t : Fin cfg4.N) (i : S100000x3.Idx) :
    i ∈ ((cfg4.win 7).blk t).view.set ↔ ∀ a : Fin 2, win4_7.index t a * S5000x3.size a ≤ (i a).val ∧ (i a).val < win4_7.index t a * S5000x3.size a + S5000x3.size a := by
  show i ∈ ((View.whole main_v95_1).slice (win4_7.rect t)).set ↔ _
  rw [View.set_slice_whole, Rect.mem_set_unit]
  exact Iff.rfl

/-- Every row lies in the block of the point r / 5000. -/
theorem covered4_7 (i : S100000x3.Idx) : ∃ t : Fin cfg4.N, (cfg4.win 7).flush t = true ∧ i ∈ ((cfg4.win 7).blk t).view.set := by
  have hi0 : (i 0).val < 100000 := (i 0).isLt
  have hi1 : (i 1).val < 3 := (i 1).isLt
  have hN : cfg4.N = 20 := N_4
  refine ⟨⟨(i 0).val / 5000, by rw [hN]; omega⟩, flush4_7 _, ?_⟩
  rw [mem_blk4_7]
  obtain ⟨e0, e1⟩ := idx4_7 ⟨(i 0).val / 5000, by rw [hN]; omega⟩
  intro a
  match a with
  | ⟨0, _⟩ => show win4_7.index _ (0 : Fin 2) * 5000 ≤ (i 0).val ∧ (i 0).val < win4_7.index _ (0 : Fin 2) * 5000 + 5000; rw [e0]; show (i 0).val / 5000 * 5000 ≤ _ ∧ _ < (i 0).val / 5000 * 5000 + 5000; omega
  | ⟨1, _⟩ => show win4_7.index _ (1 : Fin 2) * 3 ≤ (i 1).val ∧ (i 1).val < win4_7.index _ (1 : Fin 2) * 3 + 3; rw [e1]; omega

/-- What point t writes back is block t of the whole-array function of the entry contents. -/
theorem flushed4_7 (c : Dev nD) (t : Fin cfg4.N) :
    (dat4 V c).flushed 7 t = ((cfg4.win 7).blk t).view.read (Elt Ideal)
      (linRow (A := 100000) (K := 64) (B := 3) (addRow (A := 100000) (B := 64) (V c main_v91) (V c main_v92)) (V c main_arg7) (V c main_v94)) := by
  have ht : t.val < 20 := by have h := t.isLt; have hN : cfg4.N = 20 := N_4; omega
  show (cfg4.win 7).cut (grid4.coords t) ((dat4 V c).after 7 t) = _
  rw [after4_7]
  unfold out4_7
  rw [View.canon_unit_zero hz]
  simp only [View.ld_unit_zero (S := S5000x64) hz, View.ld_unit_zero (S := S1x64) hz, View.ld_unit_zero (S := S64x4) hz, View.ld_unit_zero (S := S1x4) hz, View.ld_unit_zero (S := S64x3) hz, View.ld_unit_zero (S := S1x3) hz, View.ld_unit_zero (S := S5000x3) hz]
  funext j
  show k4_pay4 (iblk4 V c 0 t) (iblk4 V c 1 t) (iblk4 V c 4 t) (iblk4 V c 5 t) j
    = (linRow (A := 100000) (K := 64) (B := 3) (addRow (A := 100000) (B := 64) (V c main_v91) (V c main_v92)) (V c main_arg7) (V c main_v94)) (((cfg4.win 7).blk t).view.emb j)
  rw [emb4_7 t ht j]
  refine (congrArg _ (eq_ix2 j)).trans ?_
  refine (pay4b _ _ _ _ (j 0) (j 1)).trans ?_
  exact linRow_congr _ _ _ _ _ _ (j 0) _ (j 1) (fun k => addRow_congr _ _ _ _ (j 0) _ k (iblk4_0 V c t ht (j 0) k) (iblk4_1 V c t (ix2 0 k))) (fun k => iblk4_4 V c t (ix2 k (j 1))) (iblk4_5 V c t (ix2 0 (j 1)))

/-- After the region the result array holds the function of the entry contents. -/
theorem final4_7 (c : Dev nD) : (dat4 V c).arrAt 7 cfg4.N = (linRow (A := 100000) (K := 64) (B := 3) (addRow (A := 100000) (B := 64) (V c main_v91) (V c main_v92)) (V c main_arg7) (V c main_v94)) :=
  (dat4 V c).arrAt_eq_of_cover 7 _ (fun t _ => flushed4_7 V c t) covered4_7

theorem mem_blk4_8 (t : Fin cfg4.N) (i : S100000x64.Idx) :
    i ∈ ((cfg4.win 8).blk t).view.set ↔ ∀ a : Fin 2, win4_8.index t a * S5000x64.size a ≤ (i a).val ∧ (i a).val < win4_8.index t a * S5000x64.size a + S5000x64.size a := by
  show i ∈ ((View.whole main_v95_2).slice (win4_8.rect t)).set ↔ _
  rw [View.set_slice_whole, Rect.mem_set_unit]
  exact Iff.rfl

/-- Every row lies in the block of the point r / 5000. -/
theorem covered4_8 (i : S100000x64.Idx) : ∃ t : Fin cfg4.N, (cfg4.win 8).flush t = true ∧ i ∈ ((cfg4.win 8).blk t).view.set := by
  have hi0 : (i 0).val < 100000 := (i 0).isLt
  have hi1 : (i 1).val < 64 := (i 1).isLt
  have hN : cfg4.N = 20 := N_4
  refine ⟨⟨(i 0).val / 5000, by rw [hN]; omega⟩, flush4_8 _, ?_⟩
  rw [mem_blk4_8]
  obtain ⟨e0, e1⟩ := idx4_8 ⟨(i 0).val / 5000, by rw [hN]; omega⟩
  intro a
  match a with
  | ⟨0, _⟩ => show win4_8.index _ (0 : Fin 2) * 5000 ≤ (i 0).val ∧ (i 0).val < win4_8.index _ (0 : Fin 2) * 5000 + 5000; rw [e0]; show (i 0).val / 5000 * 5000 ≤ _ ∧ _ < (i 0).val / 5000 * 5000 + 5000; omega
  | ⟨1, _⟩ => show win4_8.index _ (1 : Fin 2) * 64 ≤ (i 1).val ∧ (i 1).val < win4_8.index _ (1 : Fin 2) * 64 + 64; rw [e1]; omega

/-- What point t writes back is block t of the whole-array function of the entry contents. -/
theorem flushed4_8 (c : Dev nD) (t : Fin cfg4.N) :
    (dat4 V c).flushed 8 t = ((cfg4.win 8).blk t).view.read (Elt Ideal)
      (addRow (A := 100000) (B := 64) (V c main_v91) (V c main_v92)) := by
  have ht : t.val < 20 := by have h := t.isLt; have hN : cfg4.N = 20 := N_4; omega
  show (cfg4.win 8).cut (grid4.coords t) ((dat4 V c).after 8 t) = _
  rw [after4_8]
  unfold out4_8
  rw [View.canon_unit_zero hz]
  simp only [View.ld_unit_zero (S := S5000x64) hz, View.ld_unit_zero (S := S1x64) hz, View.ld_unit_zero (S := S64x4) hz, View.ld_unit_zero (S := S1x4) hz, View.ld_unit_zero (S := S64x3) hz, View.ld_unit_zero (S := S1x3) hz]
  funext j
  show k4_pay1 (iblk4 V c 0 t) (iblk4 V c 1 t) j
    = (addRow (A := 100000) (B := 64) (V c main_v91) (V c main_v92)) (((cfg4.win 8).blk t).view.emb j)
  rw [emb4_8 t ht j]
  refine (congrArg _ (eq_ix2 j)).trans ?_
  refine (pay4h _ _ (j 0) (j 1)).trans ?_
  exact addRow_congr _ _ _ _ (j 0) _ (j 1) (iblk4_0 V c t ht (j 0) (j 1)) (iblk4_1 V c t (ix2 0 (j 1)))

/-- After the region the result array holds the function of the entry contents. -/
theorem final4_8 (c : Dev nD) : (dat4 V c).arrAt 8 cfg4.N = (addRow (A := 100000) (B := 64) (V c main_v91) (V c main_v92)) :=
  (dat4 V c).arrAt_eq_of_cover 8 _ (fun t _ => flushed4_8 V c t) covered4_8

end Cert.KernelIdeal.Blocks

end
-- ==== Proof.Glue.lean ====
/-
  The graph side of the network as pure functions of arrays, in the spelling of the kernel program's host lines.

  * `rowIdx ei`, `colIdx ei` — the source and target node of every edge, the N self loops (a running index)
    appended to the E given edges: row 0, respectively row 1, of the [2, E] edge table, joined with 0 … N-1.
  * `degInv col` — per node, deg^(-1/2) where the degree (the number of edges into the node, a scatter-add of
    ones at `col`) is positive, 0 elsewhere.
  * `wrapIdx v` — an index word made non-negative the way a gather's start index is: v + N where v < 0.
  * `edgeNorm row col` — per edge, degInv at its source times degInv at its target.
  * `propagate nrm row col x` — the normalized aggregation: per edge the source node's row of `x` scaled by the
    edge's weight, scatter-added into the target node's row of a zero [N, 64] array.
  * `wslice k` — matrix k of the stack [3, 64, 64] (a slice and a reshape), `rowOf…` — a vector recast as a row.

  All are generic in the float instance: a scatter-add is a host operation at every instance.
-/
import proofs.«180074_j12687333392405_1_alg».proof.Proof.Gen.KernelIdeal

noncomputable section

namespace Cert.KernelIdeal.Glue

open Cert.KernelIdeal Cert.KernelIdeal.Facts₀ Cert.KernelIdeal.Facts Idealize.ShloMosaic Idealize.ShloMosaic.TcCoe

variable {F : FTy → Type} [FloatOps F]

abbrev IdxVec := (⟨S1100000, .i32⟩ : BufTy).Contents (Elt F)
abbrev EdgeVec := (⟨S1100000, .f32⟩ : BufTy).Contents (Elt F)
abbrev NodeMat := (⟨S100000x64, .f32⟩ : BufTy).Contents (Elt F)

/-- The edges' source nodes, then the self loops' (a running index). -/
def rowIdx (ei : (⟨S2x1000000, .i32⟩ : BufTy).Contents (Elt F)) : IdxVec (F := F) :=
  concatenate S1100000 0 [⟨S1000000, (shapeCast _ (extractStridedSlice S1x1000000 ![0, 0] ei slices_S2x1000000_S1x1000000_0_0) shapeCasts_S1x1000000_S1000000)⟩, ⟨S100000, (iotaInDim S100000 32 0)⟩] concatenates_S1000000_S100000_S1100000_d0

/-- The edges' target nodes, then the self loops'. -/
def colIdx (ei : (⟨S2x1000000, .i32⟩ : BufTy).Contents (Elt F)) : IdxVec (F := F) :=
  concatenate S1100000 0 [⟨S1000000, (shapeCast _ (extractStridedSlice S1x1000000 ![1, 0] ei slices_S2x1000000_S1x1000000_1_0) shapeCasts_S1x1000000_S1000000)⟩, ⟨S100000, (iotaInDim S100000 32 0)⟩] concatenates_S1000000_S100000_S1100000_d0

/-- The degree of every node: ones scatter-added at the edges' targets. -/
def degree (col : IdxVec (F := F)) : (⟨S100000, .f32⟩ : BufTy).Contents (Elt F) :=
  Host.scatterAdd scatter_S100000_S1100000x1_S1100000_n_0_0_1 (broadcastInDim S100000 ![] bcast_S_S100000 (constant S_ .f32 0x00000000#32)) (broadcastInDim S1100000x1 ![0] bcast_S1100000_S1100000x1_0 col) (broadcastInDim S1100000 ![] bcast_S_S1100000 (constant S_ .f32 0x3F800000#32))

/-- deg^(-1/2) where the degree is positive, 0 elsewhere. -/
def degInv (col : IdxVec (F := F)) : (⟨S100000, .f32⟩ : BufTy).Contents (Elt F) :=
  select (cmpf .ogt (degree col) (broadcastInDim S100000 ![] bcast_S_S100000 (constant S_ .f32 0x00000000#32))) (Host.rsqrt (degree col)) (broadcastInDim S100000 ![] bcast_S_S100000 (id (constant S_ .f32 0x00000000#32)))

/-- An index word made non-negative: v + N where v < 0. -/
def wrapIdx (v : IdxVec (F := F)) : IdxVec (F := F) :=
  select (cmpi .slt v (broadcastInDim S1100000 ![] bcast_S_S1100000 (constantI S_ 32 0#32))) (addi v (broadcastInDim S1100000 ![] bcast_S_S1100000 (constantI S_ 32 100000#32))) v

/-- Per edge: degInv at the source times degInv at the target. -/
def edgeNorm (row col : IdxVec (F := F)) : EdgeVec (F := F) :=
  mulf (Host.gather gather_S100000_S1100000x1_S1100000_n_0_n_n_0_1_1 (degInv col) (broadcastInDim S1100000x1 ![0] bcast_S1100000_S1100000x1_0 (wrapIdx row)))
    (Host.gather gather_S100000_S1100000x1_S1100000_n_0_n_n_0_1_1 (degInv col) (broadcastInDim S1100000x1 ![0] bcast_S1100000_S1100000x1_0 (wrapIdx col)))

/-- The normalized aggregation of the rows of `x` along the edges. -/
def propagate (nrm : EdgeVec (F := F)) (row col : IdxVec (F := F)) (x : NodeMat (F := F)) : NodeMat (F := F) :=
  Host.scatterAdd scatter_S100000x64_S1100000x1_S1100000x64_1_0_0_1 (broadcastInDim S100000x64 ![] bcast_S_S100000x64 (constant S_ .f32 0x00000000#32)) (broadcastInDim S1100000x1 ![0] bcast_S1100000_S1100000x1_0 col)
    (mulf (broadcastInDim S1100000x64 ![0, 1] bcast_S1100000x1_S1100000x64_0_1 (broadcastInDim S1100000x1 ![0] bcast_S1100000_S1100000x1_0 nrm))
      (Host.gather gather_S100000x64_S1100000x1_S1100000x64_1_0_n_n_0_1_164 x (broadcastInDim S1100000x1 ![0] bcast_S1100000_S1100000x1_0 (wrapIdx row))))

/-- Matrix 0, 1, 2 of the stack. -/
def wslice0 (ws : (⟨S3x64x64, .f32⟩ : BufTy).Contents (Elt F)) : (⟨S64x64, .f32⟩ : BufTy).Contents (Elt F) :=
  shapeCast _ (extractStridedSlice S1x64x64 ![0, 0, 0] ws slices_S3x64x64_S1x64x64_0_0_0) shapeCasts_S1x64x64_S64x64
def wslice1 (ws : (⟨S3x64x64, .f32⟩ : BufTy).Contents (Elt F)) : (⟨S64x64, .f32⟩ : BufTy).Contents (Elt F) :=
  shapeCast _ (extractStridedSlice S1x64x64 ![1, 0, 0] ws slices_S3x64x64_S1x64x64_1_0_0) shapeCasts_S1x64x64_S64x64
def wslice2 (ws : (⟨S3x64x64, .f32⟩ : BufTy).Contents (Elt F)) : (⟨S64x64, .f32⟩ : BufTy).Contents (Elt F) :=
  shapeCast _ (extractStridedSlice S1x64x64 ![2, 0, 0] ws slices_S3x64x64_S1x64x64_2_0_0) shapeCasts_S1x64x64_S64x64

/-- A bias vector recast as a row [1, B] (a reshape). -/
def row64 (b : (⟨S64, .f32⟩ : BufTy).Contents (Elt F)) : (⟨S1x64, .f32⟩ : BufTy).Contents (Elt F) := shapeCast _ b shapeCasts_S64_S1x64
def row4 (b : (⟨S4, .f32⟩ : BufTy).Contents (Elt F)) : (⟨S1x4, .f32⟩ : BufTy).Contents (Elt F) := shapeCast _ b shapeCasts_S4_S1x4
def row3 (b : (⟨S3, .f32⟩ : BufTy).Contents (Elt F)) : (⟨S1x3, .f32⟩ : BufTy).Contents (Elt F) := shapeCast _ b shapeCasts_S3_S1x3

end Cert.KernelIdeal.Glue

end
-- ==== Proof.KernelHost.lean ====
/-
  The host stretches of the kernel program as pure functions, at ANY buffer contents `W` a stretch starts from:
  what a stretch leaves in the buffers later segments read is the graph-side function (Glue) of what it found in
  the buffers it reads, and a buffer no line of the stretch writes keeps its contents.
-/
import proofs.«180074_j12687333392405_1_alg».proof.Proof.Gen.KernelIdeal.Launch
import proofs.«180074_j12687333392405_1_alg».proof.Proof.Glue
import Idealize.ShloMosaic.Lib.StableHlo.Run

noncomputable section

namespace Cert.KernelIdeal.Stretch

open Cert.KernelIdeal Cert.KernelIdeal.Gen Cert.KernelIdeal.Glue
open Idealize.ShloMosaic Idealize.ShloMosaic.TcCoe Idealize.SL.Sem Idealize.ShloMosaic.StableHlo

set_option maxRecDepth 8192

variable {F : FTy → Type} [FloatOps F] (W : Valuation τ sig (Elt F))

/-! ## Before the first region: the edge columns, the edge weights, the first aggregation, the first matrix -/

/-- The three stretches before the first region, one after the other. -/
abbrev pre (W : Valuation τ sig (Elt F)) : Valuation τ sig (Elt F) :=
  StableHlo.after hostOps0_2 (StableHlo.after hostOps0_1 (StableHlo.after hostOps0 W))

theorem pre_row : pre W (Proc.devRef .tc main_v3) = rowIdx (W (Proc.devRef .tc main_arg1)) := by
  dsimp only [pre, hostOps0, hostOps0_1, hostOps0_2]; after_results_simp <;> rfl
theorem pre_col : pre W (Proc.devRef .tc main_v6) = colIdx (W (Proc.devRef .tc main_arg1)) := by
  dsimp only [pre, hostOps0, hostOps0_1, hostOps0_2]; after_results_simp <;> rfl
theorem pre_nrm : pre W (Proc.devRef .tc main_v29) = edgeNorm (rowIdx (W (Proc.devRef .tc main_arg1))) (colIdx (W (Proc.devRef .tc main_arg1))) := by
  dsimp only [pre, hostOps0, hostOps0_1, hostOps0_2]; after_results_simp <;> rfl
theorem pre_prop : pre W (Proc.devRef .tc main_v42)
    = propagate (edgeNorm (rowIdx (W (Proc.devRef .tc main_arg1))) (colIdx (W (Proc.devRef .tc main_arg1)))) (rowIdx (W (Proc.devRef .tc main_arg1))) (colIdx (W (Proc.devRef .tc main_arg1))) (W (Proc.devRef .tc main_arg0)) := by
  dsimp only [pre, hostOps0, hostOps0_1, hostOps0_2]; after_results_simp <;> rfl
theorem pre_w : pre W (Proc.devRef .tc main_v44) = wslice0 (W (Proc.devRef .tc main_arg2)) := by
  dsimp only [pre, hostOps0, hostOps0_1, hostOps0_2]; after_results_simp <;> rfl
theorem pre_arg0 : pre W (Proc.devRef .tc main_arg0) = W (Proc.devRef .tc main_arg0) := by
  dsimp only [pre, hostOps0, hostOps0_1, hostOps0_2]; after_results_simp <;> rfl
theorem pre_arg2 : pre W (Proc.devRef .tc main_arg2) = W (Proc.devRef .tc main_arg2) := by
  dsimp only [pre, hostOps0, hostOps0_1, hostOps0_2]; after_results_simp <;> rfl
theorem pre_arg3 : pre W (Proc.devRef .tc main_arg3) = W (Proc.devRef .tc main_arg3) := by
  dsimp only [pre, hostOps0, hostOps0_1, hostOps0_2]; after_results_simp <;> rfl
theorem pre_arg4 : pre W (Proc.devRef .tc main_arg4) = W (Proc.devRef .tc main_arg4) := by
  dsimp only [pre, hostOps0, hostOps0_1, hostOps0_2]; after_results_simp <;> rfl
theorem pre_arg5 : pre W (Proc.devRef .tc main_arg5) = W (Proc.devRef .tc main_arg5) := by
  dsimp only [pre, hostOps0, hostOps0_1, hostOps0_2]; after_results_simp <;> rfl
theorem pre_arg6 : pre W (Proc.devRef .tc main_arg6) = W (Proc.devRef .tc main_arg6) := by
  dsimp only [pre, hostOps0, hostOps0_1, hostOps0_2]; after_results_simp <;> rfl
theorem pre_arg7 : pre W (Proc.devRef .tc main_arg7) = W (Proc.devRef .tc main_arg7) := by
  dsimp only [pre, hostOps0, hostOps0_1, hostOps0_2]; after_results_simp <;> rfl
theorem pre_arg8 : pre W (Proc.devRef .tc main_arg8) = W (Proc.devRef .tc main_arg8) := by
  dsimp only [pre, hostOps0, hostOps0_1, hostOps0_2]; after_results_simp <;> rfl

/-! ## The stretch `hostOps1` -/

theorem s1_prop : StableHlo.after hostOps1 W (Proc.devRef .tc main_v58)
    = propagate (W (Proc.devRef .tc main_v29)) (W (Proc.devRef .tc main_v3)) (W (Proc.devRef .tc main_v6)) (W (Proc.devRef .tc main_v45)) := by
  dsimp only [hostOps1]; after_results_simp <;> rfl
theorem s1_w : StableHlo.after hostOps1 W (Proc.devRef .tc main_v60) = wslice1 (W (Proc.devRef .tc main_arg2)) := by
  dsimp only [hostOps1]; after_results_simp <;> rfl

theorem s1_keep_main_v45 : StableHlo.after hostOps1 W (Proc.devRef .tc main_v45) = W (Proc.devRef .tc main_v45) := by
  dsimp only [hostOps1]; after_results_simp <;> rfl
theorem s1_keep_main_v29 : StableHlo.after hostOps1 W (Proc.devRef .tc main_v29) = W (Proc.devRef .tc main_v29) := by
  dsimp only [hostOps1]; after_results_simp <;> rfl
theorem s1_keep_main_v3 : StableHlo.after hostOps1 W (Proc.devRef .tc main_v3) = W (Proc.devRef .tc main_v3) := by
  dsimp only [hostOps1]; after_results_simp <;> rfl
theorem s1_keep_main_v6 : StableHlo.after hostOps1 W (Proc.devRef .tc main_v6) = W (Proc.devRef .tc main_v6) := by
  dsimp only [hostOps1]; after_results_simp <;> rfl
theorem s1_keep_main_arg2 : StableHlo.after hostOps1 W (Proc.devRef .tc main_arg2) = W (Proc.devRef .tc main_arg2) := by
  dsimp only [hostOps1]; after_results_simp <;> rfl
theorem s1_keep_main_arg3 : StableHlo.after hostOps1 W (Proc.devRef .tc main_arg3) = W (Proc.devRef .tc main_arg3) := by
  dsimp only [hostOps1]; after_results_simp <;> rfl
theorem s1_keep_main_arg4 : StableHlo.after hostOps1 W (Proc.devRef .tc main_arg4) = W (Proc.devRef .tc main_arg4) := by
  dsimp only [hostOps1]; after_results_simp <;> rfl
theorem s1_keep_main_arg5 : StableHlo.after hostOps1 W (Proc.devRef .tc main_arg5) = W (Proc.devRef .tc main_arg5) := by
  dsimp only [hostOps1]; after_results_simp <;> rfl
theorem s1_keep_main_arg6 : StableHlo.after hostOps1 W (Proc.devRef .tc main_arg6) = W (Proc.devRef .tc main_arg6) := by
  dsimp only [hostOps1]; after_results_simp <;> rfl
theorem s1_keep_main_arg7 : StableHlo.after hostOps1 W (Proc.devRef .tc main_arg7) = W (Proc.devRef .tc main_arg7) := by
  dsimp only [hostOps1]; after_results_simp <;> rfl
theorem s1_keep_main_arg8 : StableHlo.after hostOps1 W (Proc.devRef .tc main_arg8) = W (Proc.devRef .tc main_arg8) := by
  dsimp only [hostOps1]; after_results_simp <;> rfl

/-! ## The stretch `hostOps2` -/

theorem s2_prop : StableHlo.after hostOps2 W (Proc.devRef .tc main_v74)
    = propagate (W (Proc.devRef .tc main_v29)) (W (Proc.devRef .tc main_v3)) (W (Proc.devRef .tc main_v6)) (W (Proc.devRef .tc main_v61)) := by
  dsimp only [hostOps2]; after_results_simp <;> rfl
theorem s2_w : StableHlo.after hostOps2 W (Proc.devRef .tc main_v76) = wslice2 (W (Proc.devRef .tc main_arg2)) := by
  dsimp only [hostOps2]; after_results_simp <;> rfl

theorem s2_keep_main_v61 : StableHlo.after hostOps2 W (Proc.devRef .tc main_v61) = W (Proc.devRef .tc main_v61) := by
  dsimp only [hostOps2]; after_results_simp <;> rfl
theorem s2_keep_main_v29 : StableHlo.after hostOps2 W (Proc.devRef .tc main_v29) = W (Proc.devRef .tc main_v29) := by
  dsimp only [hostOps2]; after_results_simp <;> rfl
theorem s2_keep_main_v3 : StableHlo.after hostOps2 W (Proc.devRef .tc main_v3) = W (Proc.devRef .tc main_v3) := by
  dsimp only [hostOps2]; after_results_simp <;> rfl
theorem s2_keep_main_v6 : StableHlo.after hostOps2 W (Proc.devRef .tc main_v6) = W (Proc.devRef .tc main_v6) := by
  dsimp only [hostOps2]; after_results_simp <;> rfl
theorem s2_keep_main_arg2 : StableHlo.after hostOps2 W (Proc.devRef .tc main_arg2) = W (Proc.devRef .tc main_arg2) := by
  dsimp only [hostOps2]; after_results_simp <;> rfl
theorem s2_keep_main_arg3 : StableHlo.after hostOps2 W (Proc.devRef .tc main_arg3) = W (Proc.devRef .tc main_arg3) := by
  dsimp only [hostOps2]; after_results_simp <;> rfl
theorem s2_keep_main_arg4 : StableHlo.after hostOps2 W (Proc.devRef .tc main_arg4) = W (Proc.devRef .tc main_arg4) := by
  dsimp only [hostOps2]; after_results_simp <;> rfl
theorem s2_keep_main_arg5 : StableHlo.after hostOps2 W (Proc.devRef .tc main_arg5) = W (Proc.devRef .tc main_arg5) := by
  dsimp only [hostOps2]; after_results_simp <;> rfl
theorem s2_keep_main_arg6 : StableHlo.after hostOps2 W (Proc.devRef .tc main_arg6) = W (Proc.devRef .tc main_arg6) := by
  dsimp only [hostOps2]; after_results_simp <;> rfl
theorem s2_keep_main_arg7 : StableHlo.after hostOps2 W (Proc.devRef .tc main_arg7) = W (Proc.devRef .tc main_arg7) := by
  dsimp only [hostOps2]; after_results_simp <;> rfl
theorem s2_keep_main_arg8 : StableHlo.after hostOps2 W (Proc.devRef .tc main_arg8) = W (Proc.devRef .tc main_arg8) := by
  dsimp only [hostOps2]; after_results_simp <;> rfl

/-! ## The stretch `hostOps4` -/

theorem s4_prop : StableHlo.after hostOps4 W (Proc.devRef .tc main_v91)
    = propagate (W (Proc.devRef .tc main_v29)) (W (Proc.devRef .tc main_v3)) (W (Proc.devRef .tc main_v6)) (W (Proc.devRef .tc main_v78)) := by
  dsimp only [hostOps4]; after_results_simp <;> rfl

theorem s4_main_v92 : StableHlo.after hostOps4 W (Proc.devRef .tc main_v92) = row64 (W (Proc.devRef .tc main_arg4)) := by
  dsimp only [hostOps4]; after_results_simp <;> rfl
theorem s4_main_v93 : StableHlo.after hostOps4 W (Proc.devRef .tc main_v93) = row4 (W (Proc.devRef .tc main_arg6)) := by
  dsimp only [hostOps4]; after_results_simp <;> rfl
theorem s4_main_v94 : StableHlo.after hostOps4 W (Proc.devRef .tc main_v94) = row3 (W (Proc.devRef .tc main_arg8)) := by
  dsimp only [hostOps4]; after_results_simp <;> rfl
theorem s4_keep_main_arg5 : StableHlo.after hostOps4 W (Proc.devRef .tc main_arg5) = W (Proc.devRef .tc main_arg5) := by
  dsimp only [hostOps4]; after_results_simp <;> rfl
theorem s4_keep_main_arg7 : StableHlo.after hostOps4 W (Proc.devRef .tc main_arg7) = W (Proc.devRef .tc main_arg7) := by
  dsimp only [hostOps4]; after_results_simp <;> rfl

end Cert.KernelIdeal.Stretch

end
-- ==== Proof.Net.lean ====
/-
  THE NETWORK AS ONE FUNCTION OF ITS ARGUMENT ARRAYS, over the extended reals.

  With the edges' source and target columns `row`, `col` (self loops appended) and the per-edge weight `nrm`
  (deg^(-1/2) at the source times deg^(-1/2) at the target), one residual layer maps the node features y to
      max (((9/10 word) · A y + (1/10 word) · y) · W) 0,          A y the normalized aggregation of y along the edges,
  three such layers run with the three matrices of the stack, the result is projected (· W_g), aggregated once
  more and shifted by the bias row: the hidden array `hidden`; the two heads are `hidden · W₁ + b₁` and
  `hidden · W₂ + b₂`.  The two blend weights are kept as their f32 words, the same words in both programs.
-/
import proofs.«180074_j12687333392405_1_alg».proof.Proof.Glue
import proofs.«180074_j12687333392405_1_alg».proof.Proof.LibBlendDense
import proofs.«180074_j12687333392405_1_alg».proof.Proof.LibGcnDense

noncomputable section

namespace Cert.KernelIdeal.Net

open Cert.KernelIdeal Cert.KernelIdeal.Facts₀ Cert.KernelIdeal.Facts Cert.KernelIdeal.Glue Idealize.ShloMosaic Idealize.ShloMosaic.TcCoe
open Cert.Lib.BlendDense Cert.Lib.GcnDense

abbrev Mat (s : Shape) := (⟨s, .f32⟩ : BufTy).Contents (Elt Ideal)

/-- One residual layer: blend of the aggregated and the incoming features, product with `w`, rectifier. -/
def layer (nrm : EdgeVec (F := Ideal)) (row col : IdxVec (F := Ideal)) (y : Mat S100000x64) (w : Mat S64x64) : Mat S100000x64 :=
  blendRelu (A := 100000) (K := 64) (B := 64) 0x3F666666#32 0x3DCCCCCD#32 (propagate nrm row col y) y w

/-- The features after the three residual layers. -/
def feat3 (x : Mat S100000x64) (ei : (⟨S2x1000000, .i32⟩ : BufTy).Contents (Elt Ideal)) (ws : Mat S3x64x64) : Mat S100000x64 :=
  layer (edgeNorm (rowIdx ei) (colIdx ei)) (rowIdx ei) (colIdx ei)
    (layer (edgeNorm (rowIdx ei) (colIdx ei)) (rowIdx ei) (colIdx ei)
      (layer (edgeNorm (rowIdx ei) (colIdx ei)) (rowIdx ei) (colIdx ei) x (wslice0 ws)) (wslice1 ws)) (wslice2 ws)

/-- The hidden array: projection, aggregation, bias row. -/
def hidden (x : Mat S100000x64) (ei : (⟨S2x1000000, .i32⟩ : BufTy).Contents (Elt Ideal)) (ws : Mat S3x64x64)
    (wg : Mat S64x64) (bg : Mat S64) : Mat S100000x64 :=
  addRow (A := 100000) (B := 64)
    (propagate (edgeNorm (rowIdx ei) (colIdx ei)) (rowIdx ei) (colIdx ei) (prod (A := 100000) (K := 64) (B := 64) (feat3 x ei ws) wg))
    (row64 bg)

/-- The first head: hidden · W₁ + b₁. -/
def head1 (x : Mat S100000x64) (ei : (⟨S2x1000000, .i32⟩ : BufTy).Contents (Elt Ideal)) (ws : Mat S3x64x64)
    (wg : Mat S64x64) (bg : Mat S64) (w1 : Mat S64x4) (b1 : Mat S4) : Mat S100000x4 :=
  linRow (A := 100000) (K := 64) (B := 4) (hidden x ei ws wg bg) w1 (row4 b1)

/-- The second head: hidden · W₂ + b₂. -/
def head2 (x : Mat S100000x64) (ei : (⟨S2x1000000, .i32⟩ : BufTy).Contents (Elt Ideal)) (ws : Mat S3x64x64)
    (wg : Mat S64x64) (bg : Mat S64) (w2 : Mat S64x3) (b2 : Mat S3) : Mat S100000x3 :=
  linRow (A := 100000) (K := 64) (B := 3) (hidden x ei ws wg bg) w2 (row3 b2)

end Cert.KernelIdeal.Net

end
-- ==== Proof.KernelValue.lean ====
/-
  The kernel program's three results as functions of its arguments, over the extended reals.

  The buffer contents are followed from the launch through the eleven segments: the host stretch before the first
  region leaves the edge columns, the edge weights, the first aggregation and the first matrix; each residual
  region leaves one layer of the network applied to what the stretch before it aggregated; the projection region
  leaves the product with W_g; the last stretch aggregates it and lays the three bias vectors as rows; the head
  region leaves the hidden array and the two heads.  The edge columns, the edge weights and the arguments are
  written by no later segment, so every segment finds them as the first stretch left them.
-/
import proofs.«180074_j12687333392405_1_alg».proof.Proof.Gen.KernelIdeal.Frame
import proofs.«180074_j12687333392405_1_alg».proof.Proof.Blocks
import proofs.«180074_j12687333392405_1_alg».proof.Proof.KernelHost
import proofs.«180074_j12687333392405_1_alg».proof.Proof.Net

noncomputable section

namespace Cert.KernelIdeal.Value

open Cert.KernelIdeal Cert.KernelIdeal.Gen Cert.KernelIdeal.Glue Cert.KernelIdeal.Net Cert.KernelIdeal.Blocks Cert.KernelIdeal.Stretch
open Idealize.ShloMosaic Idealize.ShloMosaic.TcCoe Idealize.SL Idealize.SL.Sem
open Idealize.ShloMosaic.Pipeline (Dat Cfg Window BodyObligation cellOf)
open Cert.Lib.BlendDense Cert.Lib.GcnDense

set_option maxRecDepth 16384

variable (m : (ℓ : Loc nD τ sig) → Buf (Elt Ideal) ℓ) (ρ : Dev nD → PrngReg) (c : Dev nD)

/-! ## At the first region's entry -/

theorem w3_main_v29 : W3 m ρ c (Proc.devRef .tc main_v29) = (edgeNorm (rowIdx (m ((c.tc : Thread nD τ).loc main_arg1))) (colIdx (m ((c.tc : Thread nD τ).loc main_arg1)))) :=
  pre_nrm (W0 m ρ c)
theorem w3_main_v3 : W3 m ρ c (Proc.devRef .tc main_v3) = (rowIdx (m ((c.tc : Thread nD τ).loc main_arg1))) :=
  pre_row (W0 m ρ c)
theorem w3_main_v6 : W3 m ρ c (Proc.devRef .tc main_v6) = (colIdx (m ((c.tc : Thread nD τ).loc main_arg1))) :=
  pre_col (W0 m ρ c)
theorem w3_main_arg2 : W3 m ρ c (Proc.devRef .tc main_arg2) = (m ((c.tc : Thread nD τ).loc main_arg2)) :=
  pre_arg2 (W0 m ρ c)
theorem w3_main_arg3 : W3 m ρ c (Proc.devRef .tc main_arg3) = (m ((c.tc : Thread nD τ).loc main_arg3)) :=
  pre_arg3 (W0 m ρ c)
theorem w3_main_arg4 : W3 m ρ c (Proc.devRef .tc main_arg4) = (m ((c.tc : Thread nD τ).loc main_arg4)) :=
  pre_arg4 (W0 m ρ c)
theorem w3_main_arg5 : W3 m ρ c (Proc.devRef .tc main_arg5) = (m ((c.tc : Thread nD τ).loc main_arg5)) :=
  pre_arg5 (W0 m ρ c)
theorem w3_main_arg6 : W3 m ρ c (Proc.devRef .tc main_arg6) = (m ((c.tc : Thread nD τ).loc main_arg6)) :=
  pre_arg6 (W0 m ρ c)
theorem w3_main_arg7 : W3 m ρ c (Proc.devRef .tc main_arg7) = (m ((c.tc : Thread nD τ).loc main_arg7)) :=
  pre_arg7 (W0 m ρ c)
theorem w3_main_arg8 : W3 m ρ c (Proc.devRef .tc main_arg8) = (m ((c.tc : Thread nD τ).loc main_arg8)) :=
  pre_arg8 (W0 m ρ c)
theorem w3_main_arg0 : W3 m ρ c (Proc.devRef .tc main_arg0) = (m ((c.tc : Thread nD τ).loc main_arg0)) :=
  pre_arg0 (W0 m ρ c)
theorem w3_main_v42 : W3 m ρ c (Proc.devRef .tc main_v42) = (propagate (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (m ((c.tc : Thread nD τ).loc main_arg0))) :=
  pre_prop (W0 m ρ c)
theorem w3_main_v44 : W3 m ρ c (Proc.devRef .tc main_v44) = wslice0 (m ((c.tc : Thread nD τ).loc main_arg2)) :=
  pre_w (W0 m ρ c)

/-! ## After region 0 -/

theorem w4_main_v29 : W4 m ρ c (Proc.devRef .tc main_v29) = (edgeNorm (rowIdx (m ((c.tc : Thread nD τ).loc main_arg1))) (colIdx (m ((c.tc : Thread nD τ).loc main_arg1)))) :=
  (W4_of_ne m ρ c main_v29 (by decide)).trans (w3_main_v29 m ρ c)
theorem w4_main_v3 : W4 m ρ c (Proc.devRef .tc main_v3) = (rowIdx (m ((c.tc : Thread nD τ).loc main_arg1))) :=
  (W4_of_ne m ρ c main_v3 (by decide)).trans (w3_main_v3 m ρ c)
theorem w4_main_v6 : W4 m ρ c (Proc.devRef .tc main_v6) = (colIdx (m ((c.tc : Thread nD τ).loc main_arg1))) :=
  (W4_of_ne m ρ c main_v6 (by decide)).trans (w3_main_v6 m ρ c)
theorem w4_main_arg2 : W4 m ρ c (Proc.devRef .tc main_arg2) = (m ((c.tc : Thread nD τ).loc main_arg2)) :=
  (W4_of_ne m ρ c main_arg2 (by decide)).trans (w3_main_arg2 m ρ c)
theorem w4_main_arg3 : W4 m ρ c (Proc.devRef .tc main_arg3) = (m ((c.tc : Thread nD τ).loc main_arg3)) :=
  (W4_of_ne m ρ c main_arg3 (by decide)).trans (w3_main_arg3 m ρ c)
theorem w4_main_arg4 : W4 m ρ c (Proc.devRef .tc main_arg4) = (m ((c.tc : Thread nD τ).loc main_arg4)) :=
  (W4_of_ne m ρ c main_arg4 (by decide)).trans (w3_main_arg4 m ρ c)
theorem w4_main_arg5 : W4 m ρ c (Proc.devRef .tc main_arg5) = (m ((c.tc : Thread nD τ).loc main_arg5)) :=
  (W4_of_ne m ρ c main_arg5 (by decide)).trans (w3_main_arg5 m ρ c)
theorem w4_main_arg6 : W4 m ρ c (Proc.devRef .tc main_arg6) = (m ((c.tc : Thread nD τ).loc main_arg6)) :=
  (W4_of_ne m ρ c main_arg6 (by decide)).trans (w3_main_arg6 m ρ c)
theorem w4_main_arg7 : W4 m ρ c (Proc.devRef .tc main_arg7) = (m ((c.tc : Thread nD τ).loc main_arg7)) :=
  (W4_of_ne m ρ c main_arg7 (by decide)).trans (w3_main_arg7 m ρ c)
theorem w4_main_arg8 : W4 m ρ c (Proc.devRef .tc main_arg8) = (m ((c.tc : Thread nD τ).loc main_arg8)) :=
  (W4_of_ne m ρ c main_arg8 (by decide)).trans (w3_main_arg8 m ρ c)
theorem w4_main_v45 : W4 m ρ c (Proc.devRef .tc main_v45) = (layer (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (m ((c.tc : Thread nD τ).loc main_arg0)) (wslice0 (m ((c.tc : Thread nD τ).loc main_arg2)))) := by
  refine (W4_arr m ρ c 3).trans ((final0_3 (V3 m ρ) c).trans ?_)
  rw [show V3 m ρ c main_v42 = _ from w3_main_v42 m ρ c, show V3 m ρ c main_arg0 = _ from w3_main_arg0 m ρ c, show V3 m ρ c main_v44 = _ from w3_main_v44 m ρ c]
  rfl

/-! ## After the stretch between regions 0 and 1 -/

theorem w5_main_v29 : W5 m ρ c (Proc.devRef .tc main_v29) = (edgeNorm (rowIdx (m ((c.tc : Thread nD τ).loc main_arg1))) (colIdx (m ((c.tc : Thread nD τ).loc main_arg1)))) :=
  (s1_keep_main_v29 (W4 m ρ c)).trans (w4_main_v29 m ρ c)
theorem w5_main_v3 : W5 m ρ c (Proc.devRef .tc main_v3) = (rowIdx (m ((c.tc : Thread nD τ).loc main_arg1))) :=
  (s1_keep_main_v3 (W4 m ρ c)).trans (w4_main_v3 m ρ c)
theorem w5_main_v6 : W5 m ρ c (Proc.devRef .tc main_v6) = (colIdx (m ((c.tc : Thread nD τ).loc main_arg1))) :=
  (s1_keep_main_v6 (W4 m ρ c)).trans (w4_main_v6 m ρ c)
theorem w5_main_arg2 : W5 m ρ c (Proc.devRef .tc main_arg2) = (m ((c.tc : Thread nD τ).loc main_arg2)) :=
  (s1_keep_main_arg2 (W4 m ρ c)).trans (w4_main_arg2 m ρ c)
theorem w5_main_arg3 : W5 m ρ c (Proc.devRef .tc main_arg3) = (m ((c.tc : Thread nD τ).loc main_arg3)) :=
  (s1_keep_main_arg3 (W4 m ρ c)).trans (w4_main_arg3 m ρ c)
theorem w5_main_arg4 : W5 m ρ c (Proc.devRef .tc main_arg4) = (m ((c.tc : Thread nD τ).loc main_arg4)) :=
  (s1_keep_main_arg4 (W4 m ρ c)).trans (w4_main_arg4 m ρ c)
theorem w5_main_arg5 : W5 m ρ c (Proc.devRef .tc main_arg5) = (m ((c.tc : Thread nD τ).loc main_arg5)) :=
  (s1_keep_main_arg5 (W4 m ρ c)).trans (w4_main_arg5 m ρ c)
theorem w5_main_arg6 : W5 m ρ c (Proc.devRef .tc main_arg6) = (m ((c.tc : Thread nD τ).loc main_arg6)) :=
  (s1_keep_main_arg6 (W4 m ρ c)).trans (w4_main_arg6 m ρ c)
theorem w5_main_arg7 : W5 m ρ c (Proc.devRef .tc main_arg7) = (m ((c.tc : Thread nD τ).loc main_arg7)) :=
  (s1_keep_main_arg7 (W4 m ρ c)).trans (w4_main_arg7 m ρ c)
theorem w5_main_arg8 : W5 m ρ c (Proc.devRef .tc main_arg8) = (m ((c.tc : Thread nD τ).loc main_arg8)) :=
  (s1_keep_main_arg8 (W4 m ρ c)).trans (w4_main_arg8 m ρ c)
theorem w5_main_v45 : W5 m ρ c (Proc.devRef .tc main_v45) = (layer (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (m ((c.tc : Thread nD τ).loc main_arg0)) (wslice0 (m ((c.tc : Thread nD τ).loc main_arg2)))) :=
  (s1_keep_main_v45 (W4 m ρ c)).trans (w4_main_v45 m ρ c)
theorem w5_main_v58 : W5 m ρ c (Proc.devRef .tc main_v58) = (propagate (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (layer (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (m ((c.tc : Thread nD τ).loc main_arg0)) (wslice0 (m ((c.tc : Thread nD τ).loc main_arg2))))) := by
  refine (s1_prop (W4 m ρ c)).trans ?_
  rw [w4_main_v29 m ρ c, w4_main_v3 m ρ c, w4_main_v6 m ρ c, w4_main_v45 m ρ c]
theorem w5_main_v60 : W5 m ρ c (Proc.devRef .tc main_v60) = wslice1 (m ((c.tc : Thread nD τ).loc main_arg2)) :=
  (s1_w (W4 m ρ c)).trans (congrArg wslice1 (w4_main_arg2 m ρ c))

/-! ## After region 1 -/

theorem w6_main_v29 : W6 m ρ c (Proc.devRef .tc main_v29) = (edgeNorm (rowIdx (m ((c.tc : Thread nD τ).loc main_arg1))) (colIdx (m ((c.tc : Thread nD τ).loc main_arg1)))) :=
  (W6_of_ne m ρ c main_v29 (by decide)).trans (w5_main_v29 m ρ c)
theorem w6_main_v3 : W6 m ρ c (Proc.devRef .tc main_v3) = (rowIdx (m ((c.tc : Thread nD τ).loc main_arg1))) :=
  (W6_of_ne m ρ c main_v3 (by decide)).trans (w5_main_v3 m ρ c)
theorem w6_main_v6 : W6 m ρ c (Proc.devRef .tc main_v6) = (colIdx (m ((c.tc : Thread nD τ).loc main_arg1))) :=
  (W6_of_ne m ρ c main_v6 (by decide)).trans (w5_main_v6 m ρ c)
theorem w6_main_arg2 : W6 m ρ c (Proc.devRef .tc main_arg2) = (m ((c.tc : Thread nD τ).loc main_arg2)) :=
  (W6_of_ne m ρ c main_arg2 (by decide)).trans (w5_main_arg2 m ρ c)
theorem w6_main_arg3 : W6 m ρ c (Proc.devRef .tc main_arg3) = (m ((c.tc : Thread nD τ).loc main_arg3)) :=
  (W6_of_ne m ρ c main_arg3 (by decide)).trans (w5_main_arg3 m ρ c)
theorem w6_main_arg4 : W6 m ρ c (Proc.devRef .tc main_arg4) = (m ((c.tc : Thread nD τ).loc main_arg4)) :=
  (W6_of_ne m ρ c main_arg4 (by decide)).trans (w5_main_arg4 m ρ c)
theorem w6_main_arg5 : W6 m ρ c (Proc.devRef .tc main_arg5) = (m ((c.tc : Thread nD τ).loc main_arg5)) :=
  (W6_of_ne m ρ c main_arg5 (by decide)).trans (w5_main_arg5 m ρ c)
theorem w6_main_arg6 : W6 m ρ c (Proc.devRef .tc main_arg6) = (m ((c.tc : Thread nD τ).loc main_arg6)) :=
  (W6_of_ne m ρ c main_arg6 (by decide)).trans (w5_main_arg6 m ρ c)
theorem w6_main_arg7 : W6 m ρ c (Proc.devRef .tc main_arg7) = (m ((c.tc : Thread nD τ).loc main_arg7)) :=
  (W6_of_ne m ρ c main_arg7 (by decide)).trans (w5_main_arg7 m ρ c)
theorem w6_main_arg8 : W6 m ρ c (Proc.devRef .tc main_arg8) = (m ((c.tc : Thread nD τ).loc main_arg8)) :=
  (W6_of_ne m ρ c main_arg8 (by decide)).trans (w5_main_arg8 m ρ c)
theorem w6_main_v61 : W6 m ρ c (Proc.devRef .tc main_v61) = (layer (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (layer (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (m ((c.tc : Thread nD τ).loc main_arg0)) (wslice0 (m ((c.tc : Thread nD τ).loc main_arg2)))) (wslice1 (m ((c.tc : Thread nD τ).loc main_arg2)))) := by
  refine (W6_arr m ρ c 3).trans ((final1_3 (V5 m ρ) c).trans ?_)
  rw [show V5 m ρ c main_v58 = _ from w5_main_v58 m ρ c, show V5 m ρ c main_v45 = _ from w5_main_v45 m ρ c, show V5 m ρ c main_v60 = _ from w5_main_v60 m ρ c]
  rfl

/-! ## After the stretch between regions 1 and 2 -/

theorem w7_main_v29 : W7 m ρ c (Proc.devRef .tc main_v29) = (edgeNorm (rowIdx (m ((c.tc : Thread nD τ).loc main_arg1))) (colIdx (m ((c.tc : Thread nD τ).loc main_arg1)))) :=
  (s2_keep_main_v29 (W6 m ρ c)).trans (w6_main_v29 m ρ c)
theorem w7_main_v3 : W7 m ρ c (Proc.devRef .tc main_v3) = (rowIdx (m ((c.tc : Thread nD τ).loc main_arg1))) :=
  (s2_keep_main_v3 (W6 m ρ c)).trans (w6_main_v3 m ρ c)
theorem w7_main_v6 : W7 m ρ c (Proc.devRef .tc main_v6) = (colIdx (m ((c.tc : Thread nD τ).loc main_arg1))) :=
  (s2_keep_main_v6 (W6 m ρ c)).trans (w6_main_v6 m ρ c)
theorem w7_main_arg2 : W7 m ρ c (Proc.devRef .tc main_arg2) = (m ((c.tc : Thread nD τ).loc main_arg2)) :=
  (s2_keep_main_arg2 (W6 m ρ c)).trans (w6_main_arg2 m ρ c)
theorem w7_main_arg3 : W7 m ρ c (Proc.devRef .tc main_arg3) = (m ((c.tc : Thread nD τ).loc main_arg3)) :=
  (s2_keep_main_arg3 (W6 m ρ c)).trans (w6_main_arg3 m ρ c)
theorem w7_main_arg4 : W7 m ρ c (Proc.devRef .tc main_arg4) = (m ((c.tc : Thread nD τ).loc main_arg4)) :=
  (s2_keep_main_arg4 (W6 m ρ c)).trans (w6_main_arg4 m ρ c)
theorem w7_main_arg5 : W7 m ρ c (Proc.devRef .tc main_arg5) = (m ((c.tc : Thread nD τ).loc main_arg5)) :=
  (s2_keep_main_arg5 (W6 m ρ c)).trans (w6_main_arg5 m ρ c)
theorem w7_main_arg6 : W7 m ρ c (Proc.devRef .tc main_arg6) = (m ((c.tc : Thread nD τ).loc main_arg6)) :=
  (s2_keep_main_arg6 (W6 m ρ c)).trans (w6_main_arg6 m ρ c)
theorem w7_main_arg7 : W7 m ρ c (Proc.devRef .tc main_arg7) = (m ((c.tc : Thread nD τ).loc main_arg7)) :=
  (s2_keep_main_arg7 (W6 m ρ c)).trans (w6_main_arg7 m ρ c)
theorem w7_main_arg8 : W7 m ρ c (Proc.devRef .tc main_arg8) = (m ((c.tc : Thread nD τ).loc main_arg8)) :=
  (s2_keep_main_arg8 (W6 m ρ c)).trans (w6_main_arg8 m ρ c)
theorem w7_main_v61 : W7 m ρ c (Proc.devRef .tc main_v61) = (layer (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (layer (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (m ((c.tc : Thread nD τ).loc main_arg0)) (wslice0 (m ((c.tc : Thread nD τ).loc main_arg2)))) (wslice1 (m ((c.tc : Thread nD τ).loc main_arg2)))) :=
  (s2_keep_main_v61 (W6 m ρ c)).trans (w6_main_v61 m ρ c)
theorem w7_main_v74 : W7 m ρ c (Proc.devRef .tc main_v74) = (propagate (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (layer (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (layer (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (m ((c.tc : Thread nD τ).loc main_arg0)) (wslice0 (m ((c.tc : Thread nD τ).loc main_arg2)))) (wslice1 (m ((c.tc : Thread nD τ).loc main_arg2))))) := by
  refine (s2_prop (W6 m ρ c)).trans ?_
  rw [w6_main_v29 m ρ c, w6_main_v3 m ρ c, w6_main_v6 m ρ c, w6_main_v61 m ρ c]
theorem w7_main_v76 : W7 m ρ c (Proc.devRef .tc main_v76) = wslice2 (m ((c.tc : Thread nD τ).loc main_arg2)) :=
  (s2_w (W6 m ρ c)).trans (congrArg wslice2 (w6_main_arg2 m ρ c))

/-! ## After regions 2 and 3 -/

theorem w8_main_v29 : W8 m ρ c (Proc.devRef .tc main_v29) = (edgeNorm (rowIdx (m ((c.tc : Thread nD τ).loc main_arg1))) (colIdx (m ((c.tc : Thread nD τ).loc main_arg1)))) :=
  (W8_of_ne m ρ c main_v29 (by decide)).trans (w7_main_v29 m ρ c)
theorem w8_main_v3 : W8 m ρ c (Proc.devRef .tc main_v3) = (rowIdx (m ((c.tc : Thread nD τ).loc main_arg1))) :=
  (W8_of_ne m ρ c main_v3 (by decide)).trans (w7_main_v3 m ρ c)
theorem w8_main_v6 : W8 m ρ c (Proc.devRef .tc main_v6) = (colIdx (m ((c.tc : Thread nD τ).loc main_arg1))) :=
  (W8_of_ne m ρ c main_v6 (by decide)).trans (w7_main_v6 m ρ c)
theorem w8_main_arg2 : W8 m ρ c (Proc.devRef .tc main_arg2) = (m ((c.tc : Thread nD τ).loc main_arg2)) :=
  (W8_of_ne m ρ c main_arg2 (by decide)).trans (w7_main_arg2 m ρ c)
theorem w8_main_arg3 : W8 m ρ c (Proc.devRef .tc main_arg3) = (m ((c.tc : Thread nD τ).loc main_arg3)) :=
  (W8_of_ne m ρ c main_arg3 (by decide)).trans (w7_main_arg3 m ρ c)
theorem w8_main_arg4 : W8 m ρ c (Proc.devRef .tc main_arg4) = (m ((c.tc : Thread nD τ).loc main_arg4)) :=
  (W8_of_ne m ρ c main_arg4 (by decide)).trans (w7_main_arg4 m ρ c)
theorem w8_main_arg5 : W8 m ρ c (Proc.devRef .tc main_arg5) = (m ((c.tc : Thread nD τ).loc main_arg5)) :=
  (W8_of_ne m ρ c main_arg5 (by decide)).trans (w7_main_arg5 m ρ c)
theorem w8_main_arg6 : W8 m ρ c (Proc.devRef .tc main_arg6) = (m ((c.tc : Thread nD τ).loc main_arg6)) :=
  (W8_of_ne m ρ c main_arg6 (by decide)).trans (w7_main_arg6 m ρ c)
theorem w8_main_arg7 : W8 m ρ c (Proc.devRef .tc main_arg7) = (m ((c.tc : Thread nD τ).loc main_arg7)) :=
  (W8_of_ne m ρ c main_arg7 (by decide)).trans (w7_main_arg7 m ρ c)
theorem w8_main_arg8 : W8 m ρ c (Proc.devRef .tc main_arg8) = (m ((c.tc : Thread nD τ).loc main_arg8)) :=
  (W8_of_ne m ρ c main_arg8 (by decide)).trans (w7_main_arg8 m ρ c)
theorem w8_main_v77 : W8 m ρ c (Proc.devRef .tc main_v77) = (layer (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (layer (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (layer (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (m ((c.tc : Thread nD τ).loc main_arg0)) (wslice0 (m ((c.tc : Thread nD τ).loc main_arg2)))) (wslice1 (m ((c.tc : Thread nD τ).loc main_arg2)))) (wslice2 (m ((c.tc : Thread nD τ).loc main_arg2)))) := by
  refine (W8_arr m ρ c 3).trans ((final2_3 (V7 m ρ) c).trans ?_)
  rw [show V7 m ρ c main_v74 = _ from w7_main_v74 m ρ c, show V7 m ρ c main_v61 = _ from w7_main_v61 m ρ c, show V7 m ρ c main_v76 = _ from w7_main_v76 m ρ c]
  rfl
theorem w9_main_v29 : W9 m ρ c (Proc.devRef .tc main_v29) = (edgeNorm (rowIdx (m ((c.tc : Thread nD τ).loc main_arg1))) (colIdx (m ((c.tc : Thread nD τ).loc main_arg1)))) :=
  (W9_of_ne m ρ c main_v29 (by decide)).trans (w8_main_v29 m ρ c)
theorem w9_main_v3 : W9 m ρ c (Proc.devRef .tc main_v3) = (rowIdx (m ((c.tc : Thread nD τ).loc main_arg1))) :=
  (W9_of_ne m ρ c main_v3 (by decide)).trans (w8_main_v3 m ρ c)
theorem w9_main_v6 : W9 m ρ c (Proc.devRef .tc main_v6) = (colIdx (m ((c.tc : Thread nD τ).loc main_arg1))) :=
  (W9_of_ne m ρ c main_v6 (by decide)).trans (w8_main_v6 m ρ c)
theorem w9_main_arg2 : W9 m ρ c (Proc.devRef .tc main_arg2) = (m ((c.tc : Thread nD τ).loc main_arg2)) :=
  (W9_of_ne m ρ c main_arg2 (by decide)).trans (w8_main_arg2 m ρ c)
theorem w9_main_arg4 : W9 m ρ c (Proc.devRef .tc main_arg4) = (m ((c.tc : Thread nD τ).loc main_arg4)) :=
  (W9_of_ne m ρ c main_arg4 (by decide)).trans (w8_main_arg4 m ρ c)
theorem w9_main_arg5 : W9 m ρ c (Proc.devRef .tc main_arg5) = (m ((c.tc : Thread nD τ).loc main_arg5)) :=
  (W9_of_ne m ρ c main_arg5 (by decide)).trans (w8_main_arg5 m ρ c)
theorem w9_main_arg6 : W9 m ρ c (Proc.devRef .tc main_arg6) = (m ((c.tc : Thread nD τ).loc main_arg6)) :=
  (W9_of_ne m ρ c main_arg6 (by decide)).trans (w8_main_arg6 m ρ c)
theorem w9_main_arg7 : W9 m ρ c (Proc.devRef .tc main_arg7) = (m ((c.tc : Thread nD τ).loc main_arg7)) :=
  (W9_of_ne m ρ c main_arg7 (by decide)).trans (w8_main_arg7 m ρ c)
theorem w9_main_arg8 : W9 m ρ c (Proc.devRef .tc main_arg8) = (m ((c.tc : Thread nD τ).loc main_arg8)) :=
  (W9_of_ne m ρ c main_arg8 (by decide)).trans (w8_main_arg8 m ρ c)
theorem w9_main_v78 : W9 m ρ c (Proc.devRef .tc main_v78) = (prod (A := 100000) (K := 64) (B := 64) (layer (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (layer (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (layer (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (m ((c.tc : Thread nD τ).loc main_arg0)) (wslice0 (m ((c.tc : Thread nD τ).loc main_arg2)))) (wslice1 (m ((c.tc : Thread nD τ).loc main_arg2)))) (wslice2 (m ((c.tc : Thread nD τ).loc main_arg2)))) (m ((c.tc : Thread nD τ).loc main_arg3))) := by
  refine (W9_arr m ρ c 2).trans ((final3_2 (V8 m ρ) c).trans ?_)
  rw [show V8 m ρ c main_v77 = _ from w8_main_v77 m ρ c, show V8 m ρ c main_arg3 = _ from w8_main_arg3 m ρ c]

/-! ## After the last stretch -/

theorem w10_main_arg5 : W10 m ρ c (Proc.devRef .tc main_arg5) = (m ((c.tc : Thread nD τ).loc main_arg5)) :=
  (s4_keep_main_arg5 (W9 m ρ c)).trans (w9_main_arg5 m ρ c)
theorem w10_main_arg7 : W10 m ρ c (Proc.devRef .tc main_arg7) = (m ((c.tc : Thread nD τ).loc main_arg7)) :=
  (s4_keep_main_arg7 (W9 m ρ c)).trans (w9_main_arg7 m ρ c)
theorem w10_main_v91 : W10 m ρ c (Proc.devRef .tc main_v91) = (propagate (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (prod (A := 100000) (K := 64) (B := 64) (layer (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (layer (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (layer (edgeNorm (rowIdx (m ((c.tc : Thread nD τ).loc main_arg1))) (colIdx (m ((c.tc : Thread nD τ).loc main_arg1)))) (rowIdx (m ((c.tc : Thread nD τ).loc main_arg1))) (colIdx (m ((c.tc : Thread nD τ).loc main_arg1))) (m ((c.tc : Thread nD τ).loc main_arg0)) (wslice0 (m ((c.tc : Thread nD τ).loc main_arg2)))) (wslice1 (m ((c.tc : Thread nD τ).loc main_arg2)))) (wslice2 (m ((c.tc : Thread nD τ).loc main_arg2)))) (m ((c.tc : Thread nD τ).loc main_arg3)))) := by
  refine (s4_prop (W9 m ρ c)).trans ?_
  rw [w9_main_v29 m ρ c, w9_main_v3 m ρ c, w9_main_v6 m ρ c, w9_main_v78 m ρ c]
theorem w10_main_v92 : W10 m ρ c (Proc.devRef .tc main_v92) = row64 (m ((c.tc : Thread nD τ).loc main_arg4)) :=
  (s4_main_v92 (W9 m ρ c)).trans (congrArg row64 (w9_main_arg4 m ρ c))
theorem w10_main_v93 : W10 m ρ c (Proc.devRef .tc main_v93) = row4 (m ((c.tc : Thread nD τ).loc main_arg6)) :=
  (s4_main_v93 (W9 m ρ c)).trans (congrArg row4 (w9_main_arg6 m ρ c))
theorem w10_main_v94 : W10 m ρ c (Proc.devRef .tc main_v94) = row3 (m ((c.tc : Thread nD τ).loc main_arg8)) :=
  (s4_main_v94 (W9 m ρ c)).trans (congrArg row3 (w9_main_arg8 m ρ c))

/-! ## The results -/

theorem w11_main_v95_2 : W11 m ρ c (Proc.devRef .tc main_v95_2) = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W11_arr m ρ c 8).trans ((final4_8 (V10 m ρ) c).trans ?_)
  rw [show V10 m ρ c main_v91 = _ from w10_main_v91 m ρ c, show V10 m ρ c main_v92 = _ from w10_main_v92 m ρ c]
  rfl
theorem w11_main_v95_0 : W11 m ρ c (Proc.devRef .tc main_v95_0) = head1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W11_arr m ρ c 6).trans ((final4_6 (V10 m ρ) c).trans ?_)
  rw [show V10 m ρ c main_v91 = _ from w10_main_v91 m ρ c, show V10 m ρ c main_v92 = _ from w10_main_v92 m ρ c, show V10 m ρ c main_arg5 = _ from w10_main_arg5 m ρ c, show V10 m ρ c main_v93 = _ from w10_main_v93 m ρ c]
  rfl
theorem w11_main_v95_1 : W11 m ρ c (Proc.devRef .tc main_v95_1) = head2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  refine (W11_arr m ρ c 7).trans ((final4_7 (V10 m ρ) c).trans ?_)
  rw [show V10 m ρ c main_v91 = _ from w10_main_v91 m ρ c, show V10 m ρ c main_v92 = _ from w10_main_v92 m ρ c, show V10 m ρ c main_arg7 = _ from w10_main_arg7 m ρ c, show V10 m ρ c main_v94 = _ from w10_main_v94 m ρ c]
  rfl

end Cert.KernelIdeal.Value

end
-- ==== Proof.RefStages.lean ====
/-
  THE REFERENCE PROGRAM, STAGE BY STAGE, IS THE NETWORK FUNCTION.

  The reference first lays out the graph: the source and target node of every edge with the self loops appended,
  the degree of every node (ones scatter-added at the targets), deg^(-1/2) where that is positive, and per edge the
  product of the two endpoint values.  These lines are, word for word, the graph functions of the specification, so
  each equals its specification counterpart by unfolding the definitions.  Each of the four aggregations is the same
  text again (gather the source rows, scale by the edge weight, scatter-add at the targets) over a different array.
  Between them sit the dense stages: three times the blend (9/10 word) · A y + (1/10 word) · y, a product with one
  matrix of the stack and a maximum against zero — the residual layer —, then a bare product with the projection
  matrix, and after the last aggregation the bias vector broadcast twice and added: the hidden array.  The two heads
  are a product plus a bias vector broadcast twice.  Each dense stage is the whole-array form of the corresponding
  entrywise function, so composing the stage equations gives the three network functions.
-/
import proofs.«180074_j12687333392405_1_alg».proof.Proof.RefReadP
import proofs.«180074_j12687333392405_1_alg».proof.Proof.Net

noncomputable section

namespace Cert.ReferenceIdeal.Stages

open Idealize.ShloMosaic Cert.ReferenceIdeal.ReadP Cert.KernelIdeal.Net Cert.KernelIdeal.Glue
open Cert.Lib.BlendDense Cert.Lib.GcnDense

/-- The edge table's type. -/
abbrev Edges := (⟨S2x1000000, .i32⟩ : BufTy).Contents (Elt Ideal)

/-! ## The graph side: the same text in both programs -/

/-- The edges' source nodes with the self loops appended. -/
theorem row_eq (x1 : Edges) : val_main_v3 (F := Ideal) x1 = rowIdx x1 := rfl

/-- The edges' target nodes with the self loops appended. -/
theorem col_eq (x1 : Edges) : val_main_v6 (F := Ideal) x1 = colIdx x1 := rfl

/-- deg^(-1/2) where the degree is positive, 0 elsewhere. -/
theorem degInv_eq (x1 : Edges) : val_main_v14 (F := Ideal) x1 = degInv (colIdx x1) := rfl

/-- The per-edge weight. -/
theorem nrm_eq (x1 : Edges) : val_main_v29 (F := Ideal) x1 = edgeNorm (rowIdx x1) (colIdx x1) := rfl

/-- The three matrices of the stack. -/
theorem w0_eq (x2 : Mat S3x64x64) : val_main_v49 (F := Ideal) x2 = wslice0 x2 := rfl
theorem w1_eq (x2 : Mat S3x64x64) : val_main_v71 (F := Ideal) x2 = wslice1 x2 := rfl
theorem w2_eq (x2 : Mat S3x64x64) : val_main_v93 (F := Ideal) x2 = wslice2 x2 := rfl

/-- The four aggregations: each gathers the source rows of its array, scales them by the edge weight and
    scatter-adds them at the targets. -/
theorem agg1_eq (x0 : Mat S100000x64) (x1 : Edges) :
    val_main_v42 (F := Ideal) x0 x1 = propagate (edgeNorm (rowIdx x1) (colIdx x1)) (rowIdx x1) (colIdx x1) x0 := rfl

theorem agg2_eq (x0 : Mat S100000x64) (x1 : Edges) (x2 : Mat S3x64x64) :
    val_main_v64 (F := Ideal) x0 x1 x2
      = propagate (edgeNorm (rowIdx x1) (colIdx x1)) (rowIdx x1) (colIdx x1) (val_main_v51 (F := Ideal) x0 x1 x2) := rfl

theorem agg3_eq (x0 : Mat S100000x64) (x1 : Edges) (x2 : Mat S3x64x64) :
    val_main_v86 (F := Ideal) x0 x1 x2
      = propagate (edgeNorm (rowIdx x1) (colIdx x1)) (rowIdx x1) (colIdx x1) (val_main_v73 (F := Ideal) x0 x1 x2) := rfl

theorem agg4_eq (x0 : Mat S100000x64) (x1 : Edges) (x2 : Mat S3x64x64) (x3 : Mat S64x64) :
    val_main_v109 (F := Ideal) x0 x1 x2 x3
      = propagate (edgeNorm (rowIdx x1) (colIdx x1)) (rowIdx x1) (colIdx x1) (val_main_v96 (F := Ideal) x0 x1 x2 x3) := rfl

/-! ## The dense stages: the whole-array form of each entrywise function -/

/-- The first residual layer. -/
theorem layer1_eq (x0 : Mat S100000x64) (x1 : Edges) (x2 : Mat S3x64x64) :
    val_main_v51 (F := Ideal) x0 x1 x2
      = layer (edgeNorm (rowIdx x1) (colIdx x1)) (rowIdx x1) (colIdx x1) x0 (wslice0 x2) := by
  have h : val_main_v51 (F := Ideal) x0 x1 x2
      = blendRelu (A := 100000) (K := 64) (B := 64) 0x3F666666#32 0x3DCCCCCD#32
          (val_main_v42 (F := Ideal) x0 x1) x0 (val_main_v49 (F := Ideal) x2) :=
    hostBlend_eq (A := 100000) (K := 64) (B := 64) dot_S100000x64_S64x64_S100000x64_1_0_0_1_n_n
      rfl rfl rfl rfl rfl rfl 0x3F666666#32 0x3DCCCCCD#32 (val_main_v42 (F := Ideal) x0 x1) x0 (val_main_v49 (F := Ideal) x2)
      Gen.bcast_S_S100000x64 Gen.bcast_S_S100000x64
  rw [h, agg1_eq, w0_eq]
  rfl

/-- The second residual layer, over the first one's result. -/
theorem layer2_eq (x0 : Mat S100000x64) (x1 : Edges) (x2 : Mat S3x64x64) :
    val_main_v73 (F := Ideal) x0 x1 x2
      = layer (edgeNorm (rowIdx x1) (colIdx x1)) (rowIdx x1) (colIdx x1)
          (layer (edgeNorm (rowIdx x1) (colIdx x1)) (rowIdx x1) (colIdx x1) x0 (wslice0 x2)) (wslice1 x2) := by
  have h : val_main_v73 (F := Ideal) x0 x1 x2
      = blendRelu (A := 100000) (K := 64) (B := 64) 0x3F666666#32 0x3DCCCCCD#32
          (val_main_v64 (F := Ideal) x0 x1 x2) (val_main_v51 (F := Ideal) x0 x1 x2) (val_main_v71 (F := Ideal) x2) :=
    hostBlend_eq (A := 100000) (K := 64) (B := 64) dot_S100000x64_S64x64_S100000x64_1_0_0_1_n_n
      rfl rfl rfl rfl rfl rfl 0x3F666666#32 0x3DCCCCCD#32 (val_main_v64 (F := Ideal) x0 x1 x2)
      (val_main_v51 (F := Ideal) x0 x1 x2) (val_main_v71 (F := Ideal) x2)
      Gen.bcast_S_S100000x64 Gen.bcast_S_S100000x64
  rw [h, agg2_eq, layer1_eq, w1_eq]
  rfl

/-- The third residual layer: the features after the three layers. -/
theorem feat3_eq (x0 : Mat S100000x64) (x1 : Edges) (x2 : Mat S3x64x64) :
    val_main_v95 (F := Ideal) x0 x1 x2 = feat3 x0 x1 x2 := by
  have h : val_main_v95 (F := Ideal) x0 x1 x2
      = blendRelu (A := 100000) (K := 64) (B := 64) 0x3F666666#32 0x3DCCCCCD#32
          (val_main_v86 (F := Ideal) x0 x1 x2) (val_main_v73 (F := Ideal) x0 x1 x2) (val_main_v93 (F := Ideal) x2) :=
    hostBlend_eq (A := 100000) (K := 64) (B := 64) dot_S100000x64_S64x64_S100000x64_1_0_0_1_n_n
      rfl rfl rfl rfl rfl rfl 0x3F666666#32 0x3DCCCCCD#32 (val_main_v86 (F := Ideal) x0 x1 x2)
      (val_main_v73 (F := Ideal) x0 x1 x2) (val_main_v93 (F := Ideal) x2)
      Gen.bcast_S_S100000x64 Gen.bcast_S_S100000x64
  rw [h, agg3_eq, layer2_eq, w2_eq]
  rfl

/-- The projection: a bare product with the projection matrix. -/
theorem proj_eq (x0 : Mat S100000x64) (x1 : Edges) (x2 : Mat S3x64x64) (x3 : Mat S64x64) :
    val_main_v96 (F := Ideal) x0 x1 x2 x3 = prod (A := 100000) (K := 64) (B := 64) (feat3 x0 x1 x2) x3 := by
  have h : val_main_v96 (F := Ideal) x0 x1 x2 x3
      = prod (A := 100000) (K := 64) (B := 64) (val_main_v95 (F := Ideal) x0 x1 x2) x3 :=
    hostProd_eq (A := 100000) (K := 64) (B := 64) dot_S100000x64_S64x64_S100000x64_1_0_0_1_n_n
      rfl rfl rfl rfl rfl rfl (val_main_v95 (F := Ideal) x0 x1 x2) x3
  rw [h, feat3_eq]

/-! ## The three results -/

/-- The hidden array: the aggregated projection plus the bias vector broadcast over the rows. -/
theorem hidden_eq (x0 : Mat S100000x64) (x1 : Edges) (x2 : Mat S3x64x64) (x3 : Mat S64x64) (x4 : Mat S64) :
    val_main_v112 (F := Ideal) x0 x1 x2 x3 x4 = hidden x0 x1 x2 x3 x4 := by
  have h : val_main_v112 (F := Ideal) x0 x1 x2 x3 x4
      = addRow (A := 100000) (B := 64) (val_main_v109 (F := Ideal) x0 x1 x2 x3) (row64 x4) :=
    hostAddRow_eq (A := 100000) (B := 64) (val_main_v109 (F := Ideal) x0 x1 x2 x3) x4
      Gen.bcast_S64_S1x64_1 Gen.bcast_S1x64_S100000x64_0_1 _
  rw [h, agg4_eq, proj_eq]
  rfl

/-- The first head: the hidden array times its matrix plus its bias vector broadcast over the rows. -/
theorem head1_eq (x0 : Mat S100000x64) (x1 : Edges) (x2 : Mat S3x64x64) (x3 : Mat S64x64) (x4 : Mat S64)
    (x5 : Mat S64x4) (x6 : Mat S4) :
    val_main_v116 (F := Ideal) x0 x1 x2 x3 x4 x5 x6 = head1 x0 x1 x2 x3 x4 x5 x6 := by
  have h : val_main_v116 (F := Ideal) x0 x1 x2 x3 x4 x5 x6
      = linRow (A := 100000) (K := 64) (B := 4) (val_main_v112 (F := Ideal) x0 x1 x2 x3 x4) x5 (row4 x6) :=
    hostLin_eq (A := 100000) (K := 64) (B := 4) dot_S100000x64_S64x4_S100000x4_1_0_0_1_n_n
      rfl rfl rfl rfl rfl rfl (val_main_v112 (F := Ideal) x0 x1 x2 x3 x4) x5 x6
      Gen.bcast_S4_S1x4_1 Gen.bcast_S1x4_S100000x4_0_1 _
  rw [h, hidden_eq]
  rfl

/-- The second head. -/
theorem head2_eq (x0 : Mat S100000x64) (x1 : Edges) (x2 : Mat S3x64x64) (x3 : Mat S64x64) (x4 : Mat S64)
    (x7 : Mat S64x3) (x8 : Mat S3) :
    val_main_v120 (F := Ideal) x0 x1 x2 x3 x4 x7 x8 = head2 x0 x1 x2 x3 x4 x7 x8 := by
  have h : val_main_v120 (F := Ideal) x0 x1 x2 x3 x4 x7 x8
      = linRow (A := 100000) (K := 64) (B := 3) (val_main_v112 (F := Ideal) x0 x1 x2 x3 x4) x7 (row3 x8) :=
    hostLin_eq (A := 100000) (K := 64) (B := 3) dot_S100000x64_S64x3_S100000x3_1_0_0_1_n_n
      rfl rfl rfl rfl rfl rfl (val_main_v112 (F := Ideal) x0 x1 x2 x3 x4) x7 x8
      Gen.bcast_S3_S1x3_1 Gen.bcast_S1x3_S100000x3_0_1 _
  rw [h, hidden_eq]
  rfl

end Cert.ReferenceIdeal.Stages

end
-- ==== Proof.lean ====
/-
  The kernel is a three-layer residual graph network with a projection layer and two classification heads, its
  dense stages five tiled TensorCore regions and its graph stages (degree normalisation, gather along the edges,
  scatter-add into the target rows) host lines; the reference is the same network in plain host operations.

  Over the extended reals the two programs compute one function of the arguments (Net.lean): the graph stages
  are the same host lines in both programs; each region's result entry (r, c) is a sum over k of products of row r
  of its row-blocked operands with column c of a small matrix — the very sum the reference's dot_general states —
  so the twenty row blocks written back are the blocks of the reference's whole-array stage, and the narrowing to
  bf16 on the way into a product is the identity.  No law of the reals beyond this re-reading is used, so the
  precondition is never opened.  The ideal pass rewrote nothing, so `preserves` is trivial.
-/
import proofs.«180074_j12687333392405_1_alg».proof.Defs
import proofs.«180074_j12687333392405_1_alg».proof.Proof.Gen.Kernel
import proofs.«180074_j12687333392405_1_alg».proof.Proof.Gen.Kernel.Skeleton
import proofs.«180074_j12687333392405_1_alg».proof.Proof.Gen.Kernel.Launch
import proofs.«180074_j12687333392405_1_alg».proof.Proof.Gen.Kernel.Points
import proofs.«180074_j12687333392405_1_alg».proof.Proof.Gen.Kernel.Frame
import proofs.«180074_j12687333392405_1_alg».proof.Proof.Gen.KernelIdeal
import proofs.«180074_j12687333392405_1_alg».proof.Proof.Gen.KernelIdeal.Skeleton
import proofs.«180074_j12687333392405_1_alg».proof.Proof.Gen.KernelIdeal.Launch
import proofs.«180074_j12687333392405_1_alg».proof.Proof.Gen.KernelIdeal.Points
import proofs.«180074_j12687333392405_1_alg».proof.Proof.Gen.KernelIdeal.Frame
import proofs.«180074_j12687333392405_1_alg».proof.Proof.Gen.ReferenceIdeal
import proofs.«180074_j12687333392405_1_alg».proof.Proof.RefRunP
import proofs.«180074_j12687333392405_1_alg».proof.Proof.RefReadP
import proofs.«180074_j12687333392405_1_alg».proof.Proof.Gen.Pre_finite_inputs
import proofs.«180074_j12687333392405_1_alg».proof.Proof.KernelRun
import proofs.«180074_j12687333392405_1_alg».proof.Proof.KernelValue
import proofs.«180074_j12687333392405_1_alg».proof.Proof.RefStages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.ValueP.run (F := Ideal) m ρ)

/-- Both programs end with the two heads and the hidden array of the network of the kernel's arguments: the kernel by
    following its buffers through the segments, the reference by its stages, the arguments agreeing. -/
theorem algebraic : Cert.algebraic_KernelIdeal_ReferenceIdeal := by
  intro m ρ m' ρ' _ hagree
  refine ⟨fun c => Cert.KernelIdeal.Net.head1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.KernelIdeal.Net.head2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.KernelIdeal.Net.hidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Value.w11_main_v95_0 m ρ c),
        (h c).2.1.trans (Cert.KernelIdeal.Value.w11_main_v95_1 m ρ c),
        (h c).2.2.1.trans (Cert.KernelIdeal.Value.w11_main_v95_2 m ρ c), (h c).2.2.2⟩)
      (Cert.KernelIdeal.Results.run (F := Ideal) m ρ)
  · refine (θ_run Cert.ReferenceIdeal.defs _ _).mono (fun r h c => ⟨?_, ?_, ?_, (h c).2.2.2⟩)
      (Cert.ReferenceIdeal.ValueP.run (F := Ideal) m' ρ')
    · rw [(h c).1, Cert.ReferenceIdeal.ReadP.val_main_v116_eq, Cert.ReferenceIdeal.Stages.head1_eq,
        (hagree c).1, (hagree c).2.1, (hagree c).2.2.1, (hagree c).2.2.2.1, (hagree c).2.2.2.2.1,
        (hagree c).2.2.2.2.2.1, (hagree c).2.2.2.2.2.2.1]
    · rw [(h c).2.1, Cert.ReferenceIdeal.ReadP.val_main_v120_eq, Cert.ReferenceIdeal.Stages.head2_eq,
        (hagree c).1, (hagree c).2.1, (hagree c).2.2.1, (hagree c).2.2.2.1, (hagree c).2.2.2.2.1,
        (hagree c).2.2.2.2.2.2.2.1, (hagree c).2.2.2.2.2.2.2.2]
    · rw [(h c).2.2.1, Cert.ReferenceIdeal.ReadP.val_main_v112_eq, Cert.ReferenceIdeal.Stages.hidden_eq,
        (hagree c).1, (hagree c).2.1, (hagree c).2.2.1, (hagree c).2.2.2.1, (hagree c).2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
